-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14_2)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_2) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x65536 : Shape := ⟨2, ![2048, 65536]⟩
abbrev S2048x1 : Shape := ⟨2, ![2048, 1]⟩
abbrev S65536x64 : Shape := ⟨2, ![65536, 64]⟩
abbrev S64x1 : Shape := ⟨2, ![64, 1]⟩
abbrev S_ : Shape := ⟨0, ![]⟩

class Facts : Prop where
  bcast_S_S2048x65536 : S_.BroadcastsInDim S2048x65536 (![] : Fin 0 → Fin S2048x65536.rank)
  reducesTo_S2048x65536_S_d0_1 : S2048x65536.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S65536x64 : S_.BroadcastsInDim S65536x64 (![] : Fin 0 → Fin S65536x64.rank)
  reducesTo_S65536x64_S_d0_1 : S65536x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  main_v18

def fn {F : FTy → Type} [FloatOps F] (main_arg0 : FVec F S2048x65536 .f32) (main_arg1 : FVec F S2048x1 .f32) (main_arg2 : FVec F S65536x64 .f32) (main_arg3 : FVec F S64x1 .f32) : IVec S_ 1 :=
  let main_v0 : FVec F S2048x65536 .f32 := Host.absf main_arg0
  let main_cst : FVec F S_ .f32 := constant S_ .f32 0x7F800000#32
  let main_v1 : FVec F S2048x65536 .f32 := broadcastInDim S2048x65536 ![] bcast_S_S2048x65536 main_cst
  let main_v2 : IVec S2048x65536 1 := cmpf .olt main_v0 main_v1
  let main_c : IVec S_ 1 := constantI S_ 1 1#1
  let main_v3 : IVec S_ 1 := (fun x v => Host.reduce IntOp.andi x v reducesTo_S2048x65536_S_d0_1 h_S_) main_v2 main_c
  let main_v4 : FVec F S2048x1 .f32 := Host.absf main_arg1
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S65536x64 .f32 := Host.absf main_arg2
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_v13 main_v16
-- ==== Kernel.lean ====
abbrev S2048x65536 : Shape := ⟨2, ![2048, 65536]⟩
abbrev S2048x1 : Shape := ⟨2, ![2048, 1]⟩
abbrev S65536x64 : Shape := ⟨2, ![65536, 64]⟩
abbrev S64x1 : Shape := ⟨2, ![64, 1]⟩
abbrev S65536x1 : Shape := ⟨2, ![65536, 1]⟩
abbrev S1x65536 : Shape := ⟨2, ![1, 65536]⟩
abbrev S_ : Shape := ⟨0, ![]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 25
  | .vmem => 26
  | .smem => 0
  | _ => 0

abbrev bufTy : (tb : Table) → Fin (tcTables nBuf tb) → BufTy
  | .hbm, ⟨0, _⟩ => ⟨S2048x65536, .f32⟩
  | .hbm, ⟨1, _⟩ => ⟨S2048x1, .f32⟩
  | .hbm, ⟨2, _⟩ => ⟨S65536x64, .f32⟩
  | .hbm, ⟨3, _⟩ => ⟨S64x1, .f32⟩
  | .hbm, ⟨4, _⟩ => ⟨S65536x1, .f32⟩
  | .hbm, ⟨5, _⟩ => ⟨S1x65536, .f32⟩
  | .hbm, ⟨6, _⟩ => ⟨S_, .f32⟩
  | .hbm, ⟨7, _⟩ => ⟨S1x65536, .f32⟩
  | .hbm, ⟨8, _⟩ => ⟨S1x65536, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2048x1, .f32⟩
  | .hbm, ⟨15, _⟩ => ⟨S2048x1, .i1⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x65536, .f32⟩
  | .hbm, ⟨23, _⟩ => ⟨S2048x65536, .f32⟩
  | .hbm, ⟨24, _⟩ => ⟨S2048x1, .f32⟩
  | .local _ .vmem, ⟨0, _⟩ => ⟨S1024x1, .f32⟩
  | .local _ .vmem, ⟨1, _⟩ => ⟨S1024x1, .f32⟩
  | .local _ .vmem, ⟨2, _⟩ => ⟨S1x2048, .f32⟩
  | .local _ .vmem, ⟨3, _⟩ => ⟨S1x2048, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1x1024, .f32⟩
  | .local _ .vmem, ⟨12, _⟩ => ⟨S1x1024, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | _, _ => ⟨S2048x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v21 : BitVec 1 := Scalar.cmpi .eq arg1 c31_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 64], ![false, false]⟩

def k1_cond2 (i : grid1.Coords) : BitVec 1 :=
  let arg1 : BitVec 32 := BitVec.ofNat 32 (i 1).val
  let c63_i32 : BitVec 32 := 63#32
  let v29 : BitVec 1 := Scalar.cmpi .eq arg1 c63_i32
  let v30 : BitVec 32 := Scalar.extui v29
  let c0_i32_18 : BitVec 32 := 0#32
  let v31 : BitVec 1 := Scalar.cmpi .ne v30 c0_i32_18
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S65536x1_S1x65536 : S65536x1.ShapeCasts S1x65536
  bcast_S_S1x65536 : S_.BroadcastsInDim S1x65536 (![] : Fin 0 → Fin S1x65536.rank)
  reducesTo_S1x65536_S_d0_1 : S1x65536.ReducesTo [0, 1] S_
  h_S_ : 0 < S_.numel
  bcast_S_S2048x1 : S_.BroadcastsInDim S2048x1 (![] : Fin 0 → Fin S2048x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  dot_S65536x64_S64x1_S65536x1_1_0_0_1_n_n_wf : DotDims.WF S65536x64 S64x1 S65536x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S2048x1.size a
  hwx0_0 : ∀ i : grid0.Coords, EltTy.bits .f32 = 32 ∨ (Rect.block (s := S2048x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x65536.size a
  hwx0_1 : ∀ i : grid0.Coords, EltTy.bits .f32 = 32 ∨ (Rect.block (s := S1x65536) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .f32 = 32 ∨ (Rect.block (s := S2048x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S2048x1.size a
  hwx1_0 : ∀ i : grid1.Coords, EltTy.bits .f32 = 32 ∨ (Rect.block (s := S2048x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x65536.size a
  hwx1_1 : ∀ i : grid1.Coords, EltTy.bits .f32 = 32 ∨ (Rect.block (s := S1x65536) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .f32 = 32 ∨ (Rect.block (s := S2048x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S2048x65536.size a
  hwx1_4 : ∀ i : grid1.Coords, EltTy.bits .f32 = 32 ∨ (Rect.block (s := S2048x65536) S1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S2048x65536.size a
  hwx1_5 : ∀ i : grid1.Coords, EltTy.bits .f32 = 32 ∨ (Rect.block (s := S2048x65536) S1024x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S2048x65536.size a
  hwx1_6 : ∀ i : grid1.Coords, EltTy.bits .f32 = 32 ∨ (Rect.block (s := S2048x65536) S1024x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S2048x1.size a
  hwx1_7 : ∀ i : grid1.Coords, EltTy.bits .f32 = 32 ∨ (Rect.block (s := S2048x1) S1024x1.size (cc1_transform_7 i) (hinb1_7 i)).WholeWords (EltTy.packing .f32)

variable [Facts₀]

def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf

abbrev win0_0 : Pipeline.Window sig grid0 :=
  Pipeline.Window.ofSpec (Memref.whole main_arg1) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S1024x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S1024x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_2) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S2048x65536 : Shape := ⟨2, ![2048, 65536]⟩
abbrev S2048x1 : Shape := ⟨2, ![2048, 1]⟩
abbrev S65536x64 : Shape := ⟨2, ![65536, 64]⟩
abbrev S64x1 : Shape := ⟨2, ![64, 1]⟩
abbrev S1x64 : Shape := ⟨2, ![1, 64]⟩
abbrev S2048x64 : Shape := ⟨2, ![2048, 64]⟩
abbrev S_ : Shape := ⟨0, ![]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x65536, .f32⟩
  | .hbm, ⟨1, _⟩ => ⟨S2048x1, .f32⟩
  | .hbm, ⟨2, _⟩ => ⟨S65536x64, .f32⟩
  | .hbm, ⟨3, _⟩ => ⟨S64x1, .f32⟩
  | .hbm, ⟨4, _⟩ => ⟨S1x64, .f32⟩
  | .hbm, ⟨5, _⟩ => ⟨S2048x64, .f32⟩
  | .hbm, ⟨6, _⟩ => ⟨S2048x65536, .f32⟩
  | .hbm, ⟨7, _⟩ => ⟨S_, .f32⟩
  | .hbm, ⟨8, _⟩ => ⟨S2048x65536, .f32⟩
  | .hbm, ⟨9, _⟩ => ⟨S2048x65536, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048x1, .f32⟩
  | .hbm, ⟨16, _⟩ => ⟨S2048x65536, .f32⟩
  | .hbm, ⟨17, _⟩ => ⟨S2048x65536, .f32⟩
  | .hbm, ⟨18, _⟩ => ⟨S2048x65536, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S2048x65536, .f32⟩
  | .hbm, ⟨23, _⟩ => ⟨S2048x65536, .f32⟩
  | .hbm, ⟨24, _⟩ => ⟨S2048x65536, .f32⟩
  | .hbm, ⟨25, _⟩ => ⟨S_, .f32⟩
  | .hbm, ⟨26, _⟩ => ⟨S2048, .f32⟩
  | .hbm, ⟨27, _⟩ => ⟨S2048x1, .f32⟩
  | _, _ => ⟨S2048x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  transposes_S64x1_S1x64_1_0 : S64x1.Transposes [1, 0] S1x64
  bcast_S_S2048x65536 : S_.BroadcastsInDim S2048x65536 (![] : Fin 0 → Fin S2048x65536.rank)
  reducesTo_S2048x65536_S2048_d1 : S2048x65536.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x65536_0_1 : S2048x1.BroadcastsInDim S2048x65536 (![0, 1] : Fin 2 → Fin S2048x65536.rank)
  dot_S2048x1_S1x64_S2048x64_1_0_0_1_n_n_wf : DotDims.WF S2048x1 S1x64 S2048x64 [1] [0] [0] [1] [] []
  dot_S2048x64_S65536x64_S2048x65536_1_1_0_0_n_n_wf : DotDims.WF S2048x64 S65536x64 S2048x65536 [1] [1] [0] [0] [] []

variable [Facts₀]

def dot_S2048x1_S1x64_S2048x64_1_0_0_1_n_n : DotDims S2048x1 S1x64 S2048x64 where
  lhsContracting := [1]
  rhsContracting := [0]
  lhsNonContracting := [0]
  rhsNonContracting := [1]
  lhsBatch := []
  rhsBatch := []
  wf := dot_S2048x1_S1x64_S2048x64_1_0_0_1_n_n_wf
def dot_S2048x64_S65536x64_S2048x65536_1_1_0_0_n_n : DotDims S2048x64 S65536x64 S2048x65536 where
  lhsContracting := [1]
  rhsContracting := [1]
  lhsNonContracting := [0]
  rhsNonContracting := [0]
  lhsBatch := []
  rhsBatch := []
  wf := dot_S2048x64_S65536x64_S2048x65536_1_1_0_0_n_n_wf

class Facts : Prop extends Facts₀ where

variable [Facts]
-- ==== Proof.WDenRuns.lean ====
/-
  (The program as printed at the word level: the same text as for its idealization, read at any float instance.)
  The first of the two kernels: the softmax denominator, accumulated tile by tile in a scratch column.

  The grid is 2 x 32: row tile `b` (1024 rows), column tile `n` (2048 columns). At a point the kernel holds the rows'
  scale `idx` (1024 x 1), a strip of the score row `s` (1 x 2048), the rows' shift `m` (1024 x 1); it adds to a scratch
  column the row sums of `exp (idx * s - m)` over the strip. At the first column tile the scratch is zeroed first, at the
  last one it is copied to the output column. This module fixes what the three control cases share: the blocks the
  kernel is handed, the two conditions in closed form over the grid, where the output window is idle, and the
  memrefs the body is called with.
-/
import proofs.«143615_j12283606468146_2_alg».proof.Proof.Gen.Kernel.Launch
import proofs.«143615_j12283606468146_2_alg».proof.Proof.Gen.Kernel.Skeleton
import proofs.«143615_j12283606468146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block index
    has not moved), for any proof data over the entry contents whose body leaves the block in place. -/
theorem found0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

end

/-! ## The two conditions, decided over the grid -/

/-- "This is the first column tile": the kernel zeroes the scratch. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 32 = 0 :=
  (by decide +kernel : ∀ t : Fin grid0.N, isFirst (grid0.coords t) ↔ t.val % 32 = 0)

/-- "This is the last column tile": the kernel copies the scratch to the output column. -/
abbrev isLast (i : grid0.Coords) : Prop := k0_cond2 i = 1#1
theorem isLast_iff : ∀ t : Fin cfg0.N, isLast (grid0.coords t) ↔ t.val % 32 = 31 :=
  (by decide +kernel : ∀ t : Fin grid0.N, isLast (grid0.coords t) ↔ t.val % 32 = 31)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last column tile the output column is idle, and not written back. -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

/-- One staging buffer of the output window, through which its contents are stated. -/
abbrev outView : View sig .tc .vmem S1024x1 .f32 := (Memref.whole cc0_stg3_0 : Memref sig .tc .vmem S1024x1 .f32).view
abbrev mr0 (t : Fin cfg0.N) : Memref sig .tc .vmem S1024x1 .f32 := win0_0.stage (cfg0.slots t 0)
abbrev hmr0 (t : Fin cfg0.N) : (mr0 t).IsWhole := hstage0_0 ((cfg0.slots t 0).cast nbuf0_0)
abbrev mr1 (t : Fin cfg0.N) : Memref sig .tc .vmem S1x2048 .f32 := win0_1.stage (cfg0.slots t 1)
abbrev hmr1 (t : Fin cfg0.N) : (mr1 t).IsWhole := hstage0_1 ((cfg0.slots t 1).cast nbuf0_1)
abbrev mr2 (t : Fin cfg0.N) : Memref sig .tc .vmem S1024x1 .f32 := win0_2.stage (cfg0.slots t 2)
abbrev hmr2 (t : Fin cfg0.N) : (mr2 t).IsWhole := hstage0_2 ((cfg0.slots t 2).cast nbuf0_2)
abbrev mr3 (t : Fin cfg0.N) : Memref sig .tc .vmem S1024x1 .f32 := win0_3.stage (cfg0.slots t 3)
abbrev hmr3 (t : Fin cfg0.N) : (mr3 t).IsWhole := hstage0_3 ((cfg0.slots t 3).cast nbuf0_3)
/-- The scratch column the kernel carries from point to point. -/
abbrev acc : Memref sig .tc .vmem S1024x1 .f32 := Memref.whole cc0_scratch0
abbrev accView : View sig .tc .vmem S1024x1 .f32 := acc.view

/-- The scoped buffers of the other kernel, each whole at some contents: they ride through this region unread. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The region's resting invariant, with the scratch column as a memref owned at some contents. -/
theorem rest_eq (c : Dev nD) :
    (Pipeline.ΦA spec0 c : sProp 𝕄)
      = iprop(iprop((∃ d, owns (c : Thread nD τ) acc fullShare d) ∗ others c) ∗ (∃ r, prngReg c r)) := by
  unfold Pipeline.ΦA; rw [scopedRest0_eq]; simp only [acc, owns_whole]; try rfl

end Cert.Kernel.Den

end
-- ==== Proof.WDenFirst.lean ====
/-
  (The program as printed at the word level: the same text as for its idealization, read at any float instance.)
  The denominator kernel at a FIRST column tile: the scratch column, whatever it held, is zeroed and then receives the strip's row sums; the output column is not touched. The body is run symbolically on whole staging memrefs; the list of pieces the scratch ends with is the witness the run finds.
-/
import proofs.«143615_j12283606468146_2_alg».proof.Proof.WDenRuns

set_option maxRecDepth 16384

noncomputable section

namespace Cert.Kernel.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first column tile: inputs at `x0 x1 x2`, the idle output column handed back as found, the scratch at anything;
    it ends with the scratch written by the pieces `LS`. -/
noncomputable def runFirst (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i)
    (x0 : Vec F S1024x1 .f32) (x1 : Vec F S1x2048 .f32) (x2 : Vec F S1024x1 .f32) :
    Σ' (L3 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__pass1_kernel i arg2 harg2 arg3 harg3 arg4 harg4 arg5 harg5 arg6 harg6) K } := by
  refine ⟨[], ?_, fun xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Den

end
-- ==== Proof.WDenMiddle.lean ====
/-
  (The program as printed at the word level: the same text as for its idealization, read at any float instance.)
  The denominator kernel at a MIDDLE column tile: the scratch column, at what the point before left, receives the strip's row sums on top; the output column is not touched.
-/
import proofs.«143615_j12283606468146_2_alg».proof.Proof.WDenRuns

set_option maxRecDepth 16384

noncomputable section

namespace Cert.Kernel.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle column tile: inputs at `x0 x1 x2`, the idle output column handed back as found, the scratch at `xs`;
    it ends with the scratch written by the pieces `LS`. -/
noncomputable def runMiddle (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i)
    (x0 : Vec F S1024x1 .f32) (x1 : Vec F S1x2048 .f32) (x2 : Vec F S1024x1 .f32) (xs : Vec F S1024x1 .f32) :
    Σ' (L3 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__pass1_kernel i arg2 harg2 arg3 harg3 arg4 harg4 arg5 harg5 arg6 harg6) K } := by
  refine ⟨[], ?_, fun xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Den

end
-- ==== Proof.WDenLast.lean ====
/-
  (The program as printed at the word level: the same text as for its idealization, read at any float instance.)
  The denominator kernel at a LAST column tile: the scratch column receives the strip's row sums on top of what the point before left, and is then copied whole into the output column.
-/
import proofs.«143615_j12283606468146_2_alg».proof.Proof.WDenRuns

set_option maxRecDepth 16384

noncomputable section

namespace Cert.Kernel.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a last column tile: inputs at `x0 x1 x2`, the output column at anything, the scratch at `xs`;
    it ends with the output column written by the pieces `L3` and the scratch by `LS`. -/
noncomputable def runLast (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i)
    (x0 : Vec F S1024x1 .f32) (x1 : Vec F S1x2048 .f32) (x2 : Vec F S1024x1 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__pass1_kernel i arg2 harg2 arg3 harg3 arg4 harg4 arg5 harg5 arg6 harg6) K } := by
  refine ⟨?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Den

end
-- ==== Proof.WDenFrame.lean ====
/-
  (The program as printed at the word level: the same text as for its idealization, read at any float instance.)
  The denominator kernel, point by point: what each case leaves in the scratch column and in the output column, the
  recursion over the grid's points that names the scratch's contents after each of them, the region's invariant (the
  scratch at those contents), the pipeline's proof data, and the body obligation at a generic point — a case split on
  the two closed-form conditions, each leaf that case's symbolic run.
-/
import proofs.«143615_j12283606468146_2_alg».proof.Proof.WDenFirst
import proofs.«143615_j12283606468146_2_alg».proof.Proof.WDenMiddle
import proofs.«143615_j12283606468146_2_alg».proof.Proof.WDenLast

set_option maxRecDepth 16384

noncomputable section

namespace Cert.Kernel.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- At a first column tile nothing is stored into the output column: a placeholder that nothing consults. -/
def outFirst (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i) (x0 : Vec F S1024x1 .f32) (x1 : Vec F S1x2048 .f32) (x2 : Vec F S1024x1 .f32) : Vec F S1024x1 .f32 :=
  outView.read (Elt F) (outView.writes (Elt F) outView.junk (runFirst c i arg2 harg2 arg3 harg3 arg4 harg4 arg5 harg5 arg6 harg6 hc0 hc1 x0 x1 x2).1)
theorem accFirst_cover (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i) (x0 : Vec F S1024x1 .f32) (x1 : Vec F S1x2048 .f32) (x2 : Vec F S1024x1 .f32) (y : S1024x1.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x1.size (by sl_kernel_rfl) y
/-- What a first column tile leaves in the scratch column. -/
def accFirst (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i) (x0 : Vec F S1024x1 .f32) (x1 : Vec F S1x2048 .f32) (x2 : Vec F S1024x1 .f32) : Vec F S1024x1 .f32 :=
  accView.read (Elt F) (accView.writes (Elt F) accView.junk (runFirst c i arg2 harg2 arg3 harg3 arg4 harg4 arg5 harg5 arg6 harg6 hc0 hc1 x0 x1 x2).2.1)

def outMiddle (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i) (x0 : Vec F S1024x1 .f32) (x1 : Vec F S1x2048 .f32) (x2 : Vec F S1024x1 .f32) (xs : Vec F S1024x1 .f32) : Vec F S1024x1 .f32 :=
  outView.read (Elt F) (outView.writes (Elt F) outView.junk (runMiddle c i arg2 harg2 arg3 harg3 arg4 harg4 arg5 harg5 arg6 harg6 hc0 hc1 x0 x1 x2 xs).1)
theorem accMiddle_cover (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i) (x0 : Vec F S1024x1 .f32) (x1 : Vec F S1x2048 .f32) (x2 : Vec F S1024x1 .f32) (xs : Vec F S1024x1 .f32) (y : S1024x1.Idx) :
    ∃ pc ∈ (runMiddle c i arg2 harg2 arg3 harg3 arg4 harg4 arg5 harg5 arg6 harg6 hc0 hc1 x0 x1 x2 xs).2.1, y ∈ pc.1.set :=
  View.cover_of_tiledL (runMiddle c i arg2 harg2 arg3 harg3 arg4 harg4 arg5 harg5 arg6 harg6 hc0 hc1 x0 x1 x2 xs).2.1 S1024x1.size (by sl_kernel_rfl) y
/-- What a middle column tile leaves in the scratch column, over what the point before left. -/
def accMiddle (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i) (x0 : Vec F S1024x1 .f32) (x1 : Vec F S1x2048 .f32) (x2 : Vec F S1024x1 .f32) (xs : Vec F S1024x1 .f32) : Vec F S1024x1 .f32 :=
  accView.read (Elt F) (accView.writes (Elt F) accView.junk (runMiddle c i arg2 harg2 arg3 harg3 arg4 harg4 arg5 harg5 arg6 harg6 hc0 hc1 x0 x1 x2 xs).2.1)

theorem outLast_cover (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) (y : S1024x1.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x1.size (by sl_kernel_rfl) y
/-- What a last column tile leaves in the output column. -/
def outLast (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) : Vec F S1024x1 .f32 :=
  outView.read (Elt F) (outView.writes (Elt F) outView.junk (runLast c i arg2 harg2 arg3 harg3 arg4 harg4 arg5 harg5 arg6 harg6 hc0 hc1 x0 x1 x2 xs).1)
theorem accLast_cover (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) (y : S1024x1.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1.size (by sl_kernel_rfl) y
def accLast (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) : Vec F S1024x1 .f32 :=
  accView.read (Elt F) (accView.writes (Elt F) accView.junk (runLast c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## The accumulation over the grid's points -/

/-- What the output column's staging buffer and the scratch column hold after the body at position `n`: the case the
    closed forms select there, run at the point's memrefs and blocks, over what the point before left in the scratch. -/
def stateAt (c : Dev nD) : (n : ℕ) → n < cfg0.N → Vec F S1024x1 .f32 × Vec F S1024x1 .f32
  | 0, hn => (outFirst c (grid0.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩), accFirst c (grid0.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩))
  | n + 1, hn =>
    if h0 : (n + 1) % 32 = 0 then
      if h1 : (n + 1) % 32 = 31 then
        False.elim (by omega)
      else
        (outFirst c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩), accFirst c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 32 = 31 then
        (outLast c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (stateAt c n (Nat.lt_of_succ_lt hn)).2, accLast c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (stateAt c n (Nat.lt_of_succ_lt hn)).2)
      else
        (outMiddle c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (stateAt c n (Nat.lt_of_succ_lt hn)).2, accMiddle c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (stateAt c n (Nat.lt_of_succ_lt hn)).2)

theorem stateAt_first (c : Dev nD) (t : Fin cfg0.N) (h0 : t.val % 32 = 0) (h1 : ¬t.val % 32 = 31) :
    stateAt V c t.val t.isLt = (outFirst c (grid0.coords t) (mr0 t) (hmr0 t) (mr1 t) (hmr1 t) (mr2 t) (hmr2 t) (mr3 t) (hmr3 t) acc (Memref.isWhole_whole _) ((isFirst_iff t).mpr h0) (fun h => h1 ((isLast_iff t).mp h)) (blk V c 0 t) (blk V c 1 t) (blk V c 2 t), accFirst c (grid0.coords t) (mr0 t) (hmr0 t) (mr1 t) (hmr1 t) (mr2 t) (hmr2 t) (mr3 t) (hmr3 t) acc (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem stateAt_middle (c : Dev nD) (t : Fin cfg0.N) (h0 : ¬t.val % 32 = 0) (h1 : ¬t.val % 32 = 31) :
    stateAt V c t.val t.isLt = (outMiddle c (grid0.coords t) (mr0 t) (hmr0 t) (mr1 t) (hmr1 t) (mr2 t) (hmr2 t) (mr3 t) (hmr3 t) acc (Memref.isWhole_whole _) (fun h => h0 ((isFirst_iff t).mp h)) (fun h => h1 ((isLast_iff t).mp h)) (blk V c 0 t) (blk V c 1 t) (blk V c 2 t) (stateAt V c (t.val - 1) (Nat.lt_of_le_of_lt (Nat.sub_le _ _) t.isLt)).2, accMiddle c (grid0.coords t) (mr0 t) (hmr0 t) (mr1 t) (hmr1 t) (mr2 t) (hmr2 t) (mr3 t) (hmr3 t) acc (Memref.isWhole_whole _) (fun h => h0 ((isFirst_iff t).mp h)) (fun h => h1 ((isLast_iff t).mp h)) (blk V c 0 t) (blk V c 1 t) (blk V c 2 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 32 = 0) (h1 : t.val % 32 = 31) :
    stateAt V c t.val t.isLt = (outLast c (grid0.coords t) (mr0 t) (hmr0 t) (mr1 t) (hmr1 t) (mr2 t) (hmr2 t) (mr3 t) (hmr3 t) acc (Memref.isWhole_whole _) (fun h => h0 ((isFirst_iff t).mp h)) ((isLast_iff t).mpr h1) (blk V c 0 t) (blk V c 1 t) (blk V c 2 t) (stateAt V c (t.val - 1) (Nat.lt_of_le_of_lt (Nat.sub_le _ _) t.isLt)).2, accLast c (grid0.coords t) (mr0 t) (hmr0 t) (mr1 t) (hmr1 t) (mr2 t) (hmr2 t) (mr3 t) (hmr3 t) acc (Memref.isWhole_whole _) (fun h => h0 ((isFirst_iff t).mp h)) ((isLast_iff t).mpr h1) (blk V c 0 t) (blk V c 1 t) (blk V c 2 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch column at what the point before left -/

def inv (c : Dev nD) : (n : ℕ) → n ≤ cfg0.N → sProp 𝕄
  | 0, _ => Pipeline.ΦA spec0 c
  | n + 1, hn => iprop(iprop(owns (c : Thread nD τ) acc fullShare ((stateAt V c n hn).2) ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) acc fullShare ((stateAt V c n hn).2) ∗ others c) ∗ (∃ r, prngReg c r)) := rfl
theorem inv_pos (c : Dev nD) (n : ℕ) (h : n ≤ cfg0.N) (hz : n ≠ 0) :
    inv V c n h = iprop(iprop(owns (c : Thread nD τ) acc fullShare ((stateAt V c (n - 1) (by omega)).2) ∗ others c) ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (stateAt V c t.val t.isLt).1
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = (stateAt V c t.val t.isLt).1 := by dsimp only [dat]

theorem found0 (c : Dev nD) (t : Fin cfg0.N) (d) : (dat V c).before 0 t d = blk V c 0 t :=
  found0_of V (dat V c) (A_eq V c 0) (after0 V c) t d
theorem found1 (c : Dev nD) (t : Fin cfg0.N) (d) : (dat V c).before 1 t d = blk V c 1 t :=
  found1_of V (dat V c) (A_eq V c 1) (after1 V c) t d
theorem found2 (c : Dev nD) (t : Fin cfg0.N) (d) : (dat V c).before 2 t d = blk V c 2 t :=
  found2_of V (dat V c) (A_eq V c 2) (after2 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (mr0 t) fullShare ((dat V c).before 0 t d))
    ∗ (∃ d, owns (c : Thread nD τ) (mr1 t) fullShare ((dat V c).before 1 t d))
    ∗ (∃ d, owns (c : Thread nD τ) (mr2 t) fullShare ((dat V c).before 2 t d))
    ∗ (∃ d, owns (c : Thread nD τ) (mr3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found0, found1, found2]
  rw [show (dat V c).owesAt () t.succ = (dat V c).owesAt () t.castSucc from rfl]
  rw [show (dat V c).Φ t.succ = inv V c (t.val + 1) t.isLt from rfl, inv_succ]
  have hN : t.val < 64 := lt_of_lt_of_eq t.isLt (show cfg0.N = 64 from N_0)
  rw [show (dat V c).leavesExact 0 t = owns (c : Thread nD τ) (mr0 t) fullShare ((dat V c).after 0 t) from by
    unfold Dat.leavesExact; rw [live0 t], after0]
  rw [show (dat V c).leavesExact 1 t = owns (c : Thread nD τ) (mr1 t) fullShare ((dat V c).after 1 t) from by
    unfold Dat.leavesExact; rw [live1 t], after1]
  rw [show (dat V c).leavesExact 2 t = owns (c : Thread nD τ) (mr2 t) fullShare ((dat V c).after 2 t) from by
    unfold Dat.leavesExact; rw [live2 t], after2]
  by_cases h0 : t.val % 32 = 0
  · have h1 : ¬t.val % 32 = 31 := by omega
    have hl : ¬isLast (grid0.coords t) := fun h => h1 ((isLast_iff t).mp h)
    rw [Dat.leavesExact_idle (dat V c) 3 t (idle3 t hl) (noFlush3 t hl)]
    rw [stateAt_first V c t h0 h1]
    unfold accFirst; (try dsimp only)
    by_cases hz : t.val = 0
    · rw [inv_castSucc V c t, inv_zero V c _ _ hz, rest_eq]
      iintro ⟨⟨⟨HS0, Hoth⟩, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) hl (blk V c 0 t) (blk V c 1 t) (blk V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS0, Hoth⟩, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) hl (blk V c 0 t) (blk V c 1 t) (blk V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hf : ¬isFirst (grid0.coords t) := fun h => h0 ((isFirst_iff t).mp h)
    by_cases h1 : t.val % 32 = 31
    · rw [show (dat V c).leavesExact 3 t = owns (c : Thread nD τ) (mr3 t) fullShare ((dat V c).after 3 t) from by
        unfold Dat.leavesExact; rw [live3 t ((isLast_iff t).mpr h1)], after3]
      rw [stateAt_last V c t h0 h1]
      unfold outLast accLast; (try dsimp only)
      rw [inv_castSucc V c t, inv_pos V c _ _ hz]
      iintro ⟨⟨⟨HS0, Hoth⟩, Hg⟩, Ho, ⟨%d0, H0⟩, ⟨%d1, H1⟩, ⟨%d2, H2⟩, ⟨%d3, H3⟩⟩
      iapply ((runLast c (grid0.coords t) _ _ _ _ _ _ _ _ _ _ hf ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accLast_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · have hl : ¬isLast (grid0.coords t) := fun h => h1 ((isLast_iff t).mp h)
      rw [Dat.leavesExact_idle (dat V c) 3 t (idle3 t hl) (noFlush3 t hl)]
      rw [stateAt_middle V c t h0 h1]
      unfold accMiddle; (try dsimp only)
      rw [inv_castSucc V c t, inv_pos V c _ _ hz]
      iintro ⟨⟨⟨HS0, Hoth⟩, Hg⟩, Ho, ⟨%d0, H0⟩, ⟨%d1, H1⟩, ⟨%d2, H2⟩, ⟨%d3, H3⟩⟩
      iapply ((runMiddle c (grid0.coords t) _ _ _ _ _ _ _ _ _ _ hf hl (blk V c 0 t) (blk V c 1 t) (blk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accMiddle_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the resting one back: the scratch column's contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 64 := N_0; omega), rest_eq]
  iintro ⟨⟨HS0, Hoth⟩, Hg⟩
  isplitl [HS0 Hoth]
  · isplitl [HS0]
    · iexists _; iexact HS0
    iexact Hoth
  iexact Hg

end

end Cert.Kernel.Den

end
-- ==== Proof.WAttRuns.lean ====
/-
  (The program as printed at the word level: the same text as for its idealization, read at any float instance.)
  The second of the two kernels: scores, attention weights and the weighted value sum.

  The grid is 2 x 64: row tile `b` (1024 rows), column tile `n` (1024 columns). At a point the kernel holds the rows' scale
  `idx` (1024 x 1), a strip of the score row `s` (1 x 1024), the rows' shift `m` and denominator `l` (1024 x 1 each) and a
  tile of the values (1024 x 1024). It writes the tile of scores `idx * s` and the tile of weights `exp (idx * s - m) / l`,
  and adds to a scratch column the row sums of weights times values. At the first column tile the scratch is zeroed
  first; at the last one it is copied to the output column. This module fixes what the three control cases share.
-/
import proofs.«143615_j12283606468146_2_alg».proof.Proof.Gen.Kernel.Launch
import proofs.«143615_j12283606468146_2_alg».proof.Proof.Gen.Kernel.Skeleton
import proofs.«143615_j12283606468146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

end

/-! ## The two conditions, decided over the grid -/

abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 64 = 0 :=
  (by decide +kernel : ∀ t : Fin grid1.N, isFirst (grid1.coords t) ↔ t.val % 64 = 0)

abbrev isLast (i : grid1.Coords) : Prop := k1_cond2 i = 1#1
theorem isLast_iff : ∀ t : Fin cfg1.N, isLast (grid1.coords t) ↔ t.val % 64 = 63 :=
  (by decide +kernel : ∀ t : Fin grid1.N, isLast (grid1.coords t) ↔ t.val % 64 = 63)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
theorem live6 : ∀ t : Fin cfg1.N, cfg1.idle 6 (grid1.coords t) = false := by decide +kernel
theorem idle7 : ∀ t : Fin cfg1.N, ¬isLast (grid1.coords t) → cfg1.idle 7 (grid1.coords t) = true := by decide +kernel
theorem noFlush7 : ∀ t : Fin cfg1.N, ¬isLast (grid1.coords t) → (cfg1.win 7).flush t = false := by decide +kernel
theorem live7 : ∀ t : Fin cfg1.N, isLast (grid1.coords t) → cfg1.idle 7 (grid1.coords t) = false := by decide +kernel

/-! ## The memrefs the body is called with -/

abbrev wView : View sig .tc .vmem S1024x1024 .f32 := (Memref.whole cc1_stg5_0 : Memref sig .tc .vmem S1024x1024 .f32).view
abbrev sView : View sig .tc .vmem S1024x1024 .f32 := (Memref.whole cc1_stg6_0 : Memref sig .tc .vmem S1024x1024 .f32).view
abbrev outView : View sig .tc .vmem S1024x1 .f32 := (Memref.whole cc1_stg7_0 : Memref sig .tc .vmem S1024x1 .f32).view
abbrev mr0 (t : Fin cfg1.N) : Memref sig .tc .vmem S1024x1 .f32 := win1_0.stage (cfg1.slots t 0)
abbrev hmr0 (t : Fin cfg1.N) : (mr0 t).IsWhole := hstage1_0 ((cfg1.slots t 0).cast nbuf1_0)
abbrev mr1 (t : Fin cfg1.N) : Memref sig .tc .vmem S1x1024 .f32 := win1_1.stage (cfg1.slots t 1)
abbrev hmr1 (t : Fin cfg1.N) : (mr1 t).IsWhole := hstage1_1 ((cfg1.slots t 1).cast nbuf1_1)
abbrev mr2 (t : Fin cfg1.N) : Memref sig .tc .vmem S1024x1 .f32 := win1_2.stage (cfg1.slots t 2)
abbrev hmr2 (t : Fin cfg1.N) : (mr2 t).IsWhole := hstage1_2 ((cfg1.slots t 2).cast nbuf1_2)
abbrev mr3 (t : Fin cfg1.N) : Memref sig .tc .vmem S1024x1 .f32 := win1_3.stage (cfg1.slots t 3)
abbrev hmr3 (t : Fin cfg1.N) : (mr3 t).IsWhole := hstage1_3 ((cfg1.slots t 3).cast nbuf1_3)
abbrev mr4 (t : Fin cfg1.N) : Memref sig .tc .vmem S1024x1024 .f32 := win1_4.stage (cfg1.slots t 4)
abbrev hmr4 (t : Fin cfg1.N) : (mr4 t).IsWhole := hstage1_4 ((cfg1.slots t 4).cast nbuf1_4)
abbrev mr5 (t : Fin cfg1.N) : Memref sig .tc .vmem S1024x1024 .f32 := win1_5.stage (cfg1.slots t 5)
abbrev hmr5 (t : Fin cfg1.N) : (mr5 t).IsWhole := hstage1_5 ((cfg1.slots t 5).cast nbuf1_5)
abbrev mr6 (t : Fin cfg1.N) : Memref sig .tc .vmem S1024x1024 .f32 := win1_6.stage (cfg1.slots t 6)
abbrev hmr6 (t : Fin cfg1.N) : (mr6 t).IsWhole := hstage1_6 ((cfg1.slots t 6).cast nbuf1_6)
abbrev mr7 (t : Fin cfg1.N) : Memref sig .tc .vmem S1024x1 .f32 := win1_7.stage (cfg1.slots t 7)
abbrev hmr7 (t : Fin cfg1.N) : (mr7 t).IsWhole := hstage1_7 ((cfg1.slots t 7).cast nbuf1_7)
/-- The scratch column the kernel carries from point to point. -/
abbrev acc : Memref sig .tc .vmem S1024x1 .f32 := Memref.whole cc1_scratch0
abbrev accView : View sig .tc .vmem S1024x1 .f32 := acc.view

/-- The scoped buffers no window of this kernel stages — the other kernel's staging buffers and scratch, each whole at
    some contents, riding through this region unread — with this kernel's scratch column, in the state `X`, last. -/
abbrev chain (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- The region's resting invariant, with the scratch column as a memref owned at some contents. -/
theorem rest_eq (c : Dev nD) :
    (Pipeline.ΦA spec1 c : sProp 𝕄)
      = iprop(chain c (iprop(∃ d, owns (c : Thread nD τ) acc fullShare d)) ∗ (∃ r, prngReg c r)) := by
  unfold Pipeline.ΦA; rw [scopedRest1_eq]; simp only [acc, owns_whole]; try rfl

end Cert.Kernel.Att

end
-- ==== Proof.WAttFirst.lean ====
/-
  (The program as printed at the word level: the same text as for its idealization, read at any float instance.)
  The attention kernel at a FIRST column tile: the tile of scores and the tile of weights are written, the scratch column, whatever it held, is zeroed and then receives the row sums of weights times values; the output column is not touched. The body is run symbolically on whole staging memrefs; the lists of pieces each buffer ends with are the witness the run finds.
-/
import proofs.«143615_j12283606468146_2_alg».proof.Proof.WAttRuns

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def runFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i)
    (x0 : Vec F S1024x1 .f32) (x1 : Vec F S1x1024 .f32) (x2 : Vec F S1024x1 .f32) (x3 : Vec F S1024x1 .f32) (x4 : Vec F S1024x1024 .f32) :
    Σ' (L5 : List (View.Piece (Elt F) S1024x1024 .f32)) (L6 : List (View.Piece (Elt F) S1024x1024 .f32)) (L7 : List (View.Piece (Elt F) S1024x1 .f32)), { LS : List (View.Piece (Elt F) S1024x1 .f32) //
      ∀ (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc1__pass2_kernel_eq_skeleton]; unfold cc1__pass2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.Kernel.Att

end
-- ==== Proof.WAttMiddle.lean ====
/-
  (The program as printed at the word level: the same text as for its idealization, read at any float instance.)
  The attention kernel at a MIDDLE column tile: the tile of scores and the tile of weights are written, the scratch column receives the row sums of weights times values on top of what the point before left; the output column is not touched.
-/
import proofs.«143615_j12283606468146_2_alg».proof.Proof.WAttRuns

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def runMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i)
    (x0 : Vec F S1024x1 .f32) (x1 : Vec F S1x1024 .f32) (x2 : Vec F S1024x1 .f32) (x3 : Vec F S1024x1 .f32) (x4 : Vec F S1024x1024 .f32) (xs : Vec F S1024x1 .f32) :
    Σ' (L5 : List (View.Piece (Elt F) S1024x1024 .f32)) (L6 : List (View.Piece (Elt F) S1024x1024 .f32)) (L7 : List (View.Piece (Elt F) S1024x1 .f32)), { LS : List (View.Piece (Elt F) S1024x1 .f32) //
      ∀ (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc1__pass2_kernel_eq_skeleton]; unfold cc1__pass2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.Kernel.Att

end
-- ==== Proof.WAttLast.lean ====
/-
  (The program as printed at the word level: the same text as for its idealization, read at any float instance.)
  The attention kernel at a LAST column tile: the tile of scores and the tile of weights are written, the scratch column receives the row sums of weights times values on top of what the point before left, and is then copied whole into the output column.
-/
import proofs.«143615_j12283606468146_2_alg».proof.Proof.WAttRuns

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def runLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i)
    (x0 : Vec F S1024x1 .f32) (x1 : Vec F S1x1024 .f32) (x2 : Vec F S1024x1 .f32) (x3 : Vec F S1024x1 .f32) (x4 : Vec F S1024x1024 .f32) (xs : Vec F S1024x1 .f32) :
    Σ' (L5 : List (View.Piece (Elt F) S1024x1024 .f32)) (L6 : List (View.Piece (Elt F) S1024x1024 .f32)) (L7 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__pass2_kernel_eq_skeleton]; unfold cc1__pass2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.Kernel.Att

end
-- ==== Proof.WAttFrame.lean ====
/-
  (The program as printed at the word level: the same text as for its idealization, read at any float instance.)
  The attention kernel, point by point: what each case leaves in the two output tiles, the output column and the
  scratch column, the recursion over the grid's points that names the scratch's contents after each of them, the
  region's invariant, the pipeline's proof data, and the body obligation at a generic point.
-/
import proofs.«143615_j12283606468146_2_alg».proof.Proof.WAttFirst
import proofs.«143615_j12283606468146_2_alg».proof.Proof.WAttMiddle
import proofs.«143615_j12283606468146_2_alg».proof.Proof.WAttLast

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-! ### First column tile -/

theorem wFirst_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) (y : S1024x1024.Idx) : ∃ pc ∈ (runFirst c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).1 S1024x1024.size (by sl_kernel_rfl) y
/-- The tile of weights this case leaves. -/
def wFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) : Vec F S1024x1024 .f32 :=
  wView.read (Elt F) (wView.writes (Elt F) wView.junk (runFirst c i arg2 harg2 arg3 harg3 arg4 harg4 arg5 harg5 arg6 harg6 arg7 harg7 arg8 harg8 arg9 harg9 arg10 harg10 hc0 hc1 x0 x1 x2 x3 x4).1)
theorem sFirst_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) (y : S1024x1024.Idx) : ∃ pc ∈ (runFirst c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.1 S1024x1024.size (by sl_kernel_rfl) y
/-- The tile of scores this case leaves. -/
def sFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) : Vec F S1024x1024 .f32 :=
  sView.read (Elt F) (sView.writes (Elt F) sView.junk (runFirst c i arg2 harg2 arg3 harg3 arg4 harg4 arg5 harg5 arg6 harg6 arg7 harg7 arg8 harg8 arg9 harg9 arg10 harg10 hc0 hc1 x0 x1 x2 x3 x4).2.1)
/-- The output column's staging buffer after this case (nothing is stored there: a placeholder nothing consults). -/
def outFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) : Vec F S1024x1 .f32 :=
  outView.read (Elt F) (outView.writes (Elt F) outView.junk (runFirst c i arg2 harg2 arg3 harg3 arg4 harg4 arg5 harg5 arg6 harg6 arg7 harg7 arg8 harg8 arg9 harg9 arg10 harg10 hc0 hc1 x0 x1 x2 x3 x4).2.2.1)
theorem accFirst_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) (y : S1024x1.Idx) : ∃ pc ∈ (runFirst c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.2.2.1 S1024x1.size (by sl_kernel_rfl) y
/-- The scratch column after this case. -/
def accFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) : Vec F S1024x1 .f32 :=
  accView.read (Elt F) (accView.writes (Elt F) accView.junk (runFirst c i arg2 harg2 arg3 harg3 arg4 harg4 arg5 harg5 arg6 harg6 arg7 harg7 arg8 harg8 arg9 harg9 arg10 harg10 hc0 hc1 x0 x1 x2 x3 x4).2.2.2.1)

/-! ### Middle column tile -/

theorem wMiddle_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1024.Idx) : ∃ pc ∈ (runMiddle c i arg2 harg2 arg3 harg3 arg4 harg4 arg5 harg5 arg6 harg6 arg7 harg7 arg8 harg8 arg9 harg9 arg10 harg10 hc0 hc1 x0 x1 x2 x3 x4 xs).1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 xs).1 S1024x1024.size (by sl_kernel_rfl) y
/-- The tile of weights this case leaves. -/
def wMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1024 .f32 :=
  wView.read (Elt F) (wView.writes (Elt F) wView.junk (runMiddle c i arg2 harg2 arg3 harg3 arg4 harg4 arg5 harg5 arg6 harg6 arg7 harg7 arg8 harg8 arg9 harg9 arg10 harg10 hc0 hc1 x0 x1 x2 x3 x4 xs).1)
theorem sMiddle_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1024.Idx) : ∃ pc ∈ (runMiddle c i arg2 harg2 arg3 harg3 arg4 harg4 arg5 harg5 arg6 harg6 arg7 harg7 arg8 harg8 arg9 harg9 arg10 harg10 hc0 hc1 x0 x1 x2 x3 x4 xs).2.1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 xs).2.1 S1024x1024.size (by sl_kernel_rfl) y
/-- The tile of scores this case leaves. -/
def sMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1024 .f32 :=
  sView.read (Elt F) (sView.writes (Elt F) sView.junk (runMiddle c i arg2 harg2 arg3 harg3 arg4 harg4 arg5 harg5 arg6 harg6 arg7 harg7 arg8 harg8 arg9 harg9 arg10 harg10 hc0 hc1 x0 x1 x2 x3 x4 xs).2.1)
/-- The output column's staging buffer after this case (nothing is stored there: a placeholder nothing consults). -/
def outMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1 .f32 :=
  outView.read (Elt F) (outView.writes (Elt F) outView.junk (runMiddle c i arg2 harg2 arg3 harg3 arg4 harg4 arg5 harg5 arg6 harg6 arg7 harg7 arg8 harg8 arg9 harg9 arg10 harg10 hc0 hc1 x0 x1 x2 x3 x4 xs).2.2.1)
theorem accMiddle_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1.Idx) : ∃ pc ∈ (runMiddle c i arg2 harg2 arg3 harg3 arg4 harg4 arg5 harg5 arg6 harg6 arg7 harg7 arg8 harg8 arg9 harg9 arg10 harg10 hc0 hc1 x0 x1 x2 x3 x4 xs).2.2.2.1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 xs).2.2.2.1 S1024x1.size (by sl_kernel_rfl) y
/-- The scratch column after this case. -/
def accMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1 .f32 :=
  accView.read (Elt F) (accView.writes (Elt F) accView.junk (runMiddle c i arg2 harg2 arg3 harg3 arg4 harg4 arg5 harg5 arg6 harg6 arg7 harg7 arg8 harg8 arg9 harg9 arg10 harg10 hc0 hc1 x0 x1 x2 x3 x4 xs).2.2.2.1)

/-! ### Last column tile -/

theorem wLast_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1024.Idx) : ∃ pc ∈ (runLast c i arg2 harg2 arg3 harg3 arg4 harg4 arg5 harg5 arg6 harg6 arg7 harg7 arg8 harg8 arg9 harg9 arg10 harg10 hc0 hc1 x0 x1 x2 x3 x4 xs).1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 xs).1 S1024x1024.size (by sl_kernel_rfl) y
/-- The tile of weights this case leaves. -/
def wLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1024 .f32 :=
  wView.read (Elt F) (wView.writes (Elt F) wView.junk (runLast c i arg2 harg2 arg3 harg3 arg4 harg4 arg5 harg5 arg6 harg6 arg7 harg7 arg8 harg8 arg9 harg9 arg10 harg10 hc0 hc1 x0 x1 x2 x3 x4 xs).1)
theorem sLast_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1024.Idx) : ∃ pc ∈ (runLast c i arg2 harg2 arg3 harg3 arg4 harg4 arg5 harg5 arg6 harg6 arg7 harg7 arg8 harg8 arg9 harg9 arg10 harg10 hc0 hc1 x0 x1 x2 x3 x4 xs).2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 xs).2.1 S1024x1024.size (by sl_kernel_rfl) y
/-- The tile of scores this case leaves. -/
def sLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1024 .f32 :=
  sView.read (Elt F) (sView.writes (Elt F) sView.junk (runLast c i arg2 harg2 arg3 harg3 arg4 harg4 arg5 harg5 arg6 harg6 arg7 harg7 arg8 harg8 arg9 harg9 arg10 harg10 hc0 hc1 x0 x1 x2 x3 x4 xs).2.1)
theorem outLast_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1.Idx) : ∃ pc ∈ (runLast c i arg2 harg2 arg3 harg3 arg4 harg4 arg5 harg5 arg6 harg6 arg7 harg7 arg8 harg8 arg9 harg9 arg10 harg10 hc0 hc1 x0 x1 x2 x3 x4 xs).2.2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 xs).2.2.1 S1024x1.size (by sl_kernel_rfl) y
/-- The output column's staging buffer after this case. -/
def outLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1 .f32 :=
  outView.read (Elt F) (outView.writes (Elt F) outView.junk (runLast c i arg2 harg2 arg3 harg3 arg4 harg4 arg5 harg5 arg6 harg6 arg7 harg7 arg8 harg8 arg9 harg9 arg10 harg10 hc0 hc1 x0 x1 x2 x3 x4 xs).2.2.1)
theorem accLast_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1.Idx) : ∃ pc ∈ (runLast c i arg2 harg2 arg3 harg3 arg4 harg4 arg5 harg5 arg6 harg6 arg7 harg7 arg8 harg8 arg9 harg9 arg10 harg10 hc0 hc1 x0 x1 x2 x3 x4 xs).2.2.2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 xs).2.2.2.1 S1024x1.size (by sl_kernel_rfl) y
/-- The scratch column after this case. -/
def accLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1 .f32 :=
  accView.read (Elt F) (accView.writes (Elt F) accView.junk (runLast c i arg2 harg2 arg3 harg3 arg4 harg4 arg5 harg5 arg6 harg6 arg7 harg7 arg8 harg8 arg9 harg9 arg10 harg10 hc0 hc1 x0 x1 x2 x3 x4 xs).2.2.2.1)

section
variable (V : (c : Dev nD) → (b : Ref sig .tc) → Buf (Elt F) ((c : Thread nD τ).loc b))

/-! ## The accumulation over the grid's points -/

/-- After the body at position `n`: the tile of weights, the tile of scores, the output column's staging buffer and the
    scratch column — the case the closed forms select there, over what the point before left in the scratch. -/
def stateAt (c : Dev nD) : (n : ℕ) → n < cfg1.N → Vec F S1024x1024 .f32 × Vec F S1024x1024 .f32 × Vec F S1024x1 .f32 × Vec F S1024x1 .f32
  | 0, hn => (wFirst c (grid1.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) (mr4 ⟨0, hn⟩) (hmr4 ⟨0, hn⟩) (mr5 ⟨0, hn⟩) (hmr5 ⟨0, hn⟩) (mr6 ⟨0, hn⟩) (hmr6 ⟨0, hn⟩) (mr7 ⟨0, hn⟩) (hmr7 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩), sFirst c (grid1.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) (mr4 ⟨0, hn⟩) (hmr4 ⟨0, hn⟩) (mr5 ⟨0, hn⟩) (hmr5 ⟨0, hn⟩) (mr6 ⟨0, hn⟩) (hmr6 ⟨0, hn⟩) (mr7 ⟨0, hn⟩) (hmr7 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩), outFirst c (grid1.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) (mr4 ⟨0, hn⟩) (hmr4 ⟨0, hn⟩) (mr5 ⟨0, hn⟩) (hmr5 ⟨0, hn⟩) (mr6 ⟨0, hn⟩) (hmr6 ⟨0, hn⟩) (mr7 ⟨0, hn⟩) (hmr7 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩), accFirst c (grid1.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) (mr4 ⟨0, hn⟩) (hmr4 ⟨0, hn⟩) (mr5 ⟨0, hn⟩) (hmr5 ⟨0, hn⟩) (mr6 ⟨0, hn⟩) (hmr6 ⟨0, hn⟩) (mr7 ⟨0, hn⟩) (hmr7 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩))
  | n + 1, hn =>
    if h0 : (n + 1) % 64 = 0 then
      if h1 : (n + 1) % 64 = 63 then
        False.elim (by omega)
      else
        (wFirst c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩), sFirst c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩), outFirst c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩), accFirst c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩))
    else
      if h1 : (n + 1) % 64 = 63 then
        (wLast c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, sLast c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, outLast c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, accLast c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2)
      else
        (wMiddle c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, sMiddle c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, outMiddle c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, accMiddle c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2)

theorem stateAt_first (c : Dev nD) (t : Fin cfg1.N) (h0 : t.val % 64 = 0) (h1 : ¬t.val % 64 = 63) :
    stateAt V c t.val t.isLt = (wFirst c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) ((isFirst_iff t).mpr h0) (fun h => h1 ((isLast_iff t).mp h)) (blk V c 0 t) (blk V c 1 t) (blk V c 2 t) (blk V c 3 t) (blk V c 4 t), sFirst c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) ((isFirst_iff t).mpr h0) (fun h => h1 ((isLast_iff t).mp h)) (blk V c 0 t) (blk V c 1 t) (blk V c 2 t) (blk V c 3 t) (blk V c 4 t), outFirst c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) ((isFirst_iff t).mpr h0) (fun h => h1 ((isLast_iff t).mp h)) (blk V c 0 t) (blk V c 1 t) (blk V c 2 t) (blk V c 3 t) (blk V c 4 t), accFirst c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) ((isFirst_iff t).mpr h0) (fun h => h1 ((isLast_iff t).mp h)) (blk V c 0 t) (blk V c 1 t) (blk V c 2 t) (blk V c 3 t) (blk V c 4 t)) := by
  obtain ⟨n, hn⟩ := t
  cases n with
  | zero => exact rfl
  | succ n => exact (dif_pos h0).trans ((dif_neg h1).trans rfl)

theorem stateAt_middle (c : Dev nD) (t : Fin cfg1.N) (h0 : ¬t.val % 64 = 0) (h1 : ¬t.val % 64 = 63) :
    stateAt V c t.val t.isLt = (wMiddle c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) (fun h => h1 ((isLast_iff t).mp h)) (blk V c 0 t) (blk V c 1 t) (blk V c 2 t) (blk V c 3 t) (blk V c 4 t) (stateAt V c (t.val - 1) (Nat.lt_of_le_of_lt (Nat.sub_le _ _) t.isLt)).2.2.2, sMiddle c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) (fun h => h1 ((isLast_iff t).mp h)) (blk V c 0 t) (blk V c 1 t) (blk V c 2 t) (blk V c 3 t) (blk V c 4 t) (stateAt V c (t.val - 1) (Nat.lt_of_le_of_lt (Nat.sub_le _ _) t.isLt)).2.2.2, outMiddle c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) (fun h => h1 ((isLast_iff t).mp h)) (blk V c 0 t) (blk V c 1 t) (blk V c 2 t) (blk V c 3 t) (blk V c 4 t) (stateAt V c (t.val - 1) (Nat.lt_of_le_of_lt (Nat.sub_le _ _) t.isLt)).2.2.2, accMiddle c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) (fun h => h1 ((isLast_iff t).mp h)) (blk V c 0 t) (blk V c 1 t) (blk V c 2 t) (blk V c 3 t) (blk V c 4 t) (stateAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg1.N) (h0 : ¬t.val % 64 = 0) (h1 : t.val % 64 = 63) :
    stateAt V c t.val t.isLt = (wLast c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) ((isLast_iff t).mpr h1) (blk V c 0 t) (blk V c 1 t) (blk V c 2 t) (blk V c 3 t) (blk V c 4 t) (stateAt V c (t.val - 1) (Nat.lt_of_le_of_lt (Nat.sub_le _ _) t.isLt)).2.2.2, sLast c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) ((isLast_iff t).mpr h1) (blk V c 0 t) (blk V c 1 t) (blk V c 2 t) (blk V c 3 t) (blk V c 4 t) (stateAt V c (t.val - 1) (Nat.lt_of_le_of_lt (Nat.sub_le _ _) t.isLt)).2.2.2, outLast c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) ((isLast_iff t).mpr h1) (blk V c 0 t) (blk V c 1 t) (blk V c 2 t) (blk V c 3 t) (blk V c 4 t) (stateAt V c (t.val - 1) (Nat.lt_of_le_of_lt (Nat.sub_le _ _) t.isLt)).2.2.2, accLast c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) ((isLast_iff t).mpr h1) (blk V c 0 t) (blk V c 1 t) (blk V c 2 t) (blk V c 3 t) (blk V c 4 t) (stateAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch column at what the point before left -/

def inv (c : Dev nD) : (n : ℕ) → n ≤ cfg1.N → sProp 𝕄
  | 0, _ => Pipeline.ΦA spec1 c
  | n + 1, hn => iprop(chain c (owns (c : Thread nD τ) acc fullShare ((stateAt V c n hn).2.2.2)) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(chain c (owns (c : Thread nD τ) acc fullShare ((stateAt V c n hn).2.2.2)) ∗ (∃ r, prngReg c r)) := rfl
theorem inv_pos (c : Dev nD) (n : ℕ) (h : n ≤ cfg1.N) (hz : n ≠ 0) :
    inv V c n h = iprop(chain c (owns (c : Thread nD τ) acc fullShare ((stateAt V c (n - 1) (by omega)).2.2.2)) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (stateAt V c t.val t.isLt).1
    | ⟨6, _⟩ => (stateAt V c t.val t.isLt).2.1
    | ⟨7, _⟩ => (stateAt V c t.val t.isLt).2.2.1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = (stateAt V c t.val t.isLt).1 := by dsimp only [dat]
theorem after6 (c : Dev nD) (t : Fin cfg1.N) : (dat V c).after 6 t = (stateAt V c t.val t.isLt).2.1 := by dsimp only [dat]
theorem after7 (c : Dev nD) (t : Fin cfg1.N) : (dat V c).after 7 t = (stateAt V c t.val t.isLt).2.2.1 := by dsimp only [dat]

theorem found0 (c : Dev nD) (t : Fin cfg1.N) (d) : (dat V c).before 0 t d = blk V c 0 t :=
  found0_of V (dat V c) (A_eq V c 0) (after0 V c) t d
theorem found1 (c : Dev nD) (t : Fin cfg1.N) (d) : (dat V c).before 1 t d = blk V c 1 t :=
  found1_of V (dat V c) (A_eq V c 1) (after1 V c) t d
theorem found2 (c : Dev nD) (t : Fin cfg1.N) (d) : (dat V c).before 2 t d = blk V c 2 t :=
  found2_of V (dat V c) (A_eq V c 2) (after2 V c) t d
theorem found3 (c : Dev nD) (t : Fin cfg1.N) (d) : (dat V c).before 3 t d = blk V c 3 t :=
  found3_of V (dat V c) (A_eq V c 3) (after3 V c) t d
theorem found4 (c : Dev nD) (t : Fin cfg1.N) (d) : (dat V c).before 4 t d = blk V c 4 t :=
  found4_of V (dat V c) (A_eq V c 4) (after4 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (mr0 t) fullShare ((dat V c).before 0 t d))
    ∗ (∃ d, owns (c : Thread nD τ) (mr1 t) fullShare ((dat V c).before 1 t d))
    ∗ (∃ d, owns (c : Thread nD τ) (mr2 t) fullShare ((dat V c).before 2 t d))
    ∗ (∃ d, owns (c : Thread nD τ) (mr3 t) fullShare ((dat V c).before 3 t d))
    ∗ (∃ d, owns (c : Thread nD τ) (mr4 t) fullShare ((dat V c).before 4 t d))
    ∗ (∃ d, owns (c : Thread nD τ) (mr5 t) fullShare ((dat V c).before 5 t d))
    ∗ (∃ d, owns (c : Thread nD τ) (mr6 t) fullShare ((dat V c).before 6 t d))
    ∗ (∃ d, owns (c : Thread nD τ) (mr7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 16000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found0, found1, found2, found3, found4]
  rw [show (dat V c).owesAt () t.succ = (dat V c).owesAt () t.castSucc from rfl]
  rw [show (dat V c).Φ t.succ = inv V c (t.val + 1) t.isLt from rfl, inv_succ]
  have hN : t.val < 128 := lt_of_lt_of_eq t.isLt (show cfg1.N = 128 from N_1)
  rw [show (dat V c).leavesExact 0 t = owns (c : Thread nD τ) (mr0 t) fullShare ((dat V c).after 0 t) from by
    unfold Dat.leavesExact; rw [live0 t], after0]
  rw [show (dat V c).leavesExact 1 t = owns (c : Thread nD τ) (mr1 t) fullShare ((dat V c).after 1 t) from by
    unfold Dat.leavesExact; rw [live1 t], after1]
  rw [show (dat V c).leavesExact 2 t = owns (c : Thread nD τ) (mr2 t) fullShare ((dat V c).after 2 t) from by
    unfold Dat.leavesExact; rw [live2 t], after2]
  rw [show (dat V c).leavesExact 3 t = owns (c : Thread nD τ) (mr3 t) fullShare ((dat V c).after 3 t) from by
    unfold Dat.leavesExact; rw [live3 t], after3]
  rw [show (dat V c).leavesExact 4 t = owns (c : Thread nD τ) (mr4 t) fullShare ((dat V c).after 4 t) from by
    unfold Dat.leavesExact; rw [live4 t], after4]
  rw [show (dat V c).leavesExact 5 t = owns (c : Thread nD τ) (mr5 t) fullShare ((dat V c).after 5 t) from by
    unfold Dat.leavesExact; rw [live5 t], after5]
  rw [show (dat V c).leavesExact 6 t = owns (c : Thread nD τ) (mr6 t) fullShare ((dat V c).after 6 t) from by
    unfold Dat.leavesExact; rw [live6 t], after6]
  by_cases h0 : t.val % 64 = 0
  · have h1 : ¬t.val % 64 = 63 := by omega
    have hl : ¬isLast (grid1.coords t) := fun h => h1 ((isLast_iff t).mp h)
    rw [Dat.leavesExact_idle (dat V c) 7 t (idle7 t hl) (noFlush7 t hl)]
    rw [stateAt_first V c t h0 h1]
    unfold wFirst sFirst accFirst; (try dsimp only)
    by_cases hz : t.val = 0
    · rw [inv_castSucc V c t, inv_zero V c _ _ hz, rest_eq]
      iintro ⟨⟨⟨O1, O2, O3, O4, O5, O6, O7, O8, O9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ ((isFirst_iff t).mpr h0) hl (blk V c 0 t) (blk V c 1 t) (blk V c 2 t) (blk V c 3 t) (blk V c 4 t)).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, ⟨%e5, H5⟩, ⟨%e6, H6⟩, H7, ⟨%es0, HS0⟩⟩
      isplitl [O1 O2 O3 O4 O5 O6 O7 O8 O9 HS0 Hg]
      · isplitr [Hg]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (accFirst_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (wFirst_cover c _ _ _ _ _ _ _ _ _ _ _ _ _ _ _ _ _ _ _ _ _ _ _ _ _ _)
      isplitl [H6]
      · unfold owns; iexists _; isplitr
        swap; · iexact H6
        ipureintro; exact View.read_writes_of_cover _ _ _ _ _ (sFirst_cover c _ _ _ _ _ _ _ _ _ _ _ _ _ _ _ _ _ _ _ _ _ _ _ _ _ _)
      iexists _; iexact H7
    · rw [inv_castSucc V c t, inv_pos V c _ _ hz]
      iintro ⟨⟨⟨O1, O2, O3, O4, O5, O6, O7, O8, O9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ ((isFirst_iff t).mpr h0) hl (blk V c 0 t) (blk V c 1 t) (blk V c 2 t) (blk V c 3 t) (blk V c 4 t)).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexists _; iexact HS0
      iintro ⟨H0, H1, H2, H3, H4, ⟨%e5, H5⟩, ⟨%e6, H6⟩, H7, ⟨%es0, HS0⟩⟩
      isplitl [O1 O2 O3 O4 O5 O6 O7 O8 O9 HS0 Hg]
      · isplitr [Hg]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (accFirst_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (wFirst_cover c _ _ _ _ _ _ _ _ _ _ _ _ _ _ _ _ _ _ _ _ _ _ _ _ _ _)
      isplitl [H6]
      · unfold owns; iexists _; isplitr
        swap; · iexact H6
        ipureintro; exact View.read_writes_of_cover _ _ _ _ _ (sFirst_cover c _ _ _ _ _ _ _ _ _ _ _ _ _ _ _ _ _ _ _ _ _ _ _ _ _ _)
      iexists _; iexact H7
  · have hz : t.val ≠ 0 := fun e => h0 (by rw [e])
    have hf : ¬isFirst (grid1.coords t) := fun h => h0 ((isFirst_iff t).mp h)
    by_cases h1 : t.val % 64 = 63
    · rw [show (dat V c).leavesExact 7 t = owns (c : Thread nD τ) (mr7 t) fullShare ((dat V c).after 7 t) from by
        unfold Dat.leavesExact; rw [live7 t ((isLast_iff t).mpr h1)], after7]
      rw [stateAt_last V c t h0 h1]
      unfold wLast sLast outLast accLast; (try dsimp only)
      rw [inv_castSucc V c t, inv_pos V c _ _ hz]
      iintro ⟨⟨⟨O1, O2, O3, O4, O5, O6, O7, O8, O9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ hf ((isLast_iff t).mpr h1) (blk V c 0 t) (blk V c 1 t) (blk V c 2 t) (blk V c 3 t) (blk V c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, ⟨%es0, HS0⟩⟩
      isplitl [O1 O2 O3 O4 O5 O6 O7 O8 O9 HS0 Hg]
      · isplitr [Hg]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (accLast_cover c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (wLast_cover c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (sLast_cover c _ _ _ _ _ _ _ _ _ _ _ _ _ _ _ _ _ _ _ _ _ _ _ _ _ _ _)
      unfold owns; iexists _; isplitr
      swap; · iexact H7
      ipureintro; exact View.read_writes_of_cover _ _ _ _ _ (outLast_cover c _ _ _ _ _ _ _ _ _ _ _ _ _ _ _ _ _ _ _ _ _ _ _ _ _ _ _)
    · have hl : ¬isLast (grid1.coords t) := fun h => h1 ((isLast_iff t).mp h)
      rw [Dat.leavesExact_idle (dat V c) 7 t (idle7 t hl) (noFlush7 t hl)]
      rw [stateAt_middle V c t h0 h1]
      unfold wMiddle sMiddle accMiddle; (try dsimp only)
      rw [inv_castSucc V c t, inv_pos V c _ _ hz]
      iintro ⟨⟨⟨O1, O2, O3, O4, O5, O6, O7, O8, O9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMiddle c (grid1.coords t) _ _ _ _ _ _ _ _ _ _ _ _ _ _ _ _ _ _ hf hl (blk V c 0 t) (blk V c 1 t) (blk V c 2 t) (blk V c 3 t) (blk V c 4 t) _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, ⟨%e5, H5⟩, ⟨%e6, H6⟩, H7, ⟨%es0, HS0⟩⟩
      isplitl [O1 O2 O3 O4 O5 O6 O7 O8 O9 HS0 Hg]
      · isplitr [Hg]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (accMiddle_cover c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (wMiddle_cover c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (sMiddle_cover c _ _ _ _ _ _ _ _ _ _ _ _ _ _ _ _ _ _ _ _ _ _ _ _ _ _ _)
      iexists _; iexact H7

theorem body_obligation (c : Dev nD) : BodyObligation (dat (F := F) V c) (defs₀ (F := F)) Variants.none () Set.univ := fun t => by
  rw [bigSep_W1, bigSep_W1]
  exact sound_body V c t

theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

theorem inv_forget (c : Dev nD) (t : Fin (cfg1.N + 1)) (ht : t.val ≠ 0) : (dat V c).Φ t ⊢ Pipeline.ΦA spec1 c := by
  rw [show (dat V c).Φ t = inv V c t.val (Nat.le_of_lt_succ t.isLt) from rfl, inv_pos V c _ _ ht, rest_eq]
  iintro ⟨⟨O1, O2, O3, O4, O5, O6, O7, O8, O9, HS0⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexists _; iexact HS0
  iexact Hg

/-- After the last point the invariant gives the resting one back: the scratch column's contents are forgotten. -/
theorem inv_out (c : Dev nD) : (dat V c).Φ (Fin.last cfg1.N) ⊢ Pipeline.ΦA spec1 c :=
  inv_forget V c _ (by rw [Fin.val_last]; have : cfg1.N = 128 := N_1; omega)

end

end Cert.Kernel.Att

end
-- ==== Proof.WWhole.lean ====
/-
  (The program as printed at the word level: the same text as for its idealization, read at any float instance.)
  The whole program as a run: two stretches of host operations (the score row `s`, its extremes, the rows' shift `m`),
  the denominator kernel, the attention kernel. The contents of every unscoped buffer are named at each boundary — the
  launch memory, then each host stretch applied, then each kernel's arrays at what its pipeline leaves —, each kernel
  region is entered from and left at those contents (its scratch column taken out of the scoped buffers at anything and
  given back at anything), and the run ends with every unscoped buffer at the last boundary's contents.
-/
import proofs.«143615_j12283606468146_2_alg».proof.Proof.WDenFrame
import proofs.«143615_j12283606468146_2_alg».proof.Proof.WAttFrame
import proofs.«143615_j12283606468146_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (the score row, its extremes, the two candidate shifts). -/
abbrev W1 : Dev nD → Valuation τ sig (Elt F) := fun c => StableHlo.after hostOps0 (W0 m c)
/-- After the second host stretch (the shift selected by the sign of the scale): the first kernel's entry. -/
abbrev W2 : Dev nD → Valuation τ sig (Elt F) := fun c => StableHlo.after hostOps0_1 (W1 m c)
abbrev E2 : (c : Dev nD) → (b : Ref sig .tc) → Buf (Elt F) ((c : Thread nD τ).loc b) := fun c b => W2 m c b
/-- After the denominator kernel: its arrays at what its pipeline leaves, every other buffer as entered. -/
def W3 (c : Dev nD) : Valuation τ sig (Elt F) :=
  Pipeline.withArrays spec0 c (W2 m c) fun w => (Den.dat (E2 m) c).arrAt w cfg0.N
theorem W3_arr (c : Dev nD) (w : Fin cfg0.W) :
    W3 m c (Proc.devRef .tc (Pipeline.arrRef spec0 w)) = (Den.dat (E2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev E3 : (c : Dev nD) → (b : Ref sig .tc) → Buf (Elt F) ((c : Thread nD τ).loc b) := fun c b => W3 m c b
theorem exit0 (c : Dev nD) (w : Fin cfg0.W) : (Den.dat (E2 m) c).arrAt w cfg0.N = E3 m c (Pipeline.arrRef spec0 w) :=
  (W3_arr m c w).symm
theorem kept0 (c : Dev nD) : ∀ b, b ∉ Finset.univ.image (Pipeline.arrRef spec0) → E3 m c b = E2 m c b :=
  fun b hb => W3_of_ne m c b fun w e => hb (Finset.mem_image.mpr ⟨w, Finset.mem_univ _, e⟩)
/-- After the attention kernel: its arrays at what its pipeline leaves, every other buffer as entered. -/
def W4 (c : Dev nD) : Valuation τ sig (Elt F) :=
  Pipeline.withArrays spec1 c (W3 m c) fun w => (Att.dat (E3 m) c).arrAt w cfg1.N
theorem W4_arr (c : Dev nD) (w : Fin cfg1.W) :
    W4 m c (Proc.devRef .tc (Pipeline.arrRef spec1 w)) = (Att.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem exit1 (c : Dev nD) (w : Fin cfg1.W) : (Att.dat (E3 m) c).arrAt w cfg1.N = E4 m c (Pipeline.arrRef spec1 w) :=
  (W4_arr m c w).symm
theorem kept1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Den.dat (E2 m) c
  | ⟨1, _⟩ => fun c => Att.dat (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as segments -/

set_option backward.isDefEq.respectTransparency.types false in
/-- The denominator kernel over the thread state: entered from every unscoped buffer at `W2`, left at `W3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Den.body_obligation (E2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    show (Den.dat (E2 m) c).Φ (Fin.last cfg0.N) ⊢ _
    have h := Den.inv_out (E2 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E2 m c) (E3 m c) ((pdats m 0 c).arrAt · cfg0.N) (exit0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Att.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    show (Att.dat (E3 m) c).Φ (Fin.last cfg1.N) ⊢ _
    have h := Att.inv_out (E3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (exit1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m) ]

set_option backward.isDefEq.respectTransparency.types false in
/-- From any memory with zero counters every weakly fair execution of the program terminates, nothing faulting, and
    ends with every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Whole

end
-- ==== Proof.WEnds.lean ====
/-
  (The program as printed at the word level: the same text as for its idealization, read at any float instance.)
  The argument arrays at the end of the run: no host operation writes one, and a kernel region reads one through an
  input window (whose array is never written back) or bypasses it — so each ends as launched. With it, the frame.
-/
import proofs.«143615_j12283606468146_2_alg».proof.Proof.WWhole

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer neither host stretch writes holds its launch contents when the first kernel is entered. -/
theorem W2_kept (c : Dev nD) (r : Ref sig .tc) (h0 : r ∉ (hostOps0_W : List (Ref sig .tc))) (h1 : r ∉ (hostOps0_1_W : List (Ref sig .tc))) :
    W2 m c (Proc.devRef .tc r) = m ((c : Thread nD τ).loc r) :=
  (V2_of m c r h1).trans ((V1_of m c r h0).trans rfl)

/-- The first kernel's input arrays are as entered when the second is. -/
theorem W3_in (c : Dev nD) (w : Fin cfg0.W) (hw : (cfg0.win w).isOut = false) :
    W3 m c (Proc.devRef .tc (Pipeline.arrRef spec0 w)) = W2 m c (Proc.devRef .tc (Pipeline.arrRef spec0 w)) :=
  (W3_arr m c w).trans (((Den.dat (E2 m) c).arrAt_in w hw _).trans (Den.A_eq (E2 m) c w))

/-- The second kernel's input arrays end as entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((Att.dat (E3 m) c).arrAt_in w hw _).trans (Att.A_eq (E3 m) c w))

theorem W4_main_arg0 (c : Dev nD) : W4 m c (Proc.devRef .tc main_arg0) = m ((c : Thread nD τ).loc main_arg0) :=
  (W4_in m c 4 rfl).trans ((W3_of_ne m c main_arg0 (by decide)).trans (W2_kept m c main_arg0 (by decide) (by decide)))
theorem W4_main_arg1 (c : Dev nD) : W4 m c (Proc.devRef .tc main_arg1) = m ((c : Thread nD τ).loc main_arg1) :=
  (W4_in m c 0 rfl).trans ((W3_in m c 0 rfl).trans (W2_kept m c main_arg1 (by decide) (by decide)))
theorem W4_main_arg2 (c : Dev nD) : W4 m c (Proc.devRef .tc main_arg2) = m ((c : Thread nD τ).loc main_arg2) :=
  (W4_of_ne m c main_arg2 (by decide)).trans ((W3_of_ne m c main_arg2 (by decide)).trans (W2_kept m c main_arg2 (by decide) (by decide)))
theorem W4_main_arg3 (c : Dev nD) : W4 m c (Proc.devRef .tc main_arg3) = m ((c : Thread nD τ).loc main_arg3) :=
  (W4_of_ne m c main_arg3 (by decide)).trans ((W3_of_ne m c main_arg3 (by decide)).trans (W2_kept m c main_arg3 (by decide) (by decide)))

/-- THE FRAME, at any float instance: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Whole

end
-- ==== Proof.DenRuns.lean ====
/-
  The first of the two kernels: the softmax denominator, accumulated tile by tile in a scratch column.

  The grid is 2 x 32: row tile `b` (1024 rows), column tile `n` (2048 columns). At a point the kernel holds the rows'
  scale `idx` (1024 x 1), a strip of the score row `s` (1 x 2048), the rows' shift `m` (1024 x 1); it adds to a scratch
  column the row sums of `exp (idx * s - m)` over the strip. At the first column tile the scratch is zeroed first, at the
  last one it is copied to the output column. This module fixes what the three control cases share: the blocks the
  kernel is handed, the two conditions in closed form over the grid, where the output window is idle, and the
  memrefs the body is called with.
-/
import proofs.«143615_j12283606468146_2_alg».proof.Proof.Gen.KernelIdeal.Launch
import proofs.«143615_j12283606468146_2_alg».proof.Proof.Gen.KernelIdeal.Skeleton
import proofs.«143615_j12283606468146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block index
    has not moved), for any proof data over the entry contents whose body leaves the block in place. -/
theorem found0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

end

/-! ## The two conditions, decided over the grid -/

/-- "This is the first column tile": the kernel zeroes the scratch. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 32 = 0 :=
  (by decide +kernel : ∀ t : Fin grid0.N, isFirst (grid0.coords t) ↔ t.val % 32 = 0)

/-- "This is the last column tile": the kernel copies the scratch to the output column. -/
abbrev isLast (i : grid0.Coords) : Prop := k0_cond2 i = 1#1
theorem isLast_iff : ∀ t : Fin cfg0.N, isLast (grid0.coords t) ↔ t.val % 32 = 31 :=
  (by decide +kernel : ∀ t : Fin grid0.N, isLast (grid0.coords t) ↔ t.val % 32 = 31)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last column tile the output column is idle, and not written back. -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

/-- One staging buffer of the output window, through which its contents are stated. -/
abbrev outView : View sig .tc .vmem S1024x1 .f32 := (Memref.whole cc0_stg3_0 : Memref sig .tc .vmem S1024x1 .f32).view
abbrev mr0 (t : Fin cfg0.N) : Memref sig .tc .vmem S1024x1 .f32 := win0_0.stage (cfg0.slots t 0)
abbrev hmr0 (t : Fin cfg0.N) : (mr0 t).IsWhole := hstage0_0 ((cfg0.slots t 0).cast nbuf0_0)
abbrev mr1 (t : Fin cfg0.N) : Memref sig .tc .vmem S1x2048 .f32 := win0_1.stage (cfg0.slots t 1)
abbrev hmr1 (t : Fin cfg0.N) : (mr1 t).IsWhole := hstage0_1 ((cfg0.slots t 1).cast nbuf0_1)
abbrev mr2 (t : Fin cfg0.N) : Memref sig .tc .vmem S1024x1 .f32 := win0_2.stage (cfg0.slots t 2)
abbrev hmr2 (t : Fin cfg0.N) : (mr2 t).IsWhole := hstage0_2 ((cfg0.slots t 2).cast nbuf0_2)
abbrev mr3 (t : Fin cfg0.N) : Memref sig .tc .vmem S1024x1 .f32 := win0_3.stage (cfg0.slots t 3)
abbrev hmr3 (t : Fin cfg0.N) : (mr3 t).IsWhole := hstage0_3 ((cfg0.slots t 3).cast nbuf0_3)
/-- The scratch column the kernel carries from point to point. -/
abbrev acc : Memref sig .tc .vmem S1024x1 .f32 := Memref.whole cc0_scratch0
abbrev accView : View sig .tc .vmem S1024x1 .f32 := acc.view

/-- The scoped buffers of the other kernel, each whole at some contents: they ride through this region unread. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The region's resting invariant, with the scratch column as a memref owned at some contents. -/
theorem rest_eq (c : Dev nD) :
    (Pipeline.ΦA spec0 c : sProp 𝕄)
      = iprop(iprop((∃ d, owns (c : Thread nD τ) acc fullShare d) ∗ others c) ∗ (∃ r, prngReg c r)) := by
  unfold Pipeline.ΦA; rw [scopedRest0_eq]; simp only [acc, owns_whole]; try rfl

end Cert.KernelIdeal.Den

end
-- ==== Proof.DenFirst.lean ====
/-
  The denominator kernel at a FIRST column tile: the scratch column, whatever it held, is zeroed and then receives the strip's row sums; the output column is not touched. The body is run symbolically on whole staging memrefs; the list of pieces the scratch ends with is the witness the run finds.
-/
import proofs.«143615_j12283606468146_2_alg».proof.Proof.DenRuns

set_option maxRecDepth 16384

noncomputable section

namespace Cert.KernelIdeal.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first column tile: inputs at `x0 x1 x2`, the idle output column handed back as found, the scratch at anything;
    it ends with the scratch written by the pieces `LS`. -/
noncomputable def runFirst (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i)
    (x0 : Vec F S1024x1 .f32) (x1 : Vec F S1x2048 .f32) (x2 : Vec F S1024x1 .f32) :
    Σ' (L3 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__pass1_kernel i arg2 harg2 arg3 harg3 arg4 harg4 arg5 harg5 arg6 harg6) K } := by
  refine ⟨[], ?_, fun xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Den

end
-- ==== Proof.DenMiddle.lean ====
/-
  The denominator kernel at a MIDDLE column tile: the scratch column, at what the point before left, receives the strip's row sums on top; the output column is not touched.
-/
import proofs.«143615_j12283606468146_2_alg».proof.Proof.DenRuns

set_option maxRecDepth 16384

noncomputable section

namespace Cert.KernelIdeal.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle column tile: inputs at `x0 x1 x2`, the idle output column handed back as found, the scratch at `xs`;
    it ends with the scratch written by the pieces `LS`. -/
noncomputable def runMiddle (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i)
    (x0 : Vec F S1024x1 .f32) (x1 : Vec F S1x2048 .f32) (x2 : Vec F S1024x1 .f32) (xs : Vec F S1024x1 .f32) :
    Σ' (L3 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__pass1_kernel i arg2 harg2 arg3 harg3 arg4 harg4 arg5 harg5 arg6 harg6) K } := by
  refine ⟨[], ?_, fun xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Den

end
-- ==== Proof.DenLast.lean ====
/-
  The denominator kernel at a LAST column tile: the scratch column receives the strip's row sums on top of what the point before left, and is then copied whole into the output column.
-/
import proofs.«143615_j12283606468146_2_alg».proof.Proof.DenRuns

set_option maxRecDepth 16384

noncomputable section

namespace Cert.KernelIdeal.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a last column tile: inputs at `x0 x1 x2`, the output column at anything, the scratch at `xs`;
    it ends with the output column written by the pieces `L3` and the scratch by `LS`. -/
noncomputable def runLast (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i)
    (x0 : Vec F S1024x1 .f32) (x1 : Vec F S1x2048 .f32) (x2 : Vec F S1024x1 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__pass1_kernel i arg2 harg2 arg3 harg3 arg4 harg4 arg5 harg5 arg6 harg6) K } := by
  refine ⟨?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Den

end
-- ==== Proof.DenFrame.lean ====
/-
  The denominator kernel, point by point: what each case leaves in the scratch column and in the output column, the
  recursion over the grid's points that names the scratch's contents after each of them, the region's invariant (the
  scratch at those contents), the pipeline's proof data, and the body obligation at a generic point — a case split on
  the two closed-form conditions, each leaf that case's symbolic run.
-/
import proofs.«143615_j12283606468146_2_alg».proof.Proof.DenFirst
import proofs.«143615_j12283606468146_2_alg».proof.Proof.DenMiddle
import proofs.«143615_j12283606468146_2_alg».proof.Proof.DenLast

set_option maxRecDepth 16384

noncomputable section

namespace Cert.KernelIdeal.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- At a first column tile nothing is stored into the output column: a placeholder that nothing consults. -/
def outFirst (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i) (x0 : Vec F S1024x1 .f32) (x1 : Vec F S1x2048 .f32) (x2 : Vec F S1024x1 .f32) : Vec F S1024x1 .f32 :=
  outView.read (Elt F) (outView.writes (Elt F) outView.junk (runFirst c i arg2 harg2 arg3 harg3 arg4 harg4 arg5 harg5 arg6 harg6 hc0 hc1 x0 x1 x2).1)
theorem accFirst_cover (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i) (x0 : Vec F S1024x1 .f32) (x1 : Vec F S1x2048 .f32) (x2 : Vec F S1024x1 .f32) (y : S1024x1.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x1.size (by sl_kernel_rfl) y
/-- What a first column tile leaves in the scratch column. -/
def accFirst (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i) (x0 : Vec F S1024x1 .f32) (x1 : Vec F S1x2048 .f32) (x2 : Vec F S1024x1 .f32) : Vec F S1024x1 .f32 :=
  accView.read (Elt F) (accView.writes (Elt F) accView.junk (runFirst c i arg2 harg2 arg3 harg3 arg4 harg4 arg5 harg5 arg6 harg6 hc0 hc1 x0 x1 x2).2.1)

def outMiddle (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i) (x0 : Vec F S1024x1 .f32) (x1 : Vec F S1x2048 .f32) (x2 : Vec F S1024x1 .f32) (xs : Vec F S1024x1 .f32) : Vec F S1024x1 .f32 :=
  outView.read (Elt F) (outView.writes (Elt F) outView.junk (runMiddle c i arg2 harg2 arg3 harg3 arg4 harg4 arg5 harg5 arg6 harg6 hc0 hc1 x0 x1 x2 xs).1)
theorem accMiddle_cover (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i) (x0 : Vec F S1024x1 .f32) (x1 : Vec F S1x2048 .f32) (x2 : Vec F S1024x1 .f32) (xs : Vec F S1024x1 .f32) (y : S1024x1.Idx) :
    ∃ pc ∈ (runMiddle c i arg2 harg2 arg3 harg3 arg4 harg4 arg5 harg5 arg6 harg6 hc0 hc1 x0 x1 x2 xs).2.1, y ∈ pc.1.set :=
  View.cover_of_tiledL (runMiddle c i arg2 harg2 arg3 harg3 arg4 harg4 arg5 harg5 arg6 harg6 hc0 hc1 x0 x1 x2 xs).2.1 S1024x1.size (by sl_kernel_rfl) y
/-- What a middle column tile leaves in the scratch column, over what the point before left. -/
def accMiddle (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i) (x0 : Vec F S1024x1 .f32) (x1 : Vec F S1x2048 .f32) (x2 : Vec F S1024x1 .f32) (xs : Vec F S1024x1 .f32) : Vec F S1024x1 .f32 :=
  accView.read (Elt F) (accView.writes (Elt F) accView.junk (runMiddle c i arg2 harg2 arg3 harg3 arg4 harg4 arg5 harg5 arg6 harg6 hc0 hc1 x0 x1 x2 xs).2.1)

theorem outLast_cover (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) (y : S1024x1.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x1.size (by sl_kernel_rfl) y
/-- What a last column tile leaves in the output column. -/
def outLast (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) : Vec F S1024x1 .f32 :=
  outView.read (Elt F) (outView.writes (Elt F) outView.junk (runLast c i arg2 harg2 arg3 harg3 arg4 harg4 arg5 harg5 arg6 harg6 hc0 hc1 x0 x1 x2 xs).1)
theorem accLast_cover (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) (y : S1024x1.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1.size (by sl_kernel_rfl) y
def accLast (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) : Vec F S1024x1 .f32 :=
  accView.read (Elt F) (accView.writes (Elt F) accView.junk (runLast c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## The accumulation over the grid's points -/

/-- What the output column's staging buffer and the scratch column hold after the body at position `n`: the case the
    closed forms select there, run at the point's memrefs and blocks, over what the point before left in the scratch. -/
def stateAt (c : Dev nD) : (n : ℕ) → n < cfg0.N → Vec F S1024x1 .f32 × Vec F S1024x1 .f32
  | 0, hn => (outFirst c (grid0.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩), accFirst c (grid0.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩))
  | n + 1, hn =>
    if h0 : (n + 1) % 32 = 0 then
      if h1 : (n + 1) % 32 = 31 then
        False.elim (by omega)
      else
        (outFirst c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩), accFirst c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 32 = 31 then
        (outLast c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (stateAt c n (Nat.lt_of_succ_lt hn)).2, accLast c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (stateAt c n (Nat.lt_of_succ_lt hn)).2)
      else
        (outMiddle c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (stateAt c n (Nat.lt_of_succ_lt hn)).2, accMiddle c (grid0.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (stateAt c n (Nat.lt_of_succ_lt hn)).2)

theorem stateAt_first (c : Dev nD) (t : Fin cfg0.N) (h0 : t.val % 32 = 0) (h1 : ¬t.val % 32 = 31) :
    stateAt V c t.val t.isLt = (outFirst c (grid0.coords t) (mr0 t) (hmr0 t) (mr1 t) (hmr1 t) (mr2 t) (hmr2 t) (mr3 t) (hmr3 t) acc (Memref.isWhole_whole _) ((isFirst_iff t).mpr h0) (fun h => h1 ((isLast_iff t).mp h)) (blk V c 0 t) (blk V c 1 t) (blk V c 2 t), accFirst c (grid0.coords t) (mr0 t) (hmr0 t) (mr1 t) (hmr1 t) (mr2 t) (hmr2 t) (mr3 t) (hmr3 t) acc (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem stateAt_middle (c : Dev nD) (t : Fin cfg0.N) (h0 : ¬t.val % 32 = 0) (h1 : ¬t.val % 32 = 31) :
    stateAt V c t.val t.isLt = (outMiddle c (grid0.coords t) (mr0 t) (hmr0 t) (mr1 t) (hmr1 t) (mr2 t) (hmr2 t) (mr3 t) (hmr3 t) acc (Memref.isWhole_whole _) (fun h => h0 ((isFirst_iff t).mp h)) (fun h => h1 ((isLast_iff t).mp h)) (blk V c 0 t) (blk V c 1 t) (blk V c 2 t) (stateAt V c (t.val - 1) (Nat.lt_of_le_of_lt (Nat.sub_le _ _) t.isLt)).2, accMiddle c (grid0.coords t) (mr0 t) (hmr0 t) (mr1 t) (hmr1 t) (mr2 t) (hmr2 t) (mr3 t) (hmr3 t) acc (Memref.isWhole_whole _) (fun h => h0 ((isFirst_iff t).mp h)) (fun h => h1 ((isLast_iff t).mp h)) (blk V c 0 t) (blk V c 1 t) (blk V c 2 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 32 = 0) (h1 : t.val % 32 = 31) :
    stateAt V c t.val t.isLt = (outLast c (grid0.coords t) (mr0 t) (hmr0 t) (mr1 t) (hmr1 t) (mr2 t) (hmr2 t) (mr3 t) (hmr3 t) acc (Memref.isWhole_whole _) (fun h => h0 ((isFirst_iff t).mp h)) ((isLast_iff t).mpr h1) (blk V c 0 t) (blk V c 1 t) (blk V c 2 t) (stateAt V c (t.val - 1) (Nat.lt_of_le_of_lt (Nat.sub_le _ _) t.isLt)).2, accLast c (grid0.coords t) (mr0 t) (hmr0 t) (mr1 t) (hmr1 t) (mr2 t) (hmr2 t) (mr3 t) (hmr3 t) acc (Memref.isWhole_whole _) (fun h => h0 ((isFirst_iff t).mp h)) ((isLast_iff t).mpr h1) (blk V c 0 t) (blk V c 1 t) (blk V c 2 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch column at what the point before left -/

def inv (c : Dev nD) : (n : ℕ) → n ≤ cfg0.N → sProp 𝕄
  | 0, _ => Pipeline.ΦA spec0 c
  | n + 1, hn => iprop(iprop(owns (c : Thread nD τ) acc fullShare ((stateAt V c n hn).2) ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) acc fullShare ((stateAt V c n hn).2) ∗ others c) ∗ (∃ r, prngReg c r)) := rfl
theorem inv_pos (c : Dev nD) (n : ℕ) (h : n ≤ cfg0.N) (hz : n ≠ 0) :
    inv V c n h = iprop(iprop(owns (c : Thread nD τ) acc fullShare ((stateAt V c (n - 1) (by omega)).2) ∗ others c) ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (stateAt V c t.val t.isLt).1
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = (stateAt V c t.val t.isLt).1 := by dsimp only [dat]

theorem found0 (c : Dev nD) (t : Fin cfg0.N) (d) : (dat V c).before 0 t d = blk V c 0 t :=
  found0_of V (dat V c) (A_eq V c 0) (after0 V c) t d
theorem found1 (c : Dev nD) (t : Fin cfg0.N) (d) : (dat V c).before 1 t d = blk V c 1 t :=
  found1_of V (dat V c) (A_eq V c 1) (after1 V c) t d
theorem found2 (c : Dev nD) (t : Fin cfg0.N) (d) : (dat V c).before 2 t d = blk V c 2 t :=
  found2_of V (dat V c) (A_eq V c 2) (after2 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (mr0 t) fullShare ((dat V c).before 0 t d))
    ∗ (∃ d, owns (c : Thread nD τ) (mr1 t) fullShare ((dat V c).before 1 t d))
    ∗ (∃ d, owns (c : Thread nD τ) (mr2 t) fullShare ((dat V c).before 2 t d))
    ∗ (∃ d, owns (c : Thread nD τ) (mr3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found0, found1, found2]
  rw [show (dat V c).owesAt () t.succ = (dat V c).owesAt () t.castSucc from rfl]
  rw [show (dat V c).Φ t.succ = inv V c (t.val + 1) t.isLt from rfl, inv_succ]
  have hN : t.val < 64 := lt_of_lt_of_eq t.isLt (show cfg0.N = 64 from N_0)
  rw [show (dat V c).leavesExact 0 t = owns (c : Thread nD τ) (mr0 t) fullShare ((dat V c).after 0 t) from by
    unfold Dat.leavesExact; rw [live0 t], after0]
  rw [show (dat V c).leavesExact 1 t = owns (c : Thread nD τ) (mr1 t) fullShare ((dat V c).after 1 t) from by
    unfold Dat.leavesExact; rw [live1 t], after1]
  rw [show (dat V c).leavesExact 2 t = owns (c : Thread nD τ) (mr2 t) fullShare ((dat V c).after 2 t) from by
    unfold Dat.leavesExact; rw [live2 t], after2]
  by_cases h0 : t.val % 32 = 0
  · have h1 : ¬t.val % 32 = 31 := by omega
    have hl : ¬isLast (grid0.coords t) := fun h => h1 ((isLast_iff t).mp h)
    rw [Dat.leavesExact_idle (dat V c) 3 t (idle3 t hl) (noFlush3 t hl)]
    rw [stateAt_first V c t h0 h1]
    unfold accFirst; (try dsimp only)
    by_cases hz : t.val = 0
    · rw [inv_castSucc V c t, inv_zero V c _ _ hz, rest_eq]
      iintro ⟨⟨⟨HS0, Hoth⟩, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) hl (blk V c 0 t) (blk V c 1 t) (blk V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS0, Hoth⟩, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) hl (blk V c 0 t) (blk V c 1 t) (blk V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hf : ¬isFirst (grid0.coords t) := fun h => h0 ((isFirst_iff t).mp h)
    by_cases h1 : t.val % 32 = 31
    · rw [show (dat V c).leavesExact 3 t = owns (c : Thread nD τ) (mr3 t) fullShare ((dat V c).after 3 t) from by
        unfold Dat.leavesExact; rw [live3 t ((isLast_iff t).mpr h1)], after3]
      rw [stateAt_last V c t h0 h1]
      unfold outLast accLast; (try dsimp only)
      rw [inv_castSucc V c t, inv_pos V c _ _ hz]
      iintro ⟨⟨⟨HS0, Hoth⟩, Hg⟩, Ho, ⟨%d0, H0⟩, ⟨%d1, H1⟩, ⟨%d2, H2⟩, ⟨%d3, H3⟩⟩
      iapply ((runLast c (grid0.coords t) _ _ _ _ _ _ _ _ _ _ hf ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accLast_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · have hl : ¬isLast (grid0.coords t) := fun h => h1 ((isLast_iff t).mp h)
      rw [Dat.leavesExact_idle (dat V c) 3 t (idle3 t hl) (noFlush3 t hl)]
      rw [stateAt_middle V c t h0 h1]
      unfold accMiddle; (try dsimp only)
      rw [inv_castSucc V c t, inv_pos V c _ _ hz]
      iintro ⟨⟨⟨HS0, Hoth⟩, Hg⟩, Ho, ⟨%d0, H0⟩, ⟨%d1, H1⟩, ⟨%d2, H2⟩, ⟨%d3, H3⟩⟩
      iapply ((runMiddle c (grid0.coords t) _ _ _ _ _ _ _ _ _ _ hf hl (blk V c 0 t) (blk V c 1 t) (blk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accMiddle_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the resting one back: the scratch column's contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 64 := N_0; omega), rest_eq]
  iintro ⟨⟨HS0, Hoth⟩, Hg⟩
  isplitl [HS0 Hoth]
  · isplitl [HS0]
    · iexists _; iexact HS0
    iexact Hoth
  iexact Hg

end

end Cert.KernelIdeal.Den

end
-- ==== Proof.AttRuns.lean ====
/-
  The second of the two kernels: scores, attention weights and the weighted value sum.

  The grid is 2 x 64: row tile `b` (1024 rows), column tile `n` (1024 columns). At a point the kernel holds the rows' scale
  `idx` (1024 x 1), a strip of the score row `s` (1 x 1024), the rows' shift `m` and denominator `l` (1024 x 1 each) and a
  tile of the values (1024 x 1024). It writes the tile of scores `idx * s` and the tile of weights `exp (idx * s - m) / l`,
  and adds to a scratch column the row sums of weights times values. At the first column tile the scratch is zeroed
  first; at the last one it is copied to the output column. This module fixes what the three control cases share.
-/
import proofs.«143615_j12283606468146_2_alg».proof.Proof.Gen.KernelIdeal.Launch
import proofs.«143615_j12283606468146_2_alg».proof.Proof.Gen.KernelIdeal.Skeleton
import proofs.«143615_j12283606468146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

end

/-! ## The two conditions, decided over the grid -/

abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 64 = 0 :=
  (by decide +kernel : ∀ t : Fin grid1.N, isFirst (grid1.coords t) ↔ t.val % 64 = 0)

abbrev isLast (i : grid1.Coords) : Prop := k1_cond2 i = 1#1
theorem isLast_iff : ∀ t : Fin cfg1.N, isLast (grid1.coords t) ↔ t.val % 64 = 63 :=
  (by decide +kernel : ∀ t : Fin grid1.N, isLast (grid1.coords t) ↔ t.val % 64 = 63)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
theorem live6 : ∀ t : Fin cfg1.N, cfg1.idle 6 (grid1.coords t) = false := by decide +kernel
theorem idle7 : ∀ t : Fin cfg1.N, ¬isLast (grid1.coords t) → cfg1.idle 7 (grid1.coords t) = true := by decide +kernel
theorem noFlush7 : ∀ t : Fin cfg1.N, ¬isLast (grid1.coords t) → (cfg1.win 7).flush t = false := by decide +kernel
theorem live7 : ∀ t : Fin cfg1.N, isLast (grid1.coords t) → cfg1.idle 7 (grid1.coords t) = false := by decide +kernel

/-! ## The memrefs the body is called with -/

abbrev wView : View sig .tc .vmem S1024x1024 .f32 := (Memref.whole cc1_stg5_0 : Memref sig .tc .vmem S1024x1024 .f32).view
abbrev sView : View sig .tc .vmem S1024x1024 .f32 := (Memref.whole cc1_stg6_0 : Memref sig .tc .vmem S1024x1024 .f32).view
abbrev outView : View sig .tc .vmem S1024x1 .f32 := (Memref.whole cc1_stg7_0 : Memref sig .tc .vmem S1024x1 .f32).view
abbrev mr0 (t : Fin cfg1.N) : Memref sig .tc .vmem S1024x1 .f32 := win1_0.stage (cfg1.slots t 0)
abbrev hmr0 (t : Fin cfg1.N) : (mr0 t).IsWhole := hstage1_0 ((cfg1.slots t 0).cast nbuf1_0)
abbrev mr1 (t : Fin cfg1.N) : Memref sig .tc .vmem S1x1024 .f32 := win1_1.stage (cfg1.slots t 1)
abbrev hmr1 (t : Fin cfg1.N) : (mr1 t).IsWhole := hstage1_1 ((cfg1.slots t 1).cast nbuf1_1)
abbrev mr2 (t : Fin cfg1.N) : Memref sig .tc .vmem S1024x1 .f32 := win1_2.stage (cfg1.slots t 2)
abbrev hmr2 (t : Fin cfg1.N) : (mr2 t).IsWhole := hstage1_2 ((cfg1.slots t 2).cast nbuf1_2)
abbrev mr3 (t : Fin cfg1.N) : Memref sig .tc .vmem S1024x1 .f32 := win1_3.stage (cfg1.slots t 3)
abbrev hmr3 (t : Fin cfg1.N) : (mr3 t).IsWhole := hstage1_3 ((cfg1.slots t 3).cast nbuf1_3)
abbrev mr4 (t : Fin cfg1.N) : Memref sig .tc .vmem S1024x1024 .f32 := win1_4.stage (cfg1.slots t 4)
abbrev hmr4 (t : Fin cfg1.N) : (mr4 t).IsWhole := hstage1_4 ((cfg1.slots t 4).cast nbuf1_4)
abbrev mr5 (t : Fin cfg1.N) : Memref sig .tc .vmem S1024x1024 .f32 := win1_5.stage (cfg1.slots t 5)
abbrev hmr5 (t : Fin cfg1.N) : (mr5 t).IsWhole := hstage1_5 ((cfg1.slots t 5).cast nbuf1_5)
abbrev mr6 (t : Fin cfg1.N) : Memref sig .tc .vmem S1024x1024 .f32 := win1_6.stage (cfg1.slots t 6)
abbrev hmr6 (t : Fin cfg1.N) : (mr6 t).IsWhole := hstage1_6 ((cfg1.slots t 6).cast nbuf1_6)
abbrev mr7 (t : Fin cfg1.N) : Memref sig .tc .vmem S1024x1 .f32 := win1_7.stage (cfg1.slots t 7)
abbrev hmr7 (t : Fin cfg1.N) : (mr7 t).IsWhole := hstage1_7 ((cfg1.slots t 7).cast nbuf1_7)
/-- The scratch column the kernel carries from point to point. -/
abbrev acc : Memref sig .tc .vmem S1024x1 .f32 := Memref.whole cc1_scratch0
abbrev accView : View sig .tc .vmem S1024x1 .f32 := acc.view

/-- The scoped buffers no window of this kernel stages — the other kernel's staging buffers and scratch, each whole at
    some contents, riding through this region unread — with this kernel's scratch column, in the state `X`, last. -/
abbrev chain (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- The region's resting invariant, with the scratch column as a memref owned at some contents. -/
theorem rest_eq (c : Dev nD) :
    (Pipeline.ΦA spec1 c : sProp 𝕄)
      = iprop(chain c (iprop(∃ d, owns (c : Thread nD τ) acc fullShare d)) ∗ (∃ r, prngReg c r)) := by
  unfold Pipeline.ΦA; rw [scopedRest1_eq]; simp only [acc, owns_whole]; try rfl

end Cert.KernelIdeal.Att

end
-- ==== Proof.AttFirst.lean ====
/-
  The attention kernel at a FIRST column tile: the tile of scores and the tile of weights are written, the scratch column, whatever it held, is zeroed and then receives the row sums of weights times values; the output column is not touched. The body is run symbolically on whole staging memrefs; the lists of pieces each buffer ends with are the witness the run finds.
-/
import proofs.«143615_j12283606468146_2_alg».proof.Proof.AttRuns

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def runFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i)
    (x0 : Vec F S1024x1 .f32) (x1 : Vec F S1x1024 .f32) (x2 : Vec F S1024x1 .f32) (x3 : Vec F S1024x1 .f32) (x4 : Vec F S1024x1024 .f32) :
    Σ' (L5 : List (View.Piece (Elt F) S1024x1024 .f32)) (L6 : List (View.Piece (Elt F) S1024x1024 .f32)) (L7 : List (View.Piece (Elt F) S1024x1 .f32)), { LS : List (View.Piece (Elt F) S1024x1 .f32) //
      ∀ (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc1__pass2_kernel_eq_skeleton]; unfold cc1__pass2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.KernelIdeal.Att

end
-- ==== Proof.AttMiddle.lean ====
/-
  The attention kernel at a MIDDLE column tile: the tile of scores and the tile of weights are written, the scratch column receives the row sums of weights times values on top of what the point before left; the output column is not touched.
-/
import proofs.«143615_j12283606468146_2_alg».proof.Proof.AttRuns

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def runMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i)
    (x0 : Vec F S1024x1 .f32) (x1 : Vec F S1x1024 .f32) (x2 : Vec F S1024x1 .f32) (x3 : Vec F S1024x1 .f32) (x4 : Vec F S1024x1024 .f32) (xs : Vec F S1024x1 .f32) :
    Σ' (L5 : List (View.Piece (Elt F) S1024x1024 .f32)) (L6 : List (View.Piece (Elt F) S1024x1024 .f32)) (L7 : List (View.Piece (Elt F) S1024x1 .f32)), { LS : List (View.Piece (Elt F) S1024x1 .f32) //
      ∀ (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc1__pass2_kernel_eq_skeleton]; unfold cc1__pass2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.KernelIdeal.Att

end
-- ==== Proof.AttLast.lean ====
/-
  The attention kernel at a LAST column tile: the tile of scores and the tile of weights are written, the scratch column receives the row sums of weights times values on top of what the point before left, and is then copied whole into the output column.
-/
import proofs.«143615_j12283606468146_2_alg».proof.Proof.AttRuns

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def runLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i)
    (x0 : Vec F S1024x1 .f32) (x1 : Vec F S1x1024 .f32) (x2 : Vec F S1024x1 .f32) (x3 : Vec F S1024x1 .f32) (x4 : Vec F S1024x1024 .f32) (xs : Vec F S1024x1 .f32) :
    Σ' (L5 : List (View.Piece (Elt F) S1024x1024 .f32)) (L6 : List (View.Piece (Elt F) S1024x1024 .f32)) (L7 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__pass2_kernel_eq_skeleton]; unfold cc1__pass2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.KernelIdeal.Att

end
-- ==== Proof.AttFrame.lean ====
/-
  The attention kernel, point by point: what each case leaves in the two output tiles, the output column and the
  scratch column, the recursion over the grid's points that names the scratch's contents after each of them, the
  region's invariant, the pipeline's proof data, and the body obligation at a generic point.
-/
import proofs.«143615_j12283606468146_2_alg».proof.Proof.AttFirst
import proofs.«143615_j12283606468146_2_alg».proof.Proof.AttMiddle
import proofs.«143615_j12283606468146_2_alg».proof.Proof.AttLast

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-! ### First column tile -/

theorem wFirst_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) (y : S1024x1024.Idx) : ∃ pc ∈ (runFirst c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).1 S1024x1024.size (by sl_kernel_rfl) y
/-- The tile of weights this case leaves. -/
def wFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) : Vec F S1024x1024 .f32 :=
  wView.read (Elt F) (wView.writes (Elt F) wView.junk (runFirst c i arg2 harg2 arg3 harg3 arg4 harg4 arg5 harg5 arg6 harg6 arg7 harg7 arg8 harg8 arg9 harg9 arg10 harg10 hc0 hc1 x0 x1 x2 x3 x4).1)
theorem sFirst_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) (y : S1024x1024.Idx) : ∃ pc ∈ (runFirst c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.1 S1024x1024.size (by sl_kernel_rfl) y
/-- The tile of scores this case leaves. -/
def sFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) : Vec F S1024x1024 .f32 :=
  sView.read (Elt F) (sView.writes (Elt F) sView.junk (runFirst c i arg2 harg2 arg3 harg3 arg4 harg4 arg5 harg5 arg6 harg6 arg7 harg7 arg8 harg8 arg9 harg9 arg10 harg10 hc0 hc1 x0 x1 x2 x3 x4).2.1)
/-- The output column's staging buffer after this case (nothing is stored there: a placeholder nothing consults). -/
def outFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) : Vec F S1024x1 .f32 :=
  outView.read (Elt F) (outView.writes (Elt F) outView.junk (runFirst c i arg2 harg2 arg3 harg3 arg4 harg4 arg5 harg5 arg6 harg6 arg7 harg7 arg8 harg8 arg9 harg9 arg10 harg10 hc0 hc1 x0 x1 x2 x3 x4).2.2.1)
theorem accFirst_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) (y : S1024x1.Idx) : ∃ pc ∈ (runFirst c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.2.2.1 S1024x1.size (by sl_kernel_rfl) y
/-- The scratch column after this case. -/
def accFirst (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) : Vec F S1024x1 .f32 :=
  accView.read (Elt F) (accView.writes (Elt F) accView.junk (runFirst c i arg2 harg2 arg3 harg3 arg4 harg4 arg5 harg5 arg6 harg6 arg7 harg7 arg8 harg8 arg9 harg9 arg10 harg10 hc0 hc1 x0 x1 x2 x3 x4).2.2.2.1)

/-! ### Middle column tile -/

theorem wMiddle_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1024.Idx) : ∃ pc ∈ (runMiddle c i arg2 harg2 arg3 harg3 arg4 harg4 arg5 harg5 arg6 harg6 arg7 harg7 arg8 harg8 arg9 harg9 arg10 harg10 hc0 hc1 x0 x1 x2 x3 x4 xs).1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 xs).1 S1024x1024.size (by sl_kernel_rfl) y
/-- The tile of weights this case leaves. -/
def wMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1024 .f32 :=
  wView.read (Elt F) (wView.writes (Elt F) wView.junk (runMiddle c i arg2 harg2 arg3 harg3 arg4 harg4 arg5 harg5 arg6 harg6 arg7 harg7 arg8 harg8 arg9 harg9 arg10 harg10 hc0 hc1 x0 x1 x2 x3 x4 xs).1)
theorem sMiddle_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1024.Idx) : ∃ pc ∈ (runMiddle c i arg2 harg2 arg3 harg3 arg4 harg4 arg5 harg5 arg6 harg6 arg7 harg7 arg8 harg8 arg9 harg9 arg10 harg10 hc0 hc1 x0 x1 x2 x3 x4 xs).2.1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 xs).2.1 S1024x1024.size (by sl_kernel_rfl) y
/-- The tile of scores this case leaves. -/
def sMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1024 .f32 :=
  sView.read (Elt F) (sView.writes (Elt F) sView.junk (runMiddle c i arg2 harg2 arg3 harg3 arg4 harg4 arg5 harg5 arg6 harg6 arg7 harg7 arg8 harg8 arg9 harg9 arg10 harg10 hc0 hc1 x0 x1 x2 x3 x4 xs).2.1)
/-- The output column's staging buffer after this case (nothing is stored there: a placeholder nothing consults). -/
def outMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1 .f32 :=
  outView.read (Elt F) (outView.writes (Elt F) outView.junk (runMiddle c i arg2 harg2 arg3 harg3 arg4 harg4 arg5 harg5 arg6 harg6 arg7 harg7 arg8 harg8 arg9 harg9 arg10 harg10 hc0 hc1 x0 x1 x2 x3 x4 xs).2.2.1)
theorem accMiddle_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1.Idx) : ∃ pc ∈ (runMiddle c i arg2 harg2 arg3 harg3 arg4 harg4 arg5 harg5 arg6 harg6 arg7 harg7 arg8 harg8 arg9 harg9 arg10 harg10 hc0 hc1 x0 x1 x2 x3 x4 xs).2.2.2.1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 xs).2.2.2.1 S1024x1.size (by sl_kernel_rfl) y
/-- The scratch column after this case. -/
def accMiddle (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1 .f32 :=
  accView.read (Elt F) (accView.writes (Elt F) accView.junk (runMiddle c i arg2 harg2 arg3 harg3 arg4 harg4 arg5 harg5 arg6 harg6 arg7 harg7 arg8 harg8 arg9 harg9 arg10 harg10 hc0 hc1 x0 x1 x2 x3 x4 xs).2.2.2.1)

/-! ### Last column tile -/

theorem wLast_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1024.Idx) : ∃ pc ∈ (runLast c i arg2 harg2 arg3 harg3 arg4 harg4 arg5 harg5 arg6 harg6 arg7 harg7 arg8 harg8 arg9 harg9 arg10 harg10 hc0 hc1 x0 x1 x2 x3 x4 xs).1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 xs).1 S1024x1024.size (by sl_kernel_rfl) y
/-- The tile of weights this case leaves. -/
def wLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1024 .f32 :=
  wView.read (Elt F) (wView.writes (Elt F) wView.junk (runLast c i arg2 harg2 arg3 harg3 arg4 harg4 arg5 harg5 arg6 harg6 arg7 harg7 arg8 harg8 arg9 harg9 arg10 harg10 hc0 hc1 x0 x1 x2 x3 x4 xs).1)
theorem sLast_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1024.Idx) : ∃ pc ∈ (runLast c i arg2 harg2 arg3 harg3 arg4 harg4 arg5 harg5 arg6 harg6 arg7 harg7 arg8 harg8 arg9 harg9 arg10 harg10 hc0 hc1 x0 x1 x2 x3 x4 xs).2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 xs).2.1 S1024x1024.size (by sl_kernel_rfl) y
/-- The tile of scores this case leaves. -/
def sLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1024 .f32 :=
  sView.read (Elt F) (sView.writes (Elt F) sView.junk (runLast c i arg2 harg2 arg3 harg3 arg4 harg4 arg5 harg5 arg6 harg6 arg7 harg7 arg8 harg8 arg9 harg9 arg10 harg10 hc0 hc1 x0 x1 x2 x3 x4 xs).2.1)
theorem outLast_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1.Idx) : ∃ pc ∈ (runLast c i arg2 harg2 arg3 harg3 arg4 harg4 arg5 harg5 arg6 harg6 arg7 harg7 arg8 harg8 arg9 harg9 arg10 harg10 hc0 hc1 x0 x1 x2 x3 x4 xs).2.2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 xs).2.2.1 S1024x1.size (by sl_kernel_rfl) y
/-- The output column's staging buffer after this case. -/
def outLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1 .f32 :=
  outView.read (Elt F) (outView.writes (Elt F) outView.junk (runLast c i arg2 harg2 arg3 harg3 arg4 harg4 arg5 harg5 arg6 harg6 arg7 harg7 arg8 harg8 arg9 harg9 arg10 harg10 hc0 hc1 x0 x1 x2 x3 x4 xs).2.2.1)
theorem accLast_cover (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) (y : S1024x1.Idx) : ∃ pc ∈ (runLast c i arg2 harg2 arg3 harg3 arg4 harg4 arg5 harg5 arg6 harg6 arg7 harg7 arg8 harg8 arg9 harg9 arg10 harg10 hc0 hc1 x0 x1 x2 x3 x4 xs).2.2.2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 xs).2.2.2.1 S1024x1.size (by sl_kernel_rfl) y
/-- The scratch column after this case. -/
def accLast (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) : Vec F S1024x1 .f32 :=
  accView.read (Elt F) (accView.writes (Elt F) accView.junk (runLast c i arg2 harg2 arg3 harg3 arg4 harg4 arg5 harg5 arg6 harg6 arg7 harg7 arg8 harg8 arg9 harg9 arg10 harg10 hc0 hc1 x0 x1 x2 x3 x4 xs).2.2.2.1)

section
variable (V : (c : Dev nD) → (b : Ref sig .tc) → Buf (Elt F) ((c : Thread nD τ).loc b))

/-! ## The accumulation over the grid's points -/

/-- After the body at position `n`: the tile of weights, the tile of scores, the output column's staging buffer and the
    scratch column — the case the closed forms select there, over what the point before left in the scratch. -/
def stateAt (c : Dev nD) : (n : ℕ) → n < cfg1.N → Vec F S1024x1024 .f32 × Vec F S1024x1024 .f32 × Vec F S1024x1 .f32 × Vec F S1024x1 .f32
  | 0, hn => (wFirst c (grid1.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) (mr4 ⟨0, hn⟩) (hmr4 ⟨0, hn⟩) (mr5 ⟨0, hn⟩) (hmr5 ⟨0, hn⟩) (mr6 ⟨0, hn⟩) (hmr6 ⟨0, hn⟩) (mr7 ⟨0, hn⟩) (hmr7 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩), sFirst c (grid1.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) (mr4 ⟨0, hn⟩) (hmr4 ⟨0, hn⟩) (mr5 ⟨0, hn⟩) (hmr5 ⟨0, hn⟩) (mr6 ⟨0, hn⟩) (hmr6 ⟨0, hn⟩) (mr7 ⟨0, hn⟩) (hmr7 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩), outFirst c (grid1.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) (mr4 ⟨0, hn⟩) (hmr4 ⟨0, hn⟩) (mr5 ⟨0, hn⟩) (hmr5 ⟨0, hn⟩) (mr6 ⟨0, hn⟩) (hmr6 ⟨0, hn⟩) (mr7 ⟨0, hn⟩) (hmr7 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩), accFirst c (grid1.coords ⟨0, hn⟩) (mr0 ⟨0, hn⟩) (hmr0 ⟨0, hn⟩) (mr1 ⟨0, hn⟩) (hmr1 ⟨0, hn⟩) (mr2 ⟨0, hn⟩) (hmr2 ⟨0, hn⟩) (mr3 ⟨0, hn⟩) (hmr3 ⟨0, hn⟩) (mr4 ⟨0, hn⟩) (hmr4 ⟨0, hn⟩) (mr5 ⟨0, hn⟩) (hmr5 ⟨0, hn⟩) (mr6 ⟨0, hn⟩) (hmr6 ⟨0, hn⟩) (mr7 ⟨0, hn⟩) (hmr7 ⟨0, hn⟩) acc (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩))
  | n + 1, hn =>
    if h0 : (n + 1) % 64 = 0 then
      if h1 : (n + 1) % 64 = 63 then
        False.elim (by omega)
      else
        (wFirst c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩), sFirst c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩), outFirst c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩), accFirst c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩))
    else
      if h1 : (n + 1) % 64 = 63 then
        (wLast c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, sLast c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, outLast c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, accLast c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2)
      else
        (wMiddle c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, sMiddle c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, outMiddle c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2, accMiddle c (grid1.coords ⟨n + 1, hn⟩) (mr0 ⟨n + 1, hn⟩) (hmr0 ⟨n + 1, hn⟩) (mr1 ⟨n + 1, hn⟩) (hmr1 ⟨n + 1, hn⟩) (mr2 ⟨n + 1, hn⟩) (hmr2 ⟨n + 1, hn⟩) (mr3 ⟨n + 1, hn⟩) (hmr3 ⟨n + 1, hn⟩) (mr4 ⟨n + 1, hn⟩) (hmr4 ⟨n + 1, hn⟩) (mr5 ⟨n + 1, hn⟩) (hmr5 ⟨n + 1, hn⟩) (mr6 ⟨n + 1, hn⟩) (hmr6 ⟨n + 1, hn⟩) (mr7 ⟨n + 1, hn⟩) (hmr7 ⟨n + 1, hn⟩) acc (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (stateAt c n (Nat.lt_of_succ_lt hn)).2.2.2)

theorem stateAt_first (c : Dev nD) (t : Fin cfg1.N) (h0 : t.val % 64 = 0) (h1 : ¬t.val % 64 = 63) :
    stateAt V c t.val t.isLt = (wFirst c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) ((isFirst_iff t).mpr h0) (fun h => h1 ((isLast_iff t).mp h)) (blk V c 0 t) (blk V c 1 t) (blk V c 2 t) (blk V c 3 t) (blk V c 4 t), sFirst c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) ((isFirst_iff t).mpr h0) (fun h => h1 ((isLast_iff t).mp h)) (blk V c 0 t) (blk V c 1 t) (blk V c 2 t) (blk V c 3 t) (blk V c 4 t), outFirst c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) ((isFirst_iff t).mpr h0) (fun h => h1 ((isLast_iff t).mp h)) (blk V c 0 t) (blk V c 1 t) (blk V c 2 t) (blk V c 3 t) (blk V c 4 t), accFirst c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) ((isFirst_iff t).mpr h0) (fun h => h1 ((isLast_iff t).mp h)) (blk V c 0 t) (blk V c 1 t) (blk V c 2 t) (blk V c 3 t) (blk V c 4 t)) := by
  obtain ⟨n, hn⟩ := t
  cases n with
  | zero => exact rfl
  | succ n => exact (dif_pos h0).trans ((dif_neg h1).trans rfl)

theorem stateAt_middle (c : Dev nD) (t : Fin cfg1.N) (h0 : ¬t.val % 64 = 0) (h1 : ¬t.val % 64 = 63) :
    stateAt V c t.val t.isLt = (wMiddle c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) (fun h => h1 ((isLast_iff t).mp h)) (blk V c 0 t) (blk V c 1 t) (blk V c 2 t) (blk V c 3 t) (blk V c 4 t) (stateAt V c (t.val - 1) (Nat.lt_of_le_of_lt (Nat.sub_le _ _) t.isLt)).2.2.2, sMiddle c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) (fun h => h1 ((isLast_iff t).mp h)) (blk V c 0 t) (blk V c 1 t) (blk V c 2 t) (blk V c 3 t) (blk V c 4 t) (stateAt V c (t.val - 1) (Nat.lt_of_le_of_lt (Nat.sub_le _ _) t.isLt)).2.2.2, outMiddle c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) (fun h => h1 ((isLast_iff t).mp h)) (blk V c 0 t) (blk V c 1 t) (blk V c 2 t) (blk V c 3 t) (blk V c 4 t) (stateAt V c (t.val - 1) (Nat.lt_of_le_of_lt (Nat.sub_le _ _) t.isLt)).2.2.2, accMiddle c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) (fun h => h1 ((isLast_iff t).mp h)) (blk V c 0 t) (blk V c 1 t) (blk V c 2 t) (blk V c 3 t) (blk V c 4 t) (stateAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg1.N) (h0 : ¬t.val % 64 = 0) (h1 : t.val % 64 = 63) :
    stateAt V c t.val t.isLt = (wLast c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) ((isLast_iff t).mpr h1) (blk V c 0 t) (blk V c 1 t) (blk V c 2 t) (blk V c 3 t) (blk V c 4 t) (stateAt V c (t.val - 1) (Nat.lt_of_le_of_lt (Nat.sub_le _ _) t.isLt)).2.2.2, sLast c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) ((isLast_iff t).mpr h1) (blk V c 0 t) (blk V c 1 t) (blk V c 2 t) (blk V c 3 t) (blk V c 4 t) (stateAt V c (t.val - 1) (Nat.lt_of_le_of_lt (Nat.sub_le _ _) t.isLt)).2.2.2, outLast c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) ((isLast_iff t).mpr h1) (blk V c 0 t) (blk V c 1 t) (blk V c 2 t) (blk V c 3 t) (blk V c 4 t) (stateAt V c (t.val - 1) (Nat.lt_of_le_of_lt (Nat.sub_le _ _) t.isLt)).2.2.2, accLast c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) (fun h => h0 ((isFirst_iff t).mp h)) ((isLast_iff t).mpr h1) (blk V c 0 t) (blk V c 1 t) (blk V c 2 t) (blk V c 3 t) (blk V c 4 t) (stateAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch column at what the point before left -/

def inv (c : Dev nD) : (n : ℕ) → n ≤ cfg1.N → sProp 𝕄
  | 0, _ => Pipeline.ΦA spec1 c
  | n + 1, hn => iprop(chain c (owns (c : Thread nD τ) acc fullShare ((stateAt V c n hn).2.2.2)) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(chain c (owns (c : Thread nD τ) acc fullShare ((stateAt V c n hn).2.2.2)) ∗ (∃ r, prngReg c r)) := rfl
theorem inv_pos (c : Dev nD) (n : ℕ) (h : n ≤ cfg1.N) (hz : n ≠ 0) :
    inv V c n h = iprop(chain c (owns (c : Thread nD τ) acc fullShare ((stateAt V c (n - 1) (by omega)).2.2.2)) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (stateAt V c t.val t.isLt).1
    | ⟨6, _⟩ => (stateAt V c t.val t.isLt).2.1
    | ⟨7, _⟩ => (stateAt V c t.val t.isLt).2.2.1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = (stateAt V c t.val t.isLt).1 := by dsimp only [dat]
theorem after6 (c : Dev nD) (t : Fin cfg1.N) : (dat V c).after 6 t = (stateAt V c t.val t.isLt).2.1 := by dsimp only [dat]
theorem after7 (c : Dev nD) (t : Fin cfg1.N) : (dat V c).after 7 t = (stateAt V c t.val t.isLt).2.2.1 := by dsimp only [dat]

theorem found0 (c : Dev nD) (t : Fin cfg1.N) (d) : (dat V c).before 0 t d = blk V c 0 t :=
  found0_of V (dat V c) (A_eq V c 0) (after0 V c) t d
theorem found1 (c : Dev nD) (t : Fin cfg1.N) (d) : (dat V c).before 1 t d = blk V c 1 t :=
  found1_of V (dat V c) (A_eq V c 1) (after1 V c) t d
theorem found2 (c : Dev nD) (t : Fin cfg1.N) (d) : (dat V c).before 2 t d = blk V c 2 t :=
  found2_of V (dat V c) (A_eq V c 2) (after2 V c) t d
theorem found3 (c : Dev nD) (t : Fin cfg1.N) (d) : (dat V c).before 3 t d = blk V c 3 t :=
  found3_of V (dat V c) (A_eq V c 3) (after3 V c) t d
theorem found4 (c : Dev nD) (t : Fin cfg1.N) (d) : (dat V c).before 4 t d = blk V c 4 t :=
  found4_of V (dat V c) (A_eq V c 4) (after4 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (mr0 t) fullShare ((dat V c).before 0 t d))
    ∗ (∃ d, owns (c : Thread nD τ) (mr1 t) fullShare ((dat V c).before 1 t d))
    ∗ (∃ d, owns (c : Thread nD τ) (mr2 t) fullShare ((dat V c).before 2 t d))
    ∗ (∃ d, owns (c : Thread nD τ) (mr3 t) fullShare ((dat V c).before 3 t d))
    ∗ (∃ d, owns (c : Thread nD τ) (mr4 t) fullShare ((dat V c).before 4 t d))
    ∗ (∃ d, owns (c : Thread nD τ) (mr5 t) fullShare ((dat V c).before 5 t d))
    ∗ (∃ d, owns (c : Thread nD τ) (mr6 t) fullShare ((dat V c).before 6 t d))
    ∗ (∃ d, owns (c : Thread nD τ) (mr7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 16000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found0, found1, found2, found3, found4]
  rw [show (dat V c).owesAt () t.succ = (dat V c).owesAt () t.castSucc from rfl]
  rw [show (dat V c).Φ t.succ = inv V c (t.val + 1) t.isLt from rfl, inv_succ]
  have hN : t.val < 128 := lt_of_lt_of_eq t.isLt (show cfg1.N = 128 from N_1)
  rw [show (dat V c).leavesExact 0 t = owns (c : Thread nD τ) (mr0 t) fullShare ((dat V c).after 0 t) from by
    unfold Dat.leavesExact; rw [live0 t], after0]
  rw [show (dat V c).leavesExact 1 t = owns (c : Thread nD τ) (mr1 t) fullShare ((dat V c).after 1 t) from by
    unfold Dat.leavesExact; rw [live1 t], after1]
  rw [show (dat V c).leavesExact 2 t = owns (c : Thread nD τ) (mr2 t) fullShare ((dat V c).after 2 t) from by
    unfold Dat.leavesExact; rw [live2 t], after2]
  rw [show (dat V c).leavesExact 3 t = owns (c : Thread nD τ) (mr3 t) fullShare ((dat V c).after 3 t) from by
    unfold Dat.leavesExact; rw [live3 t], after3]
  rw [show (dat V c).leavesExact 4 t = owns (c : Thread nD τ) (mr4 t) fullShare ((dat V c).after 4 t) from by
    unfold Dat.leavesExact; rw [live4 t], after4]
  rw [show (dat V c).leavesExact 5 t = owns (c : Thread nD τ) (mr5 t) fullShare ((dat V c).after 5 t) from by
    unfold Dat.leavesExact; rw [live5 t], after5]
  rw [show (dat V c).leavesExact 6 t = owns (c : Thread nD τ) (mr6 t) fullShare ((dat V c).after 6 t) from by
    unfold Dat.leavesExact; rw [live6 t], after6]
  by_cases h0 : t.val % 64 = 0
  · have h1 : ¬t.val % 64 = 63 := by omega
    have hl : ¬isLast (grid1.coords t) := fun h => h1 ((isLast_iff t).mp h)
    rw [Dat.leavesExact_idle (dat V c) 7 t (idle7 t hl) (noFlush7 t hl)]
    rw [stateAt_first V c t h0 h1]
    unfold wFirst sFirst accFirst; (try dsimp only)
    by_cases hz : t.val = 0
    · rw [inv_castSucc V c t, inv_zero V c _ _ hz, rest_eq]
      iintro ⟨⟨⟨O1, O2, O3, O4, O5, O6, O7, O8, O9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ ((isFirst_iff t).mpr h0) hl (blk V c 0 t) (blk V c 1 t) (blk V c 2 t) (blk V c 3 t) (blk V c 4 t)).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, ⟨%e5, H5⟩, ⟨%e6, H6⟩, H7, ⟨%es0, HS0⟩⟩
      isplitl [O1 O2 O3 O4 O5 O6 O7 O8 O9 HS0 Hg]
      · isplitr [Hg]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (accFirst_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (wFirst_cover c _ _ _ _ _ _ _ _ _ _ _ _ _ _ _ _ _ _ _ _ _ _ _ _ _ _)
      isplitl [H6]
      · unfold owns; iexists _; isplitr
        swap; · iexact H6
        ipureintro; exact View.read_writes_of_cover _ _ _ _ _ (sFirst_cover c _ _ _ _ _ _ _ _ _ _ _ _ _ _ _ _ _ _ _ _ _ _ _ _ _ _)
      iexists _; iexact H7
    · rw [inv_castSucc V c t, inv_pos V c _ _ hz]
      iintro ⟨⟨⟨O1, O2, O3, O4, O5, O6, O7, O8, O9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ ((isFirst_iff t).mpr h0) hl (blk V c 0 t) (blk V c 1 t) (blk V c 2 t) (blk V c 3 t) (blk V c 4 t)).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexists _; iexact HS0
      iintro ⟨H0, H1, H2, H3, H4, ⟨%e5, H5⟩, ⟨%e6, H6⟩, H7, ⟨%es0, HS0⟩⟩
      isplitl [O1 O2 O3 O4 O5 O6 O7 O8 O9 HS0 Hg]
      · isplitr [Hg]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (accFirst_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (wFirst_cover c _ _ _ _ _ _ _ _ _ _ _ _ _ _ _ _ _ _ _ _ _ _ _ _ _ _)
      isplitl [H6]
      · unfold owns; iexists _; isplitr
        swap; · iexact H6
        ipureintro; exact View.read_writes_of_cover _ _ _ _ _ (sFirst_cover c _ _ _ _ _ _ _ _ _ _ _ _ _ _ _ _ _ _ _ _ _ _ _ _ _ _)
      iexists _; iexact H7
  · have hz : t.val ≠ 0 := fun e => h0 (by rw [e])
    have hf : ¬isFirst (grid1.coords t) := fun h => h0 ((isFirst_iff t).mp h)
    by_cases h1 : t.val % 64 = 63
    · rw [show (dat V c).leavesExact 7 t = owns (c : Thread nD τ) (mr7 t) fullShare ((dat V c).after 7 t) from by
        unfold Dat.leavesExact; rw [live7 t ((isLast_iff t).mpr h1)], after7]
      rw [stateAt_last V c t h0 h1]
      unfold wLast sLast outLast accLast; (try dsimp only)
      rw [inv_castSucc V c t, inv_pos V c _ _ hz]
      iintro ⟨⟨⟨O1, O2, O3, O4, O5, O6, O7, O8, O9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ hf ((isLast_iff t).mpr h1) (blk V c 0 t) (blk V c 1 t) (blk V c 2 t) (blk V c 3 t) (blk V c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, ⟨%es0, HS0⟩⟩
      isplitl [O1 O2 O3 O4 O5 O6 O7 O8 O9 HS0 Hg]
      · isplitr [Hg]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (accLast_cover c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (wLast_cover c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (sLast_cover c _ _ _ _ _ _ _ _ _ _ _ _ _ _ _ _ _ _ _ _ _ _ _ _ _ _ _)
      unfold owns; iexists _; isplitr
      swap; · iexact H7
      ipureintro; exact View.read_writes_of_cover _ _ _ _ _ (outLast_cover c _ _ _ _ _ _ _ _ _ _ _ _ _ _ _ _ _ _ _ _ _ _ _ _ _ _ _)
    · have hl : ¬isLast (grid1.coords t) := fun h => h1 ((isLast_iff t).mp h)
      rw [Dat.leavesExact_idle (dat V c) 7 t (idle7 t hl) (noFlush7 t hl)]
      rw [stateAt_middle V c t h0 h1]
      unfold wMiddle sMiddle accMiddle; (try dsimp only)
      rw [inv_castSucc V c t, inv_pos V c _ _ hz]
      iintro ⟨⟨⟨O1, O2, O3, O4, O5, O6, O7, O8, O9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMiddle c (grid1.coords t) _ _ _ _ _ _ _ _ _ _ _ _ _ _ _ _ _ _ hf hl (blk V c 0 t) (blk V c 1 t) (blk V c 2 t) (blk V c 3 t) (blk V c 4 t) _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, ⟨%e5, H5⟩, ⟨%e6, H6⟩, H7, ⟨%es0, HS0⟩⟩
      isplitl [O1 O2 O3 O4 O5 O6 O7 O8 O9 HS0 Hg]
      · isplitr [Hg]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (accMiddle_cover c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (wMiddle_cover c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (sMiddle_cover c _ _ _ _ _ _ _ _ _ _ _ _ _ _ _ _ _ _ _ _ _ _ _ _ _ _ _)
      iexists _; iexact H7

theorem body_obligation (c : Dev nD) : BodyObligation (dat (F := F) V c) (defs₀ (F := F)) Variants.none () Set.univ := fun t => by
  rw [bigSep_W1, bigSep_W1]
  exact sound_body V c t

theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

theorem inv_forget (c : Dev nD) (t : Fin (cfg1.N + 1)) (ht : t.val ≠ 0) : (dat V c).Φ t ⊢ Pipeline.ΦA spec1 c := by
  rw [show (dat V c).Φ t = inv V c t.val (Nat.le_of_lt_succ t.isLt) from rfl, inv_pos V c _ _ ht, rest_eq]
  iintro ⟨⟨O1, O2, O3, O4, O5, O6, O7, O8, O9, HS0⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexists _; iexact HS0
  iexact Hg

/-- After the last point the invariant gives the resting one back: the scratch column's contents are forgotten. -/
theorem inv_out (c : Dev nD) : (dat V c).Φ (Fin.last cfg1.N) ⊢ Pipeline.ΦA spec1 c :=
  inv_forget V c _ (by rw [Fin.val_last]; have : cfg1.N = 128 := N_1; omega)

end

end Cert.KernelIdeal.Att

end
-- ==== Proof.Whole.lean ====
/-
  The whole program as a run: two stretches of host operations (the score row `s`, its extremes, the rows' shift `m`),
  the denominator kernel, the attention kernel. The contents of every unscoped buffer are named at each boundary — the
  launch memory, then each host stretch applied, then each kernel's arrays at what its pipeline leaves —, each kernel
  region is entered from and left at those contents (its scratch column taken out of the scoped buffers at anything and
  given back at anything), and the run ends with every unscoped buffer at the last boundary's contents.
-/
import proofs.«143615_j12283606468146_2_alg».proof.Proof.DenFrame
import proofs.«143615_j12283606468146_2_alg».proof.Proof.AttFrame
import proofs.«143615_j12283606468146_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (the score row, its extremes, the two candidate shifts). -/
abbrev W1 : Dev nD → Valuation τ sig (Elt F) := fun c => StableHlo.after hostOps0 (W0 m c)
/-- After the second host stretch (the shift selected by the sign of the scale): the first kernel's entry. -/
abbrev W2 : Dev nD → Valuation τ sig (Elt F) := fun c => StableHlo.after hostOps0_1 (W1 m c)
abbrev E2 : (c : Dev nD) → (b : Ref sig .tc) → Buf (Elt F) ((c : Thread nD τ).loc b) := fun c b => W2 m c b
/-- After the denominator kernel: its arrays at what its pipeline leaves, every other buffer as entered. -/
def W3 (c : Dev nD) : Valuation τ sig (Elt F) :=
  Pipeline.withArrays spec0 c (W2 m c) fun w => (Den.dat (E2 m) c).arrAt w cfg0.N
theorem W3_arr (c : Dev nD) (w : Fin cfg0.W) :
    W3 m c (Proc.devRef .tc (Pipeline.arrRef spec0 w)) = (Den.dat (E2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev E3 : (c : Dev nD) → (b : Ref sig .tc) → Buf (Elt F) ((c : Thread nD τ).loc b) := fun c b => W3 m c b
theorem exit0 (c : Dev nD) (w : Fin cfg0.W) : (Den.dat (E2 m) c).arrAt w cfg0.N = E3 m c (Pipeline.arrRef spec0 w) :=
  (W3_arr m c w).symm
theorem kept0 (c : Dev nD) : ∀ b, b ∉ Finset.univ.image (Pipeline.arrRef spec0) → E3 m c b = E2 m c b :=
  fun b hb => W3_of_ne m c b fun w e => hb (Finset.mem_image.mpr ⟨w, Finset.mem_univ _, e⟩)
/-- After the attention kernel: its arrays at what its pipeline leaves, every other buffer as entered. -/
def W4 (c : Dev nD) : Valuation τ sig (Elt F) :=
  Pipeline.withArrays spec1 c (W3 m c) fun w => (Att.dat (E3 m) c).arrAt w cfg1.N
theorem W4_arr (c : Dev nD) (w : Fin cfg1.W) :
    W4 m c (Proc.devRef .tc (Pipeline.arrRef spec1 w)) = (Att.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem exit1 (c : Dev nD) (w : Fin cfg1.W) : (Att.dat (E3 m) c).arrAt w cfg1.N = E4 m c (Pipeline.arrRef spec1 w) :=
  (W4_arr m c w).symm
theorem kept1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Den.dat (E2 m) c
  | ⟨1, _⟩ => fun c => Att.dat (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as segments -/

set_option backward.isDefEq.respectTransparency.types false in
/-- The denominator kernel over the thread state: entered from every unscoped buffer at `W2`, left at `W3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Den.body_obligation (E2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    show (Den.dat (E2 m) c).Φ (Fin.last cfg0.N) ⊢ _
    have h := Den.inv_out (E2 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E2 m c) (E3 m c) ((pdats m 0 c).arrAt · cfg0.N) (exit0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Att.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    show (Att.dat (E3 m) c).Φ (Fin.last cfg1.N) ⊢ _
    have h := Att.inv_out (E3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (exit1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m) ]

set_option backward.isDefEq.respectTransparency.types false in
/-- From any memory with zero counters every weakly fair execution of the program terminates, nothing faulting, and
    ends with every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Whole

end
-- ==== Proof.Ends.lean ====
/-
  The argument arrays at the end of the run: no host operation writes one, and a kernel region reads one through an
  input window (whose array is never written back) or bypasses it — so each ends as launched. With it, the frame.
-/
import proofs.«143615_j12283606468146_2_alg».proof.Proof.Whole

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer neither host stretch writes holds its launch contents when the first kernel is entered. -/
theorem W2_kept (c : Dev nD) (r : Ref sig .tc) (h0 : r ∉ (hostOps0_W : List (Ref sig .tc))) (h1 : r ∉ (hostOps0_1_W : List (Ref sig .tc))) :
    W2 m c (Proc.devRef .tc r) = m ((c : Thread nD τ).loc r) :=
  (V2_of m c r h1).trans ((V1_of m c r h0).trans rfl)

/-- The first kernel's input arrays are as entered when the second is. -/
theorem W3_in (c : Dev nD) (w : Fin cfg0.W) (hw : (cfg0.win w).isOut = false) :
    W3 m c (Proc.devRef .tc (Pipeline.arrRef spec0 w)) = W2 m c (Proc.devRef .tc (Pipeline.arrRef spec0 w)) :=
  (W3_arr m c w).trans (((Den.dat (E2 m) c).arrAt_in w hw _).trans (Den.A_eq (E2 m) c w))

/-- The second kernel's input arrays end as entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((Att.dat (E3 m) c).arrAt_in w hw _).trans (Att.A_eq (E3 m) c w))

theorem W4_main_arg0 (c : Dev nD) : W4 m c (Proc.devRef .tc main_arg0) = m ((c : Thread nD τ).loc main_arg0) :=
  (W4_in m c 4 rfl).trans ((W3_of_ne m c main_arg0 (by decide)).trans (W2_kept m c main_arg0 (by decide) (by decide)))
theorem W4_main_arg1 (c : Dev nD) : W4 m c (Proc.devRef .tc main_arg1) = m ((c : Thread nD τ).loc main_arg1) :=
  (W4_in m c 0 rfl).trans ((W3_in m c 0 rfl).trans (W2_kept m c main_arg1 (by decide) (by decide)))
theorem W4_main_arg2 (c : Dev nD) : W4 m c (Proc.devRef .tc main_arg2) = m ((c : Thread nD τ).loc main_arg2) :=
  (W4_of_ne m c main_arg2 (by decide)).trans ((W3_of_ne m c main_arg2 (by decide)).trans (W2_kept m c main_arg2 (by decide) (by decide)))
theorem W4_main_arg3 (c : Dev nD) : W4 m c (Proc.devRef .tc main_arg3) = m ((c : Thread nD τ).loc main_arg3) :=
  (W4_of_ne m c main_arg3 (by decide)).trans ((W3_of_ne m c main_arg3 (by decide)).trans (W2_kept m c main_arg3 (by decide) (by decide)))

/-- THE FRAME, at any float instance: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Whole

end
-- ==== Proof.LibDense.lean ====
/-
  GENERAL LEMMAS: one dense layer, and the rectifier after it, read at an index on extended reals — in the two spellings a
  kernel and a host program give them. Nothing here mentions a program; the extents R (rows), K (contracted) and N
  (columns) are arbitrary.

  * affine, relu: a dense layer and the rectifier on ONE row, as plain functions Fin K → EReal ↦ Fin N → EReal.
  * ix2_of_val, ix1_of_val: an index with known coordinates is the index built from them.
  * contraction_rows: a contraction of axis 1 of an [R, K] array with axis 0 of a [K, N] array (no batch axes), read at
    (p, j), is the sum over k : Fin K of l (p, k) · r (k, j); the dimension record enters only through four coordinate
    facts about its operand indices (for a printed record: two by rfl-style unfolding, two by
    DotDims.lhsIdx_val_of_single / rhsIdx_val_of_single) and the rank and extent of its contraction shape (both rfl).
  * tile_affine: the kernel's spelling — tpu.matmul of the activations and weights, each rounded to bf16 on the way in
    (the identity on extended reals), into a zero accumulator, plus a [1, N] bias row cast to its own shape and broadcast
    down the R rows — at (p, j) is affine of row p.
  * host_affine: the host's spelling — dot_general plus an [N] bias vector broadcast to [1, N] and then to [R, N] — at
    (p, j) is affine of row p.
  * relu_tile, relu_host: a maximum against the zero word, splat from a scalar (kernel) or broadcast from a rank-0
    constant (host), at (p, j) is relu of row p.
  No law of extended-real arithmetic beyond reindexing a finite sum is used, so none of these needs finite inputs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx
open scoped BigOperators

/-- One dense layer on a row: j ↦ (∑ k, h k · W (k, j)) + b j. -/
def affine {K N : ℕ} (W : (⟨2, ![K, N]⟩ : Shape).Idx → EReal) (b : Fin N → EReal) (h : Fin K → EReal) : Fin N → EReal :=
  fun j => (∑ k : Fin K, h k * W (ix2 k j)) + b j

/-- The rectifier on a row: each entry's maximum with the value of the zero word (kept as the word: both programs
    print the same word, so it is never evaluated). -/
def relu {N : ℕ} (v : Fin N → EReal) : Fin N → EReal :=
  fun j => max (v j) (Ideal.ofBits .f32 0x00000000#32)

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with a known coordinate is the index built from it. -/
theorem ix1_of_val {n : ℕ} (f : (⟨1, ![n]⟩ : Shape).Idx) (a : Fin n) (h0 : (f 0).val = a.val) : f = ix1 a :=
  funext fun d => Fin.ext (by
    match d with
    | ⟨0, _⟩ => exact h0)

/-- A contraction of axis 1 of an [R, K] array with axis 0 of a [K, N] array (no batch axes), read at (p, j), is the
    sum over k : Fin K of l (p, k) · r (k, j): the record's operand indices are named by hl0 ... hr1, and its one-axis
    contraction index is Fin K (contrEquiv1). -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- ONE DENSE LAYER AS A KERNEL SPELLS IT, read at (p, j): the matrix unit's product of the activations and the weights
    (both rounded to bf16 on the way in: the identity here) into a zero accumulator, plus the bias, a [1, N] row cast to
    its own shape and broadcast down the R rows — is affine of the weights, the bias row and row p of the activations. -/
theorem tile_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨2, ![1, N]⟩ .f32)
    (hlt : FTy.bf16.bits < FTy.f32.bits)
    (hsc : (⟨2, ![1, N]⟩ : Shape).ShapeCasts ⟨2, ![1, N]⟩) (hbc : (⟨2, ![1, N]⟩ : Shape).Broadcasts ⟨2, ![R, N]⟩)
    (p : Fin R) (j : Fin N) :
    addf (matmul d none (truncf .bf16 h hlt) (truncf .bf16 W hlt) (constant (F := Ideal) ⟨2, ![R, N]⟩ .f32 0x00000000#32))
        (broadcastTo ⟨2, ![R, N]⟩ (shapeCast ⟨2, ![1, N]⟩ b hsc) hbc) (ix2 p j)
      = affine W (fun j => b (ix2 (0 : Fin 1) j)) (fun k => h (ix2 p k)) j := by
  rw [addf_apply, shapeCast_self, broadcastTo_1b_ab_apply]
  refine congrArg (· + b (ix2 (0 : Fin 1) j)) ?_
  refine (Ideal.matmul_constant_zero_apply d none (truncf .bf16 h hlt) (truncf .bf16 W hlt) (ix2 p j)).trans ?_
  exact contraction_rows d hrank hsize hl0 hl1 hr0 hr1 h W p j

/-- ONE DENSE LAYER AS THE HOST SPELLS IT, read at (p, j): dot_general of the activations and the weights plus the bias, an
    [N] vector broadcast to [1, N] and then down the R rows — is affine of the weights, the bias and row p. -/
theorem host_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    addf (Host.dotGeneral d none h W)
        (broadcastInDim ⟨2, ![R, N]⟩ ![0, 1] hb2 (broadcastInDim ⟨2, ![1, N]⟩ ![1] hb1 b)) (ix2 p j)
      = affine W (fun j => b (ix1 j)) (fun k => h (ix2 p k)) j := by
  rw [addf_apply]
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]
  refine congrArg (· + b (ix1 j)) ?_
  refine (Ideal.dotGeneral_apply d none .single h W (ix2 p j)).trans ?_
  exact contraction_rows d hrank hsize hl0 hl1 hr0 hr1 h W p j

/-- The rectifier as a kernel spells it: a maximum against the splat of the zero word, read at (p, j), is the rectifier of
    row p at j. -/
theorem relu_tile {R N : ℕ} (a : FVec Ideal ⟨2, ![R, N]⟩ .f32) (p : Fin R) (j : Fin N) :
    maximumf a (broadcast ⟨2, ![R, N]⟩ (Scalar.ofBits (F := Ideal) .f32 0x00000000#32)) (ix2 p j)
      = relu (fun j => a (ix2 p j)) j := rfl

/-- The rectifier as the host spells it: a maximum against the zero constant, a scalar broadcast to the whole shape, read
    at (p, j), is the rectifier of row p at j. -/
theorem relu_host {R N : ℕ} (a : FVec Ideal ⟨2, ![R, N]⟩ .f32) (hb : (⟨0, ![]⟩ : Shape).BroadcastsInDim ⟨2, ![R, N]⟩ ![])
    (p : Fin R) (j : Fin N) :
    maximumf a (broadcastInDim ⟨2, ![R, N]⟩ ![] hb (constant (F := Ideal) ⟨0, ![]⟩ .f32 0x00000000#32)) (ix2 p j)
      = relu (fun j => a (ix2 p j)) j := by
  rw [maximumf_apply, broadcastInDim_apply _ hb _ (ix2 p j) ix0 (fun a => a.elim0)]
  rfl

end Cert.Dense

end
-- ==== Proof.Arith.lean ====
/-
  The arithmetic the two programs differ by, on the extended reals.

  * a sum taken tile by tile (a range of tiles, the lanes of a tile) is the sum over all positions;
  * a scale moved across a finite sum of products of reals: `a * ∑ d, p d * k d = ∑ d, (a * k d) * p d`;
  * the largest of the scaled reals `a * s n` is `a` times the largest `s n` when `0 ≤ a`, and `a` times the
    smallest otherwise — the maximum and the minimum written as folds from `⊥` and `⊤`;
  * dividing by the real `1` changes nothing.
-/
import Idealize.ShloMosaic.PureOps.Ideal.Laws

noncomputable section

namespace Cert.Arith

open Idealize.ShloMosaic

/-- A sum over `T` tiles of the sums over a tile's `K` lanes is the sum over all `T * K` positions. -/
theorem sum_tiles {M : Type} [AddCommMonoid M] (T K : ℕ) (f : ℕ → M) :
    ∑ j ∈ Finset.range T, ∑ k : Fin K, f (K * j + k.val) = ∑ n : Fin (T * K), f n.val := by
  rw [← Fin.sum_univ_eq_sum_range (fun j => ∑ k : Fin K, f (K * j + k.val)) T,
    ← Fintype.sum_prod_type' (f := fun (j : Fin T) (k : Fin K) => f (K * j.val + k.val))]
  exact Fintype.sum_equiv finProdFinEquiv _ _ (fun x => by
    obtain ⟨j, k⟩ := x
    show f (K * j.val + k.val) = f ((finProdFinEquiv (j, k)).val)
    rw [finProdFinEquiv_apply_val, Nat.add_comm])

/-- The coercion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real scale moved across a finite sum of products of reals. -/
theorem scale_sum {ι : Type} [Fintype ι] (a : ℝ) (p k : ι → ℝ) :
    (a : EReal) * ∑ d, ((p d : EReal) * (k d : EReal)) = ∑ d, ((a : EReal) * (k d : EReal)) * (p d : EReal) := by
  simp only [← EReal.coe_mul, ← coe_sum]
  rw [Finset.mul_sum]
  exact congrArg _ (Finset.sum_congr rfl fun d _ => by ring)

/-- Dividing by the real one changes nothing. -/
theorem div_one' (x : EReal) : Ideal.div x ((1 : ℝ) : EReal) = x := by
  rw [Ideal.div_coe one_ne_zero]; simp

/-- The fold of `max` from `⊥` over the coercions of finitely many reals (at least one) is the coercion of the largest. -/
theorem fold_max_coe {ι : Type} [Fintype ι] [Nonempty ι] (r : ι → ℝ) :
    (Finset.univ : Finset ι).fold max (⊥ : EReal) (fun n => (r n : EReal))
      = ((Finset.univ.sup' Finset.univ_nonempty r : ℝ) : EReal) := by
  obtain ⟨n0, -, hn0⟩ := Finset.exists_mem_eq_sup' (Finset.univ_nonempty (α := ι)) r
  refine le_antisymm ?_ ?_
  · rw [Finset.fold_max_le]
    exact ⟨bot_le, fun n _ => EReal.coe_le_coe_iff.2 (Finset.le_sup' r (Finset.mem_univ n))⟩
  · rw [hn0]
    exact (Finset.le_fold_max _).2 (Or.inr ⟨n0, Finset.mem_univ n0, le_rfl⟩)

/-- The fold of `min` from `⊤` over the coercions of finitely many reals (at least one) is the coercion of the smallest. -/
theorem fold_min_coe {ι : Type} [Fintype ι] [Nonempty ι] (r : ι → ℝ) :
    (Finset.univ : Finset ι).fold min (⊤ : EReal) (fun n => (r n : EReal))
      = ((Finset.univ.inf' Finset.univ_nonempty r : ℝ) : EReal) := by
  obtain ⟨n0, -, hn0⟩ := Finset.exists_mem_eq_inf' (Finset.univ_nonempty (α := ι)) r
  refine le_antisymm ?_ ?_
  · rw [hn0]
    exact (Finset.fold_min_le _).2 (Or.inr ⟨n0, Finset.mem_univ n0, le_rfl⟩)
  · rw [Finset.le_fold_min]
    exact ⟨le_top, fun n _ => EReal.coe_le_coe_iff.2 (Finset.inf'_le r (Finset.mem_univ n))⟩

/-- The largest of finitely many reals does not depend on how they are indexed. -/
theorem fold_max_reindex {ι κ : Type} [Fintype ι] [Fintype κ] [Nonempty ι] [Nonempty κ] (e : κ → ι) (he : Function.Surjective e) (r : ι → ℝ) :
    (Finset.univ : Finset ι).fold max (⊥ : EReal) (fun i => (r i : EReal))
      = (Finset.univ : Finset κ).fold max (⊥ : EReal) (fun k => (r (e k) : EReal)) := by
  rw [fold_max_coe, fold_max_coe (fun k => r (e k))]
  refine congrArg _ (le_antisymm (Finset.sup'_le _ _ fun i _ => ?_) (Finset.sup'_le _ _ fun k _ => Finset.le_sup' r (Finset.mem_univ (e k))))
  obtain ⟨k, rfl⟩ := he i
  exact Finset.le_sup' (fun k => r (e k)) (Finset.mem_univ k)

/-- Nor does the smallest. -/
theorem fold_min_reindex {ι κ : Type} [Fintype ι] [Fintype κ] [Nonempty ι] [Nonempty κ] (e : κ → ι) (he : Function.Surjective e) (r : ι → ℝ) :
    (Finset.univ : Finset ι).fold min (⊤ : EReal) (fun i => (r i : EReal))
      = (Finset.univ : Finset κ).fold min (⊤ : EReal) (fun k => (r (e k) : EReal)) := by
  rw [fold_min_coe, fold_min_coe (fun k => r (e k))]
  refine congrArg _ (le_antisymm (Finset.le_inf' _ _ fun k _ => Finset.inf'_le r (Finset.mem_univ (e k))) (Finset.le_inf' _ _ fun i _ => ?_))
  obtain ⟨k, rfl⟩ := he i
  exact Finset.inf'_le (fun k => r (e k)) (Finset.mem_univ k)

/-- The largest of the scaled reals, for a scale that is not negative. -/
theorem sup_scale_nonneg {ι : Type} [Fintype ι] [Nonempty ι] (a : ℝ) (ha : 0 ≤ a) (s : ι → ℝ) :
    Finset.univ.sup' Finset.univ_nonempty (fun n => a * s n) = a * Finset.univ.sup' Finset.univ_nonempty s := by
  obtain ⟨n0, -, hn0⟩ := Finset.exists_mem_eq_sup' (Finset.univ_nonempty (α := ι)) s
  refine le_antisymm (Finset.sup'_le _ _ fun n _ => mul_le_mul_of_nonneg_left (Finset.le_sup' s (Finset.mem_univ n)) ha) ?_
  rw [hn0]
  exact Finset.le_sup' (fun n => a * s n) (Finset.mem_univ n0)

/-- The largest of the scaled reals, for a negative scale: the scale times the smallest. -/
theorem sup_scale_neg {ι : Type} [Fintype ι] [Nonempty ι] (a : ℝ) (ha : a ≤ 0) (s : ι → ℝ) :
    Finset.univ.sup' Finset.univ_nonempty (fun n => a * s n) = a * Finset.univ.inf' Finset.univ_nonempty s := by
  obtain ⟨n0, -, hn0⟩ := Finset.exists_mem_eq_inf' (Finset.univ_nonempty (α := ι)) s
  refine le_antisymm (Finset.sup'_le _ _ fun n _ => mul_le_mul_of_nonpos_left (Finset.inf'_le s (Finset.mem_univ n)) ha) ?_
  rw [hn0]
  exact Finset.le_sup' (fun n => a * s n) (Finset.mem_univ n0)

/-- THE ROW MAXIMUM in closed form: the largest of `a * s n`, folded from `⊥`, is `a` times the largest `s n` (folded
    from `⊥`) when `0 ≤ a`, and `a` times the smallest (folded from `⊤`) otherwise. -/
theorem fold_max_scale {ι : Type} [Fintype ι] [Nonempty ι] (a : ℝ) (s : ι → ℝ) :
    (Finset.univ : Finset ι).fold max (⊥ : EReal) (fun n => (a : EReal) * (s n : EReal))
      = if (0 : EReal) ≤ (a : EReal)
        then (a : EReal) * (Finset.univ : Finset ι).fold max (⊥ : EReal) (fun n => (s n : EReal))
        else (a : EReal) * (Finset.univ : Finset ι).fold min (⊤ : EReal) (fun n => (s n : EReal)) := by
  simp only [← EReal.coe_mul]
  rw [fold_max_coe, fold_max_coe, fold_min_coe]
  by_cases ha : 0 ≤ a
  · rw [if_pos (by exact_mod_cast ha), sup_scale_nonneg a ha, EReal.coe_mul]
  · rw [if_neg (by exact_mod_cast ha), sup_scale_neg a (le_of_lt (not_le.1 ha)), EReal.coe_mul]

end Cert.Arith

end
-- ==== Proof.HostSide.lean ====
/-
  What the kernel's program computes on the host before its first kernel: the score row and the rows' shift, as terms of
  the argument arrays; and those terms read at an index at the exact values — the score row's entry `n` is the sum over
  `d` of `pe (n, d) * kw (d, 0)` (divided by one), the shift of row `R` is the scale times the row's largest entry when the
  scale is not negative, times its smallest otherwise.
-/
import proofs.«143615_j12283606468146_2_alg».proof.Proof.Ends
import proofs.«143615_j12283606468146_2_alg».proof.Proof.LibDense
import proofs.«143615_j12283606468146_2_alg».proof.Proof.Arith
import Idealize.ShloMosaic.Lib.StableHlo.Run
import Idealize.ShloMosaic.Lib.IdealHost
import Idealize.ShloMosaic.Lib.ValueIdx
import Idealize.ShloMosaic.Lib.Pipeline.Value

noncomputable section

namespace Cert.KernelIdeal.Whole

open Idealize.ShloMosaic Idealize.ShloMosaic.TcCoe Idealize.ShloMosaic.ValueIdx Idealize.SL.Sem
open Cert.KernelIdeal Cert.KernelIdeal.Gen

section Terms
variable {F : FTy → Type} [FloatOps F]

/-- The score row as the host computes it. -/
def rowArr (x2 : FVec F S65536x64 .f32) (x3 : FVec F S64x1 .f32) : FVec F S1x65536 .f32 :=
  Host.divf (shapeCast S1x65536 (Host.dotGeneral dot_S65536x64_S64x1_S65536x1_1_0_0_1_n_n none x2 x3) shapeCasts_S65536x1_S1x65536)
    (broadcastInDim S1x65536 ![] bcast_S_S1x65536 (constant S_ .f32 0x3F800000#32))

/-- The rows' shift as the host computes it. -/
def shiftArr (x1 : FVec F S2048x1 .f32) (x2 : FVec F S65536x64 .f32) (x3 : FVec F S64x1 .f32) : FVec F S2048x1 .f32 :=
  select (cmpf .oge x1 (broadcastInDim S2048x1 ![] bcast_S_S2048x1 (constant S_ .f32 0x00000000#32)))
    (mulf x1 (broadcastInDim S2048x1 ![] bcast_S_S2048x1
      (Host.reduce FloatOps.maximumf (rowArr x2 x3) (constant S_ .f32 0xFF800000#32) reducesTo_S1x65536_S_d0_1 h_S_)))
    (mulf x1 (broadcastInDim S2048x1 ![] bcast_S_S2048x1
      (Host.reduce FloatOps.minimumf (rowArr x2 x3) (constant S_ .f32 0x7F800000#32) reducesTo_S1x65536_S_d0_1 h_S_)))

variable (m : (ℓ : Loc nD τ sig) → Buf (Elt F) ℓ) (c : Dev nD)

theorem E2_row : E2 m c main_v3 = rowArr (F := F) (m ((c : Thread nD τ).loc main_arg2)) (m ((c : Thread nD τ).loc main_arg3)) := by
  dsimp only [E2, W2, W1, W0]
  after_results_simp
  rfl

set_option maxHeartbeats 4000000 in
theorem E2_shift : E2 m c main_v12 = shiftArr (F := F) (m ((c : Thread nD τ).loc main_arg1)) (m ((c : Thread nD τ).loc main_arg2)) (m ((c : Thread nD τ).loc main_arg3)) := by
  dsimp only [E2, W2, W1, W0]
  after_results_simp
  rfl

theorem E2_scale : E2 m c main_arg1 = m ((c : Thread nD τ).loc main_arg1) := W2_kept m c main_arg1 (by decide) (by decide)

end Terms

/-! ## Read at an index, at the exact values -/

section Read
variable (x1 : FVec Ideal S2048x1 .f32) (x2 : FVec Ideal S65536x64 .f32) (x3 : FVec Ideal S64x1 .f32)

/-- The dimension numbers of the host's product of the embeddings with the key weights. -/
abbrev DD : DotDims S65536x64 S64x1 S65536x1 := dot_S65536x64_S64x1_S65536x1_1_0_0_1_n_n

theorem dd_l0 (i : S65536x1.Idx) (q : DD.contr.Idx) : (DD.lhsIdx i q 0).val = (i 0).val := by
  unfold DotDims.lhsIdx
  rw [dif_neg (show ¬(0 : Fin S65536x64.rank) ∈ dot_S65536x64_S64x1_S65536x1_1_0_0_1_n_n.lhsBatch by decide), dif_pos (show (0 : Fin S65536x64.rank) ∈ dot_S65536x64_S64x1_S65536x1_1_0_0_1_n_n.lhsNonContracting by decide)]
  rfl
theorem dd_l1 (i : S65536x1.Idx) (q : DD.contr.Idx) : (DD.lhsIdx i q 1).val = (q ⟨0, by decide⟩).val :=
  dot_S65536x64_S64x1_S65536x1_1_0_0_1_n_n.lhsIdx_val_of_single rfl i q
theorem dd_r0 (i : S65536x1.Idx) (q : DD.contr.Idx) : (DD.rhsIdx i q 0).val = (q ⟨0, by decide⟩).val :=
  dot_S65536x64_S64x1_S65536x1_1_0_0_1_n_n.rhsIdx_val_of_single rfl i q
theorem dd_r1 (i : S65536x1.Idx) (q : DD.contr.Idx) : (DD.rhsIdx i q 1).val = (i 1).val := by
  unfold DotDims.rhsIdx
  rw [dif_neg (show ¬(1 : Fin S64x1.rank) ∈ dot_S65536x64_S64x1_S65536x1_1_0_0_1_n_n.rhsBatch by decide), dif_pos (show (1 : Fin S64x1.rank) ∈ dot_S65536x64_S64x1_S65536x1_1_0_0_1_n_n.rhsNonContracting by decide)]
  rfl

theorem one_f32 : Ideal.ofBits .f32 0x3F800000#32 = ((1 : ℝ) : EReal) := by
  rw [Ideal.ofBits_one_f32, EReal.coe_one]

/-- Entry `n` of the score row. -/
theorem rowArr_apply (u : Fin 1) (n : Fin 65536) :
    rowArr (F := Ideal) x2 x3 (ix2 u n) = ∑ d : Fin 64, x2 (ix2 n d) * x3 (ix2 d (0 : Fin 1)) := by
  unfold rowArr
  show Ideal.div (shapeCast S1x65536 (Host.dotGeneral DD none x2 x3) shapeCasts_S65536x1_S1x65536 (ix2 u n)) (Ideal.ofBits .f32 0x3F800000#32) = _
  rw [one_f32, Arith.div_one']
  have hsc : shapeCast S1x65536 (Host.dotGeneral DD none x2 x3) shapeCasts_S65536x1_S1x65536 (ix2 u n)
      = Host.dotGeneral DD none x2 x3 (ix2 n (0 : Fin 1)) :=
    shapeCast_apply _ shapeCasts_S65536x1_S1x65536 _ _ (by
      have hu : u.val = 0 := by omega
      rw [Shape.rowMajor_val_two, Shape.rowMajor_val_two]
      show n.val * 1 + 0 = u.val * 65536 + n.val
      omega)
  rw [hsc]
  simp only [Host.dotGeneral]
  rw [Ideal.dotGeneral_apply]
  exact Cert.Dense.contraction_rows DD rfl rfl dd_l0 dd_l1 dd_r0 dd_r1 x2 x3 n 0

instance : Subsingleton S_.Idx := ⟨fun a b => funext fun d => d.elim0⟩

theorem pos_inf_f32 : Ideal.ofBits .f32 0x7F800000#32 = (⊤ : EReal) := by simp [Ideal.ofBits, Ideal.ieee]
theorem neg_inf_f32 : Ideal.ofBits .f32 0xFF800000#32 = (⊥ : EReal) := by simp [Ideal.ofBits, Ideal.ieee]

/-- The row's largest entry, as the host folds it. -/
theorem rowMax_eq : Host.reduce FloatOps.maximumf (rowArr (F := Ideal) x2 x3) (constant S_ .f32 0xFF800000#32) reducesTo_S1x65536_S_d0_1 h_S_ ix0
    = (Finset.univ : Finset S1x65536.Idx).fold max (⊥ : EReal) (rowArr (F := Ideal) x2 x3) := by
  rw [Host.reduce_eq_fold, Finset.filter_true_of_mem (fun i _ => Subsingleton.elim _ _)]
  show Finset.fold max (Ideal.ofBits .f32 0xFF800000#32) _ _ = _
  rw [neg_inf_f32]

/-- The row's smallest entry, as the host folds it. -/
theorem rowMin_eq : Host.reduce FloatOps.minimumf (rowArr (F := Ideal) x2 x3) (constant S_ .f32 0x7F800000#32) reducesTo_S1x65536_S_d0_1 h_S_ ix0
    = (Finset.univ : Finset S1x65536.Idx).fold min (⊤ : EReal) (rowArr (F := Ideal) x2 x3) := by
  rw [Host.reduce_eq_fold, Finset.filter_true_of_mem (fun i _ => Subsingleton.elim _ _)]
  show Finset.fold min (Ideal.ofBits .f32 0x7F800000#32) _ _ = _
  rw [pos_inf_f32]

/-- The shift of row `R`: the scale times the row's largest entry when the scale is not negative, times its smallest otherwise. -/
theorem shiftArr_apply (R : Fin 2048) (u : Fin 1) :
    shiftArr (F := Ideal) x1 x2 x3 (ix2 R u)
      = if (0 : EReal) ≤ x1 (ix2 R u)
        then x1 (ix2 R u) * (Finset.univ : Finset S1x65536.Idx).fold max (⊥ : EReal) (rowArr (F := Ideal) x2 x3)
        else x1 (ix2 R u) * (Finset.univ : Finset S1x65536.Idx).fold min (⊤ : EReal) (rowArr (F := Ideal) x2 x3) := by
  unfold shiftArr
  have hc : cmpf .oge x1 (broadcastInDim S2048x1 ![] bcast_S_S2048x1 (constant (F := Ideal) S_ .f32 0x00000000#32)) (ix2 R u)
      = BitVec.ofBool (decide ((0 : EReal) ≤ x1 (ix2 R u))) := by
    show Ideal.cmp .oge (x1 (ix2 R u)) (Ideal.ofBits .f32 0x00000000#32) = _
    rw [Ideal.ofBits_zero_f32]; rfl
  rw [select_apply, hc, mulf_apply, mulf_apply, broadcastInDim_scalar_apply, broadcastInDim_scalar_apply, rowMax_eq, rowMin_eq]
  by_cases h : (0 : EReal) ≤ x1 (ix2 R u)
  · rw [if_pos h, decide_eq_true h]; exact select_one _ _
  · rw [if_neg h, decide_eq_false h]; exact select_zero _ _

end Read

end Cert.KernelIdeal.Whole

end
-- ==== Proof.DenValue.lean ====
/-
  The denominator kernel's found pieces read back as values: whatever the control case, the scratch column after a
  point is the body's one arithmetic term — the strip's row sums of `exp (idx * s - m)` added to the column's previous
  contents — of the point's three blocks and of what the column held (the zero column at a first column tile); and at a
  last column tile the output column is that same term.
-/
import proofs.«143615_j12283606468146_2_alg».proof.Proof.DenFrame
import Idealize.ShloMosaic.Lib.Pipeline.Value

set_option maxRecDepth 16384

noncomputable section

namespace Cert.KernelIdeal.Den

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem accMiddle_eq (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i) (x0 : Vec F S1024x1 .f32) (x1 : Vec F S1x2048 .f32) (x2 : Vec F S1024x1 .f32) (xs : Vec F S1024x1 .f32) :
    accMiddle c i arg2 harg2 arg3 harg3 arg4 harg4 arg5 harg5 arg6 harg6 hc0 hc1 x0 x1 x2 xs = k0_pay2 x0 x1 xs x2 := by
  unfold accMiddle
  rw [View.read_writes_eq_canon _ _ _ (accMiddle_cover c i arg2 harg2 arg3 harg3 arg4 harg4 arg5 harg5 arg6 harg6 hc0 hc1 x0 x1 x2 xs)]
  unfold runMiddle
  dsimp only
  rw [View.canon_unit_zero hz]
  simp only [View.readAt_eq_ld, harg2.read_unread, harg3.read_unread, harg4.read_unread, harg6.read_unread,
    View.ld_unit_zero (S := S1024x1) hz, View.ld_unit_zero (S := S1x2048) hz]

theorem accFirst_eq (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i) (x0 : Vec F S1024x1 .f32) (x1 : Vec F S1x2048 .f32) (x2 : Vec F S1024x1 .f32) :
    accFirst c i arg2 harg2 arg3 harg3 arg4 harg4 arg5 harg5 arg6 harg6 hc0 hc1 x0 x1 x2 = k0_pay2 x0 x1 (k0_pay1 (F := F)) x2 := by
  unfold accFirst
  rw [View.read_writes_eq_canon _ _ _ (accFirst_cover c i arg2 harg2 arg3 harg3 arg4 harg4 arg5 harg5 arg6 harg6 hc0 hc1 x0 x1 x2)]
  unfold runFirst
  dsimp only
  sl_unfold_words
  rw [View.canon_cons_unit_zero (S := S1024x1) hz, View.readCov_unit_zero (S := S1024x1) _ hz]
  simp only [View.readAt_eq_ld, harg2.read_unread, harg3.read_unread, harg4.read_unread,
    View.ld_unit_zero (S := S1024x1) hz, View.ld_unit_zero (S := S1x2048) hz]

theorem accLast_eq (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) :
    accLast c i arg2 harg2 arg3 harg3 arg4 harg4 arg5 harg5 arg6 harg6 hc0 hc1 x0 x1 x2 xs = k0_pay2 x0 x1 xs x2 := by
  unfold accLast
  rw [View.read_writes_eq_canon _ _ _ (accLast_cover c i arg2 harg2 arg3 harg3 arg4 harg4 arg5 harg5 arg6 harg6 hc0 hc1 x0 x1 x2 xs)]
  unfold runLast
  dsimp only
  sl_unfold_words
  rw [View.canon_unit_zero hz]
  simp only [View.readAt_eq_ld, harg2.read_unread, harg3.read_unread, harg4.read_unread, harg6.read_unread,
    View.ld_unit_zero (S := S1024x1) hz, View.ld_unit_zero (S := S1x2048) hz]

theorem outLast_eq (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i) (x0 : Vec F S1024x1 .f32) (x1 : Vec F S1x2048 .f32) (x2 : Vec F S1024x1 .f32) (xs : Vec F S1024x1 .f32) :
    outLast c i arg2 harg2 arg3 harg3 arg4 harg4 arg5 harg5 arg6 harg6 hc0 hc1 x0 x1 x2 xs = k0_pay2 x0 x1 xs x2 := by
  unfold outLast
  rw [View.read_writes_eq_canon _ _ _ (outLast_cover c i arg2 harg2 arg3 harg3 arg4 harg4 arg5 harg5 arg6 harg6 hc0 hc1 x0 x1 x2 xs)]
  unfold runLast
  dsimp only
  sl_unfold_words
  rw [View.canon_unit_zero hz, View.readCov_unit_zero (S := S1024x1) _ hz]
  simp only [View.readAt_eq_ld, harg2.read_unread, harg3.read_unread, harg4.read_unread, harg6.read_unread,
    View.ld_unit_zero (S := S1024x1) hz, View.ld_unit_zero (S := S1x2048) hz]

section
variable (V : (c : Dev nD) → (b : Ref sig .tc) → Buf (Elt F) ((c : Thread nD τ).loc b))

/-- The scratch column after each point, in closed form: the body's term of the point's blocks over the column before —
    the zero column where a row tile starts. -/
def colAt (c : Dev nD) : (n : ℕ) → n < cfg0.N → Vec F S1024x1 .f32
  | 0, h => k0_pay2 (blk V c 0 ⟨0, h⟩) (blk V c 1 ⟨0, h⟩) (k0_pay1 (F := F)) (blk V c 2 ⟨0, h⟩)
  | n + 1, h => k0_pay2 (blk V c 0 ⟨n + 1, h⟩) (blk V c 1 ⟨n + 1, h⟩)
      (if (n + 1) % 32 = 0 then k0_pay1 (F := F) else colAt c n (Nat.lt_of_succ_lt h)) (blk V c 2 ⟨n + 1, h⟩)

theorem colAt_succ (c : Dev nD) (n : ℕ) (h : n + 1 < cfg0.N) :
    colAt V c (n + 1) h = k0_pay2 (blk V c 0 ⟨n + 1, h⟩) (blk V c 1 ⟨n + 1, h⟩)
      (if (n + 1) % 32 = 0 then k0_pay1 (F := F) else colAt V c n (Nat.lt_of_succ_lt h)) (blk V c 2 ⟨n + 1, h⟩) := rfl

theorem colAt_zero (c : Dev nD) (h : 0 < cfg0.N) :
    colAt V c 0 h = k0_pay2 (blk V c 0 ⟨0, h⟩) (blk V c 1 ⟨0, h⟩) (k0_pay1 (F := F)) (blk V c 2 ⟨0, h⟩) := rfl

theorem stateAt_acc (c : Dev nD) : ∀ (n : ℕ) (h : n < cfg0.N), (stateAt V c n h).2 = colAt V c n h
  | 0, h => by
    rw [colAt_zero, stateAt_first V c ⟨0, h⟩ (Nat.zero_mod _) (by simp)]
    dsimp only
    exact accFirst_eq (F := F) c (grid0.coords ⟨0, h⟩) (mr0 ⟨0, h⟩) (hmr0 ⟨0, h⟩) (mr1 ⟨0, h⟩) (hmr1 ⟨0, h⟩) (mr2 ⟨0, h⟩) (hmr2 ⟨0, h⟩) (mr3 ⟨0, h⟩) (hmr3 ⟨0, h⟩) acc (Memref.isWhole_whole _) _ _ (blk V c 0 ⟨0, h⟩) (blk V c 1 ⟨0, h⟩) (blk V c 2 ⟨0, h⟩)
  | n + 1, h => by
    have hN : cfg0.N = 64 := N_0
    rw [colAt_succ]
    by_cases h0 : (n + 1) % 32 = 0
    · have h1 : ¬(n + 1) % 32 = 31 := by omega
      rw [stateAt_first V c ⟨n + 1, h⟩ h0 h1, if_pos h0]
      dsimp only
      exact accFirst_eq (F := F) c (grid0.coords ⟨n + 1, h⟩) (mr0 ⟨n + 1, h⟩) (hmr0 ⟨n + 1, h⟩) (mr1 ⟨n + 1, h⟩) (hmr1 ⟨n + 1, h⟩) (mr2 ⟨n + 1, h⟩) (hmr2 ⟨n + 1, h⟩) (mr3 ⟨n + 1, h⟩) (hmr3 ⟨n + 1, h⟩) acc (Memref.isWhole_whole _) _ _ (blk V c 0 ⟨n + 1, h⟩) (blk V c 1 ⟨n + 1, h⟩) (blk V c 2 ⟨n + 1, h⟩)
    · rw [if_neg h0, ← stateAt_acc c n (Nat.lt_of_succ_lt h)]
      by_cases h1 : (n + 1) % 32 = 31
      · rw [stateAt_last V c ⟨n + 1, h⟩ h0 h1]
        dsimp only
        exact accLast_eq (F := F) c (grid0.coords ⟨n + 1, h⟩) (mr0 ⟨n + 1, h⟩) (hmr0 ⟨n + 1, h⟩) (mr1 ⟨n + 1, h⟩) (hmr1 ⟨n + 1, h⟩) (mr2 ⟨n + 1, h⟩) (hmr2 ⟨n + 1, h⟩) (mr3 ⟨n + 1, h⟩) (hmr3 ⟨n + 1, h⟩) acc (Memref.isWhole_whole _) _ _ (blk V c 0 ⟨n + 1, h⟩) (blk V c 1 ⟨n + 1, h⟩) (blk V c 2 ⟨n + 1, h⟩) (stateAt V c n (Nat.lt_of_succ_lt h)).2
      · rw [stateAt_middle V c ⟨n + 1, h⟩ h0 h1]
        dsimp only
        exact accMiddle_eq (F := F) c (grid0.coords ⟨n + 1, h⟩) (mr0 ⟨n + 1, h⟩) (hmr0 ⟨n + 1, h⟩) (mr1 ⟨n + 1, h⟩) (hmr1 ⟨n + 1, h⟩) (mr2 ⟨n + 1, h⟩) (hmr2 ⟨n + 1, h⟩) (mr3 ⟨n + 1, h⟩) (hmr3 ⟨n + 1, h⟩) acc (Memref.isWhole_whole _) _ _ (blk V c 0 ⟨n + 1, h⟩) (blk V c 1 ⟨n + 1, h⟩) (blk V c 2 ⟨n + 1, h⟩) (stateAt V c n (Nat.lt_of_succ_lt h)).2

/-- At a last column tile the output column's staging buffer holds the scratch column's new contents. -/
theorem stateAt_out (c : Dev nD) (t : Fin cfg0.N) (h1 : t.val % 32 = 31) :
    (stateAt V c t.val t.isLt).1 = colAt V c t.val t.isLt := by
  have h0 : ¬t.val % 32 = 0 := by omega
  rw [← stateAt_acc V c t.val t.isLt, stateAt_last V c t h0 h1]
  dsimp only
  exact (outLast_eq (F := F) c (grid0.coords t) (mr0 t) (hmr0 t) (mr1 t) (hmr1 t) (mr2 t) (hmr2 t) (mr3 t) (hmr3 t) acc (Memref.isWhole_whole _) _ _ (blk V c 0 t) (blk V c 1 t) (blk V c 2 t) (stateAt V c (t.val - 1) (Nat.lt_of_le_of_lt (Nat.sub_le _ _) t.isLt)).2).trans (accLast_eq (F := F) c (grid0.coords t) (mr0 t) (hmr0 t) (mr1 t) (hmr1 t) (mr2 t) (hmr2 t) (mr3 t) (hmr3 t) acc (Memref.isWhole_whole _) _ _ (blk V c 0 t) (blk V c 1 t) (blk V c 2 t) (stateAt V c (t.val - 1) (Nat.lt_of_le_of_lt (Nat.sub_le _ _) t.isLt)).2).symm

end

end Cert.KernelIdeal.Den

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.Terms.lean ====
/-
  The kernels' arithmetic terms read at an index, at the exact values.

  With `idx`, `m`, `l` columns of a row tile, `s` a strip of the score row and `v` a tile of values:
  * the denominator kernel adds to the scratch column, at row `r`, the strip's sum of `exp (idx r * s k - m r)`;
  * the attention kernel's score tile is `idx r * s k` at `(r, k)`, its weight tile `exp (idx r * s k - m r) / l r`, and it adds
    to the scratch column, at row `r`, the strip's sum of weights times values;
  * the column either kernel starts a row tile from is zero.
-/
import proofs.«143615_j12283606468146_2_alg».proof.Proof.Gen.KernelIdeal.Skeleton
import proofs.«143615_j12283606468146_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Terms

open Idealize.ShloMosaic Idealize.ShloMosaic.ValueIdx Cert.KernelIdeal Cert.KernelIdeal.Gen Cert.LibLayout

/-- The denominator kernel's accumulation term. -/
theorem den_add (x0 : Vec Ideal S1024x1 .f32) (x1 : Vec Ideal S1x2048 .f32) (xs x2 : Vec Ideal S1024x1 .f32) (r : Fin 1024) (u : Fin 1) :
    k0_pay2 (F := Ideal) x0 x1 xs x2 (ix2 r u) = xs (ix2 r u) + ∑ k : Fin 2048, Ideal.exp (x0 (ix2 r (0 : Fin 1)) * x1 (ix2 (0 : Fin 1) k) - x2 (ix2 r (0 : Fin 1))) := by
  unfold k0_pay2
  simp only [shapeCast_self]
  refine (addf_apply _ _ _).trans (congrArg (xs (ix2 r u) + ·) ?_)
  refine (shapeCast_a_a1_apply _ shapeCasts_S1024_S1024x1 r u).trans ?_
  refine (laneSum_apply _ reduces_S1024x2048_S1024 _ _ r).trans ?_
  refine Finset.sum_congr rfl fun k _ => ?_
  show Ideal.exp (broadcastTo S1024x2048 x0 broadcasts_S1024x1_S1024x2048 (ix2 r k) * broadcastTo S1024x2048 x1 broadcasts_S1x2048_S1024x2048 (ix2 r k)
    - broadcastTo S1024x2048 x2 broadcasts_S1024x1_S1024x2048 (ix2 r k)) = _
  rw [broadcastTo_a1_ab_apply, broadcastTo_1b_ab_apply, broadcastTo_a1_ab_apply]

/-- The column the denominator kernel starts a row tile from. -/
theorem den_zero (r : Fin 1024) (u : Fin 1) : k0_pay1 (F := Ideal) (ix2 r u) = 0 := by
  unfold k0_pay1
  simp only [shapeCast_self]
  exact Ideal.ofBits_zero_f32

/-- The attention kernel's score tile. -/
theorem att_score (x0 : Vec Ideal S1024x1 .f32) (x1 : Vec Ideal S1x1024 .f32) (r k : Fin 1024) :
    k1_pay2 (F := Ideal) x0 x1 (ix2 r k) = x0 (ix2 r (0 : Fin 1)) * x1 (ix2 (0 : Fin 1) k) := by
  unfold k1_pay2
  simp only [shapeCast_self]
  show broadcastTo S1024x1024 x0 broadcasts_S1024x1_S1024x1024 (ix2 r k) * broadcastTo S1024x1024 x1 broadcasts_S1x1024_S1024x1024 (ix2 r k) = _
  rw [broadcastTo_a1_ab_apply, broadcastTo_1b_ab_apply]

/-- The attention kernel's weight tile. -/
theorem att_weight (x0 : Vec Ideal S1024x1 .f32) (x1 : Vec Ideal S1x1024 .f32) (x2 x3 : Vec Ideal S1024x1 .f32) (r k : Fin 1024) :
    k1_pay3 (F := Ideal) x0 x1 x2 x3 (ix2 r k)
      = Ideal.div (Ideal.exp (x0 (ix2 r (0 : Fin 1)) * x1 (ix2 (0 : Fin 1) k) - x2 (ix2 r (0 : Fin 1)))) (x3 (ix2 r (0 : Fin 1))) := by
  unfold k1_pay3
  simp only [shapeCast_self]
  show Ideal.div (Ideal.exp (k1_pay2 x0 x1 (ix2 r k) - broadcastTo S1024x1024 x2 broadcasts_S1024x1_S1024x1024 (ix2 r k)))
    (broadcastTo S1024x1024 x3 broadcasts_S1024x1_S1024x1024 (ix2 r k)) = _
  rw [att_score, broadcastTo_a1_ab_apply, broadcastTo_a1_ab_apply]

/-- The attention kernel's accumulation term. -/
theorem att_add (x0 : Vec Ideal S1024x1 .f32) (x1 : Vec Ideal S1x1024 .f32) (x2 x3 : Vec Ideal S1024x1 .f32) (x4 : Vec Ideal S1024x1024 .f32)
    (xs : Vec Ideal S1024x1 .f32) (r : Fin 1024) (u : Fin 1) :
    k1_pay4 (F := Ideal) x0 x1 x2 x3 x4 xs (ix2 r u) = xs (ix2 r u) + ∑ k : Fin 1024,
      Ideal.div (Ideal.exp (x0 (ix2 r (0 : Fin 1)) * x1 (ix2 (0 : Fin 1) k) - x2 (ix2 r (0 : Fin 1)))) (x3 (ix2 r (0 : Fin 1))) * x4 (ix2 r k) := by
  unfold k1_pay4
  simp only [shapeCast_self]
  refine (addf_apply _ _ _).trans (congrArg (xs (ix2 r u) + ·) ?_)
  refine (shapeCast_a_a1_apply _ shapeCasts_S1024_S1024x1 r u).trans ?_
  refine (laneSum_apply _ reduces_S1024x1024_S1024 _ _ r).trans ?_
  refine Finset.sum_congr rfl fun k _ => ?_
  show k1_pay3 x0 x1 x2 x3 (ix2 r k) * x4 (ix2 r k) = _
  rw [att_weight]

/-- The column the attention kernel starts a row tile from. -/
theorem att_zero (r : Fin 1024) (u : Fin 1) : k1_pay1 (F := Ideal) (ix2 r u) = 0 := by
  unfold k1_pay1
  simp only [shapeCast_self]
  exact Ideal.ofBits_zero_f32

end Cert.KernelIdeal.Terms

end
-- ==== Proof.DenArray.lean ====
/-
  The denominator kernel's result array, at the exact values, as one function of the arrays the kernel is handed.

  With `scale`, `shift` the two columns and `row` the score row as the region finds them, the term at row `R` and position `n`
  is `exp (scale R * row n - shift R)`. A point of the grid is a row tile `t / 32` and a column tile `t % 32`; its blocks are
  rows `1024 * (t / 32) + r` and positions `2048 * (t % 32) + k`. By induction over the points of a row tile the scratch
  column holds, after column tile `j`, the sums of the terms over the tiles `0 … j`; the last tile's column is written
  back, and the row tiles' blocks cover the result column: so entry `R` of the result is the sum of the terms over all
  65536 positions.
-/
import proofs.«143615_j12283606468146_2_alg».proof.Proof.DenValue
import proofs.«143615_j12283606468146_2_alg».proof.Proof.Terms
import proofs.«143615_j12283606468146_2_alg».proof.Proof.Arith

set_option maxRecDepth 16384

noncomputable section

namespace Cert.KernelIdeal.Den

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Terms

variable (V : (c : Dev nD) → (b : Ref sig .tc) → Buf (Elt Ideal) ((c : Thread nD τ).loc b)) (c : Dev nD)

/-- The scale column, the score row and the shift column as the region finds them, read at plain positions. -/
def scaleN (R : ℕ) : EReal := if h : R < 2048 then (V c main_arg1 : S2048x1.Idx → EReal) (ix2 (⟨R, h⟩ : Fin 2048) (0 : Fin 1)) else 0
def rowN (n : ℕ) : EReal := if h : n < 65536 then (V c main_v3 : S1x65536.Idx → EReal) (ix2 (0 : Fin 1) (⟨n, h⟩ : Fin 65536)) else 0
def shiftN (R : ℕ) : EReal := if h : R < 2048 then (V c main_v12 : S2048x1.Idx → EReal) (ix2 (⟨R, h⟩ : Fin 2048) (0 : Fin 1)) else 0
/-- The term the kernel sums. -/
def term (R n : ℕ) : EReal := Ideal.exp (scaleN V c R * rowN V c n - shiftN V c R)

/-- The printed index maps, decided over the grid: row tile `t / 32`, column tile `t % 32`. -/
theorem idx_facts : ∀ t : Fin cfg0.N,
    win0_0.index t (0 : Fin 2) = t.val / 32 ∧ win0_0.index t (1 : Fin 2) = 0
    ∧ win0_1.index t (0 : Fin 2) = 0 ∧ win0_1.index t (1 : Fin 2) = t.val % 32
    ∧ win0_2.index t (0 : Fin 2) = t.val / 32 ∧ win0_2.index t (1 : Fin 2) = 0
    ∧ win0_3.index t (0 : Fin 2) = t.val / 32 ∧ win0_3.index t (1 : Fin 2) = 0 :=
  (by decide +kernel : ∀ t : Fin grid0.N, _)

theorem blk0_apply (t : Fin cfg0.N) (r : Fin 1024) (u : Fin 1) :
    (blk V c 0 t : S1024x1.Idx → EReal) (ix2 r u) = scaleN V c (1024 * (t.val / 32) + r.val) := by
  have h64 : t.val < 64 := lt_of_lt_of_eq t.isLt (show cfg0.N = 64 from N_0)
  have hb : 1024 * (t.val / 32) + r.val < 2048 := by have := r.isLt; omega
  obtain ⟨e0, e1, -⟩ := idx_facts t
  unfold scaleN blk
  rw [dif_pos hb, View.read_apply]
  show V c main_arg1 (((cfg0.win 0).blk t).view.emb (ix2 r u)) = V c main_arg1 _
  refine congrArg (V c main_arg1) ?_
  funext a; apply Fin.ext
  match a with
  | ⟨0, _⟩ => show win0_0.index t (0 : Fin 2) * 1024 + 1 * r.val = 1024 * (t.val / 32) + r.val; rw [e0]; omega
  | ⟨1, _⟩ => show win0_0.index t (1 : Fin 2) * 1 + 1 * u.val = 0; rw [e1]; have := u.isLt; omega

theorem blk1_apply (t : Fin cfg0.N) (u : Fin 1) (k : Fin 2048) :
    (blk V c 1 t : S1x2048.Idx → EReal) (ix2 u k) = rowN V c (2048 * (t.val % 32) + k.val) := by
  have h64 : t.val < 64 := lt_of_lt_of_eq t.isLt (show cfg0.N = 64 from N_0)
  have hb : 2048 * (t.val % 32) + k.val < 65536 := by have := k.isLt; omega
  obtain ⟨-, -, e0, e1, -⟩ := idx_facts t
  unfold rowN blk
  rw [dif_pos hb, View.read_apply]
  show V c main_v3 (((cfg0.win 1).blk t).view.emb (ix2 u k)) = V c main_v3 _
  refine congrArg (V c main_v3) ?_
  funext a; apply Fin.ext
  match a with
  | ⟨0, _⟩ => show win0_1.index t (0 : Fin 2) * 1 + 1 * u.val = 0; rw [e0]; have := u.isLt; omega
  | ⟨1, _⟩ => show win0_1.index t (1 : Fin 2) * 2048 + 1 * k.val = 2048 * (t.val % 32) + k.val; rw [e1]; omega

theorem blk2_apply (t : Fin cfg0.N) (r : Fin 1024) (u : Fin 1) :
    (blk V c 2 t : S1024x1.Idx → EReal) (ix2 r u) = shiftN V c (1024 * (t.val / 32) + r.val) := by
  have h64 : t.val < 64 := lt_of_lt_of_eq t.isLt (show cfg0.N = 64 from N_0)
  have hb : 1024 * (t.val / 32) + r.val < 2048 := by have := r.isLt; omega
  obtain ⟨-, -, -, -, e0, e1, -⟩ := idx_facts t
  unfold shiftN blk
  rw [dif_pos hb, View.read_apply]
  show V c main_v12 (((cfg0.win 2).blk t).view.emb (ix2 r u)) = V c main_v12 _
  refine congrArg (V c main_v12) ?_
  funext a; apply Fin.ext
  match a with
  | ⟨0, _⟩ => show win0_2.index t (0 : Fin 2) * 1024 + 1 * r.val = 1024 * (t.val / 32) + r.val; rw [e0]; omega
  | ⟨1, _⟩ => show win0_2.index t (1 : Fin 2) * 1 + 1 * u.val = 0; rw [e1]; have := u.isLt; omega

/-- What a point adds to the scratch column at row `r`: the terms over its column tile. -/
theorem added (t : Fin cfg0.N) (xs : Vec Ideal S1024x1 .f32) (r : Fin 1024) (u : Fin 1) :
    k0_pay2 (F := Ideal) (blk V c 0 t) (blk V c 1 t) xs (blk V c 2 t) (ix2 r u)
      = xs (ix2 r u) + ∑ k : Fin 2048, term V c (1024 * (t.val / 32) + r.val) (2048 * (t.val % 32) + k.val) := by
  rw [den_add]
  refine congrArg (xs (ix2 r u) + ·) (Finset.sum_congr rfl fun k _ => ?_)
  unfold term
  rw [blk0_apply V c t r 0, blk1_apply V c t 0 k, blk2_apply V c t r 0]

/-- THE RUNNING SUM: after the point at position `n` the scratch column holds, at row `r`, the terms over the column tiles
    `0 … n % 32` of the row tile `n / 32`. -/
theorem colAt_apply : ∀ (n : ℕ) (h : n < cfg0.N) (r : Fin 1024) (u : Fin 1),
    (colAt V c n h : S1024x1.Idx → EReal) (ix2 r u)
      = 0 + ∑ j ∈ Finset.range (n % 32 + 1), ∑ k : Fin 2048, term V c (1024 * (n / 32) + r.val) (2048 * j + k.val)
  | 0, h, r, u => by
    rw [colAt_zero]
    refine (added V c ⟨0, h⟩ _ r u).trans ?_
    rw [den_zero, Finset.sum_range_one]
    rfl
  | n + 1, h, r, u => by
    have h64 : n + 1 < 64 := lt_of_lt_of_eq h (show cfg0.N = 64 from N_0)
    rw [colAt_succ]
    refine (added V c ⟨n + 1, h⟩ _ r u).trans ?_
    show _ + ∑ k : Fin 2048, term V c (1024 * ((n + 1) / 32) + r.val) (2048 * ((n + 1) % 32) + k.val) = _
    by_cases h0 : (n + 1) % 32 = 0
    · rw [if_pos h0, den_zero, h0, Finset.sum_range_one]
    · rw [if_neg h0, colAt_apply n (Nat.lt_of_succ_lt h) r u,
        show (n + 1) % 32 + 1 = (n % 32 + 1) + 1 from by omega, Finset.sum_range_succ (n := n % 32 + 1),
        show (n + 1) / 32 = n / 32 from by omega, show (n + 1) % 32 = n % 32 + 1 from by omega, add_assoc]

/-- The result column as one function of the arrays the region finds. -/
def denom (i : S2048x1.Idx) : EReal :=
  0 + ∑ j ∈ Finset.range 32, ∑ k : Fin 2048, term V c (i 0).val (2048 * j + k.val)

/-- What a last column tile writes back is its block of that function. -/
theorem flushed_eq (t : Fin cfg0.N) (hf : (cfg0.win 3).flush t = true) :
    (dat V c).flushed 3 t = ((cfg0.win 3).blk t).view.read (Elt Ideal) (denom V c) := by
  have h31 : t.val % 32 = 31 := (flush0_3 t).mp hf
  obtain ⟨-, -, -, -, -, -, e0, e1⟩ := idx_facts t
  show (cfg0.win 3).cut (grid0.coords t) ((dat V c).after 3 t) = _
  rw [after3, stateAt_out V c t h31]
  funext y
  obtain ⟨r, u, rfl⟩ : ∃ (r : Fin 1024) (u : Fin 1), y = ix2 r u := ⟨y 0, y 1, eq_ix2 y⟩
  refine (colAt_apply V c t.val t.isLt r u).trans ?_
  rw [h31]
  show _ = denom V c (((cfg0.win 3).blk t).view.emb (ix2 r u))
  unfold denom
  have hrow : ((((cfg0.win 3).blk t).view.emb (ix2 r u)) 0).val = 1024 * (t.val / 32) + r.val := by
    show win0_3.index t (0 : Fin 2) * 1024 + 1 * r.val = _; rw [e0]; omega
  rw [hrow]

/-- Every row of the result column lies in the block some last column tile writes back. -/
theorem covered (i : S2048x1.Idx) : ∃ t : Fin cfg0.N, (cfg0.win 3).flush t = true ∧ i ∈ ((cfg0.win 3).blk t).view.set := by
  have hi0 : (i 0).val < 2048 := idx2_lt0 i
  have hi1 : (i 1).val < 1 := idx2_lt1 i
  have hN : cfg0.N = 64 := N_0
  let t : Fin cfg0.N := ⟨32 * ((i 0).val / 1024) + 31, by rw [hN]; omega⟩
  have ht : t.val = 32 * ((i 0).val / 1024) + 31 := rfl
  obtain ⟨-, -, -, -, -, -, e0, e1⟩ := idx_facts t
  refine ⟨t, (flush0_3 t).mpr (by rw [ht]; omega), ?_⟩
  show i ∈ ((View.whole main_v13).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1 ≤ (i 1).val ∧ (i 1).val < win0_3.index t (1 : Fin 2) * 1 + 1
    rw [e1]; omega

/-- THE RESULT ARRAY of the denominator kernel. -/
theorem final : (dat V c).arrAt 3 cfg0.N = denom V c :=
  (dat V c).arrAt_eq_of_cover 3 (denom V c) (flushed_eq V c) covered

/-- Entry `R` of the result: the sum of the terms over all positions. -/
theorem denom_eq (i : S2048x1.Idx) : denom V c i = ∑ n : Fin 65536, term V c (i 0).val n.val := by
  unfold denom
  rw [zero_add]
  exact Arith.sum_tiles 32 2048 (fun n => term V c (i 0).val n)

end Cert.KernelIdeal.Den

end
-- ==== Proof.AttValue.lean ====
/-
  The attention kernel's found pieces read back as values: whatever the control case, the tile of scores is the body's
  product term of the scale and score blocks, the tile of weights its quotient term of those, the shift and the
  denominator, and the scratch column after a point the row sums of weights times values added to the column's
  previous contents (the zero column at a first column tile); at a last column tile the output column is that column.
-/
import proofs.«143615_j12283606468146_2_alg».proof.Proof.AttFrame
import Idealize.ShloMosaic.Lib.Pipeline.Value

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem wFirst_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) :
    wFirst c i arg2 harg2 arg3 harg3 arg4 harg4 arg5 harg5 arg6 harg6 arg7 harg7 arg8 harg8 arg9 harg9 arg10 harg10 hc0 hc1 x0 x1 x2 x3 x4 = k1_pay3 x0 x1 x2 x3 := by
  unfold wFirst
  rw [View.read_writes_eq_canon _ _ _ (wFirst_cover c i arg2 harg2 arg3 harg3 arg4 harg4 arg5 harg5 arg6 harg6 arg7 harg7 arg8 harg8 arg9 harg9 arg10 harg10 hc0 hc1 x0 x1 x2 x3 x4)]
  unfold runFirst
  dsimp only
  sl_unfold_words
  rw [View.canon_unit_zero hz]
  simp only [View.readAt_eq_ld, harg2.read_unread, harg3.read_unread, harg4.read_unread, harg5.read_unread, harg6.read_unread,
    View.ld_unit_zero (S := S1024x1) hz, View.ld_unit_zero (S := S1x1024) hz, View.ld_unit_zero (S := S1024x1024) hz]

theorem sFirst_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) :
    sFirst c i arg2 harg2 arg3 harg3 arg4 harg4 arg5 harg5 arg6 harg6 arg7 harg7 arg8 harg8 arg9 harg9 arg10 harg10 hc0 hc1 x0 x1 x2 x3 x4 = k1_pay2 x0 x1 := by
  unfold sFirst
  rw [View.read_writes_eq_canon _ _ _ (sFirst_cover c i arg2 harg2 arg3 harg3 arg4 harg4 arg5 harg5 arg6 harg6 arg7 harg7 arg8 harg8 arg9 harg9 arg10 harg10 hc0 hc1 x0 x1 x2 x3 x4)]
  unfold runFirst
  dsimp only
  sl_unfold_words
  rw [View.canon_unit_zero hz]
  simp only [View.readAt_eq_ld, harg2.read_unread, harg3.read_unread, harg4.read_unread, harg5.read_unread, harg6.read_unread,
    View.ld_unit_zero (S := S1024x1) hz, View.ld_unit_zero (S := S1x1024) hz, View.ld_unit_zero (S := S1024x1024) hz]

theorem accFirst_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : isFirst i) (hc1 : ¬isLast i) (x0 : Vec F S1024x1 .f32) (x1 : Vec F S1x1024 .f32) (x2 : Vec F S1024x1 .f32) (x3 : Vec F S1024x1 .f32) (x4 : Vec F S1024x1024 .f32) :
    accFirst c i arg2 harg2 arg3 harg3 arg4 harg4 arg5 harg5 arg6 harg6 arg7 harg7 arg8 harg8 arg9 harg9 arg10 harg10 hc0 hc1 x0 x1 x2 x3 x4 = k1_pay4 x0 x1 x2 x3 x4 (k1_pay1 (F := F)) := by
  unfold accFirst
  rw [View.read_writes_eq_canon _ _ _ (accFirst_cover c i arg2 harg2 arg3 harg3 arg4 harg4 arg5 harg5 arg6 harg6 arg7 harg7 arg8 harg8 arg9 harg9 arg10 harg10 hc0 hc1 x0 x1 x2 x3 x4)]
  unfold runFirst
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread,
    View.ld_unit_zero (S := S1024x1) hz, View.ld_unit_zero (S := S1x1024) hz, View.ld_unit_zero (S := S1024x1024) hz]

theorem wMiddle_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) :
    wMiddle c i arg2 harg2 arg3 harg3 arg4 harg4 arg5 harg5 arg6 harg6 arg7 harg7 arg8 harg8 arg9 harg9 arg10 harg10 hc0 hc1 x0 x1 x2 x3 x4 xs = k1_pay3 x0 x1 x2 x3 := by
  unfold wMiddle
  rw [View.read_writes_eq_canon _ _ _ (wMiddle_cover c i arg2 harg2 arg3 harg3 arg4 harg4 arg5 harg5 arg6 harg6 arg7 harg7 arg8 harg8 arg9 harg9 arg10 harg10 hc0 hc1 x0 x1 x2 x3 x4 xs)]
  unfold runMiddle
  dsimp only
  sl_unfold_words
  rw [View.canon_unit_zero hz]
  simp only [View.readAt_eq_ld, harg2.read_unread, harg3.read_unread, harg4.read_unread, harg5.read_unread, harg6.read_unread, harg10.read_unread,
    View.ld_unit_zero (S := S1024x1) hz, View.ld_unit_zero (S := S1x1024) hz, View.ld_unit_zero (S := S1024x1024) hz]

theorem sMiddle_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) :
    sMiddle c i arg2 harg2 arg3 harg3 arg4 harg4 arg5 harg5 arg6 harg6 arg7 harg7 arg8 harg8 arg9 harg9 arg10 harg10 hc0 hc1 x0 x1 x2 x3 x4 xs = k1_pay2 x0 x1 := by
  unfold sMiddle
  rw [View.read_writes_eq_canon _ _ _ (sMiddle_cover c i arg2 harg2 arg3 harg3 arg4 harg4 arg5 harg5 arg6 harg6 arg7 harg7 arg8 harg8 arg9 harg9 arg10 harg10 hc0 hc1 x0 x1 x2 x3 x4 xs)]
  unfold runMiddle
  dsimp only
  sl_unfold_words
  rw [View.canon_unit_zero hz]
  simp only [View.readAt_eq_ld, harg2.read_unread, harg3.read_unread, harg4.read_unread, harg5.read_unread, harg6.read_unread, harg10.read_unread,
    View.ld_unit_zero (S := S1024x1) hz, View.ld_unit_zero (S := S1x1024) hz, View.ld_unit_zero (S := S1024x1024) hz]

theorem accMiddle_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : ¬isLast i) (x0 : Vec F S1024x1 .f32) (x1 : Vec F S1x1024 .f32) (x2 : Vec F S1024x1 .f32) (x3 : Vec F S1024x1 .f32) (x4 : Vec F S1024x1024 .f32) (xs : Vec F S1024x1 .f32) :
    accMiddle c i arg2 harg2 arg3 harg3 arg4 harg4 arg5 harg5 arg6 harg6 arg7 harg7 arg8 harg8 arg9 harg9 arg10 harg10 hc0 hc1 x0 x1 x2 x3 x4 xs = k1_pay4 x0 x1 x2 x3 x4 xs := by
  unfold accMiddle
  rw [View.read_writes_eq_canon _ _ _ (accMiddle_cover c i arg2 harg2 arg3 harg3 arg4 harg4 arg5 harg5 arg6 harg6 arg7 harg7 arg8 harg8 arg9 harg9 arg10 harg10 hc0 hc1 x0 x1 x2 x3 x4 xs)]
  unfold runMiddle
  dsimp only
  sl_unfold_words
  rw [View.canon_unit_zero hz]
  simp only [View.readAt_eq_ld, harg2.read_unread, harg3.read_unread, harg4.read_unread, harg5.read_unread, harg6.read_unread, harg10.read_unread,
    View.ld_unit_zero (S := S1024x1) hz, View.ld_unit_zero (S := S1x1024) hz, View.ld_unit_zero (S := S1024x1024) hz]

theorem wLast_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) :
    wLast c i arg2 harg2 arg3 harg3 arg4 harg4 arg5 harg5 arg6 harg6 arg7 harg7 arg8 harg8 arg9 harg9 arg10 harg10 hc0 hc1 x0 x1 x2 x3 x4 xs = k1_pay3 x0 x1 x2 x3 := by
  unfold wLast
  rw [View.read_writes_eq_canon _ _ _ (wLast_cover c i arg2 harg2 arg3 harg3 arg4 harg4 arg5 harg5 arg6 harg6 arg7 harg7 arg8 harg8 arg9 harg9 arg10 harg10 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg10.read_unread,
    View.ld_unit_zero (S := S1024x1) hz, View.ld_unit_zero (S := S1x1024) hz, View.ld_unit_zero (S := S1024x1024) hz]

theorem sLast_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) :
    sLast c i arg2 harg2 arg3 harg3 arg4 harg4 arg5 harg5 arg6 harg6 arg7 harg7 arg8 harg8 arg9 harg9 arg10 harg10 hc0 hc1 x0 x1 x2 x3 x4 xs = k1_pay2 x0 x1 := by
  unfold sLast
  rw [View.read_writes_eq_canon _ _ _ (sLast_cover c i arg2 harg2 arg3 harg3 arg4 harg4 arg5 harg5 arg6 harg6 arg7 harg7 arg8 harg8 arg9 harg9 arg10 harg10 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg10.read_unread,
    View.ld_unit_zero (S := S1024x1) hz, View.ld_unit_zero (S := S1x1024) hz, View.ld_unit_zero (S := S1024x1024) hz]

theorem accLast_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) :
    accLast c i arg2 harg2 arg3 harg3 arg4 harg4 arg5 harg5 arg6 harg6 arg7 harg7 arg8 harg8 arg9 harg9 arg10 harg10 hc0 hc1 x0 x1 x2 x3 x4 xs = k1_pay4 x0 x1 x2 x3 x4 xs := by
  unfold accLast
  rw [View.read_writes_eq_canon _ _ _ (accLast_cover c i arg2 harg2 arg3 harg3 arg4 harg4 arg5 harg5 arg6 harg6 arg7 harg7 arg8 harg8 arg9 harg9 arg10 harg10 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg10.read_unread,
    View.ld_unit_zero (S := S1024x1) hz, View.ld_unit_zero (S := S1x1024) hz, View.ld_unit_zero (S := S1024x1024) hz]

theorem outLast_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (hc0 : ¬isFirst i) (hc1 : isLast i) (x0 : Vec F S1024x1 .f32) (x1 : Vec F S1x1024 .f32) (x2 : Vec F S1024x1 .f32) (x3 : Vec F S1024x1 .f32) (x4 : Vec F S1024x1024 .f32) (xs : Vec F S1024x1 .f32) :
    outLast c i arg2 harg2 arg3 harg3 arg4 harg4 arg5 harg5 arg6 harg6 arg7 harg7 arg8 harg8 arg9 harg9 arg10 harg10 hc0 hc1 x0 x1 x2 x3 x4 xs = k1_pay4 x0 x1 x2 x3 x4 xs := by
  unfold outLast
  rw [View.read_writes_eq_canon _ _ _ (outLast_cover c i arg2 harg2 arg3 harg3 arg4 harg4 arg5 harg5 arg6 harg6 arg7 harg7 arg8 harg8 arg9 harg9 arg10 harg10 hc0 hc1 x0 x1 x2 x3 x4 xs)]
  unfold runLast
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg10.read_unread,
    View.ld_unit_zero (S := S1024x1) hz, View.ld_unit_zero (S := S1x1024) hz, View.ld_unit_zero (S := S1024x1024) hz]

section
variable (V : (c : Dev nD) → (b : Ref sig .tc) → Buf (Elt F) ((c : Thread nD τ).loc b))

/-- The scratch column after each point, in closed form. -/
def colAt (c : Dev nD) : (n : ℕ) → n < cfg1.N → Vec F S1024x1 .f32
  | 0, h => k1_pay4 (blk V c 0 ⟨0, h⟩) (blk V c 1 ⟨0, h⟩) (blk V c 2 ⟨0, h⟩) (blk V c 3 ⟨0, h⟩) (blk V c 4 ⟨0, h⟩) (k1_pay1 (F := F))
  | n + 1, h => k1_pay4 (blk V c 0 ⟨n + 1, h⟩) (blk V c 1 ⟨n + 1, h⟩) (blk V c 2 ⟨n + 1, h⟩) (blk V c 3 ⟨n + 1, h⟩) (blk V c 4 ⟨n + 1, h⟩)
      (if (n + 1) % 64 = 0 then k1_pay1 (F := F) else colAt c n (Nat.lt_of_succ_lt h))

theorem colAt_succ (c : Dev nD) (n : ℕ) (h : n + 1 < cfg1.N) :
    colAt V c (n + 1) h = k1_pay4 (blk V c 0 ⟨n + 1, h⟩) (blk V c 1 ⟨n + 1, h⟩) (blk V c 2 ⟨n + 1, h⟩) (blk V c 3 ⟨n + 1, h⟩) (blk V c 4 ⟨n + 1, h⟩)
      (if (n + 1) % 64 = 0 then k1_pay1 (F := F) else colAt V c n (Nat.lt_of_succ_lt h)) := rfl

theorem colAt_zero (c : Dev nD) (h : 0 < cfg1.N) :
    colAt V c 0 h = k1_pay4 (blk V c 0 ⟨0, h⟩) (blk V c 1 ⟨0, h⟩) (blk V c 2 ⟨0, h⟩) (blk V c 3 ⟨0, h⟩) (blk V c 4 ⟨0, h⟩) (k1_pay1 (F := F)) := rfl

theorem stateAt_acc (c : Dev nD) : ∀ (n : ℕ) (h : n < cfg1.N), (stateAt V c n h).2.2.2 = colAt V c n h
  | 0, h => by
    rw [colAt_zero, stateAt_first V c ⟨0, h⟩ (Nat.zero_mod _) (by simp)]
    dsimp only
    exact accFirst_eq (F := F) c (grid1.coords ⟨0, h⟩) (mr0 ⟨0, h⟩) (hmr0 ⟨0, h⟩) (mr1 ⟨0, h⟩) (hmr1 ⟨0, h⟩) (mr2 ⟨0, h⟩) (hmr2 ⟨0, h⟩) (mr3 ⟨0, h⟩) (hmr3 ⟨0, h⟩) (mr4 ⟨0, h⟩) (hmr4 ⟨0, h⟩) (mr5 ⟨0, h⟩) (hmr5 ⟨0, h⟩) (mr6 ⟨0, h⟩) (hmr6 ⟨0, h⟩) (mr7 ⟨0, h⟩) (hmr7 ⟨0, h⟩) acc (Memref.isWhole_whole _) _ _ (blk V c 0 ⟨0, h⟩) (blk V c 1 ⟨0, h⟩) (blk V c 2 ⟨0, h⟩) (blk V c 3 ⟨0, h⟩) (blk V c 4 ⟨0, h⟩)
  | n + 1, h => by
    have hN : cfg1.N = 128 := N_1
    rw [colAt_succ]
    by_cases h0 : (n + 1) % 64 = 0
    · have h1 : ¬(n + 1) % 64 = 63 := by omega
      rw [stateAt_first V c ⟨n + 1, h⟩ h0 h1, if_pos h0]
      dsimp only
      exact accFirst_eq (F := F) c (grid1.coords ⟨n + 1, h⟩) (mr0 ⟨n + 1, h⟩) (hmr0 ⟨n + 1, h⟩) (mr1 ⟨n + 1, h⟩) (hmr1 ⟨n + 1, h⟩) (mr2 ⟨n + 1, h⟩) (hmr2 ⟨n + 1, h⟩) (mr3 ⟨n + 1, h⟩) (hmr3 ⟨n + 1, h⟩) (mr4 ⟨n + 1, h⟩) (hmr4 ⟨n + 1, h⟩) (mr5 ⟨n + 1, h⟩) (hmr5 ⟨n + 1, h⟩) (mr6 ⟨n + 1, h⟩) (hmr6 ⟨n + 1, h⟩) (mr7 ⟨n + 1, h⟩) (hmr7 ⟨n + 1, h⟩) acc (Memref.isWhole_whole _) _ _ (blk V c 0 ⟨n + 1, h⟩) (blk V c 1 ⟨n + 1, h⟩) (blk V c 2 ⟨n + 1, h⟩) (blk V c 3 ⟨n + 1, h⟩) (blk V c 4 ⟨n + 1, h⟩)
    · rw [if_neg h0, ← stateAt_acc c n (Nat.lt_of_succ_lt h)]
      by_cases h1 : (n + 1) % 64 = 63
      · rw [stateAt_last V c ⟨n + 1, h⟩ h0 h1]
        dsimp only
        exact accLast_eq (F := F) c (grid1.coords ⟨n + 1, h⟩) (mr0 ⟨n + 1, h⟩) (hmr0 ⟨n + 1, h⟩) (mr1 ⟨n + 1, h⟩) (hmr1 ⟨n + 1, h⟩) (mr2 ⟨n + 1, h⟩) (hmr2 ⟨n + 1, h⟩) (mr3 ⟨n + 1, h⟩) (hmr3 ⟨n + 1, h⟩) (mr4 ⟨n + 1, h⟩) (hmr4 ⟨n + 1, h⟩) (mr5 ⟨n + 1, h⟩) (hmr5 ⟨n + 1, h⟩) (mr6 ⟨n + 1, h⟩) (hmr6 ⟨n + 1, h⟩) (mr7 ⟨n + 1, h⟩) (hmr7 ⟨n + 1, h⟩) acc (Memref.isWhole_whole _) _ _ (blk V c 0 ⟨n + 1, h⟩) (blk V c 1 ⟨n + 1, h⟩) (blk V c 2 ⟨n + 1, h⟩) (blk V c 3 ⟨n + 1, h⟩) (blk V c 4 ⟨n + 1, h⟩) (stateAt V c n (Nat.lt_of_succ_lt h)).2.2.2
      · rw [stateAt_middle V c ⟨n + 1, h⟩ h0 h1]
        dsimp only
        exact accMiddle_eq (F := F) c (grid1.coords ⟨n + 1, h⟩) (mr0 ⟨n + 1, h⟩) (hmr0 ⟨n + 1, h⟩) (mr1 ⟨n + 1, h⟩) (hmr1 ⟨n + 1, h⟩) (mr2 ⟨n + 1, h⟩) (hmr2 ⟨n + 1, h⟩) (mr3 ⟨n + 1, h⟩) (hmr3 ⟨n + 1, h⟩) (mr4 ⟨n + 1, h⟩) (hmr4 ⟨n + 1, h⟩) (mr5 ⟨n + 1, h⟩) (hmr5 ⟨n + 1, h⟩) (mr6 ⟨n + 1, h⟩) (hmr6 ⟨n + 1, h⟩) (mr7 ⟨n + 1, h⟩) (hmr7 ⟨n + 1, h⟩) acc (Memref.isWhole_whole _) _ _ (blk V c 0 ⟨n + 1, h⟩) (blk V c 1 ⟨n + 1, h⟩) (blk V c 2 ⟨n + 1, h⟩) (blk V c 3 ⟨n + 1, h⟩) (blk V c 4 ⟨n + 1, h⟩) (stateAt V c n (Nat.lt_of_succ_lt h)).2.2.2

/-- The tile of weights after any point. -/
theorem stateAt_w (c : Dev nD) (t : Fin cfg1.N) :
    (stateAt V c t.val t.isLt).1 = k1_pay3 (blk V c 0 t) (blk V c 1 t) (blk V c 2 t) (blk V c 3 t) := by
  have hN : t.val < 128 := lt_of_lt_of_eq t.isLt (show cfg1.N = 128 from N_1)
  by_cases h0 : t.val % 64 = 0
  · have h1 : ¬t.val % 64 = 63 := by omega
    rw [stateAt_first V c t h0 h1]; dsimp only; exact wFirst_eq (F := F) c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) _ _ (blk V c 0 t) (blk V c 1 t) (blk V c 2 t) (blk V c 3 t) (blk V c 4 t)
  · by_cases h1 : t.val % 64 = 63
    · rw [stateAt_last V c t h0 h1]; dsimp only; exact wLast_eq (F := F) c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) _ _ (blk V c 0 t) (blk V c 1 t) (blk V c 2 t) (blk V c 3 t) (blk V c 4 t) (stateAt V c (t.val - 1) (Nat.lt_of_le_of_lt (Nat.sub_le _ _) t.isLt)).2.2.2
    · rw [stateAt_middle V c t h0 h1]; dsimp only; exact wMiddle_eq (F := F) c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) _ _ (blk V c 0 t) (blk V c 1 t) (blk V c 2 t) (blk V c 3 t) (blk V c 4 t) (stateAt V c (t.val - 1) (Nat.lt_of_le_of_lt (Nat.sub_le _ _) t.isLt)).2.2.2

/-- The tile of scores after any point. -/
theorem stateAt_s (c : Dev nD) (t : Fin cfg1.N) :
    (stateAt V c t.val t.isLt).2.1 = k1_pay2 (blk V c 0 t) (blk V c 1 t) := by
  have hN : t.val < 128 := lt_of_lt_of_eq t.isLt (show cfg1.N = 128 from N_1)
  by_cases h0 : t.val % 64 = 0
  · have h1 : ¬t.val % 64 = 63 := by omega
    rw [stateAt_first V c t h0 h1]; dsimp only; exact sFirst_eq (F := F) c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) _ _ (blk V c 0 t) (blk V c 1 t) (blk V c 2 t) (blk V c 3 t) (blk V c 4 t)
  · by_cases h1 : t.val % 64 = 63
    · rw [stateAt_last V c t h0 h1]; dsimp only; exact sLast_eq (F := F) c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) _ _ (blk V c 0 t) (blk V c 1 t) (blk V c 2 t) (blk V c 3 t) (blk V c 4 t) (stateAt V c (t.val - 1) (Nat.lt_of_le_of_lt (Nat.sub_le _ _) t.isLt)).2.2.2
    · rw [stateAt_middle V c t h0 h1]; dsimp only; exact sMiddle_eq (F := F) c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) _ _ (blk V c 0 t) (blk V c 1 t) (blk V c 2 t) (blk V c 3 t) (blk V c 4 t) (stateAt V c (t.val - 1) (Nat.lt_of_le_of_lt (Nat.sub_le _ _) t.isLt)).2.2.2

/-- At a last column tile the output column's staging buffer holds the scratch column's new contents. -/
theorem stateAt_out (c : Dev nD) (t : Fin cfg1.N) (h1 : t.val % 64 = 63) :
    (stateAt V c t.val t.isLt).2.2.1 = colAt V c t.val t.isLt := by
  have h0 : ¬t.val % 64 = 0 := by omega
  rw [← stateAt_acc V c t.val t.isLt, stateAt_last V c t h0 h1]
  dsimp only
  exact (outLast_eq (F := F) c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) _ _ (blk V c 0 t) (blk V c 1 t) (blk V c 2 t) (blk V c 3 t) (blk V c 4 t) (stateAt V c (t.val - 1) (Nat.lt_of_le_of_lt (Nat.sub_le _ _) t.isLt)).2.2.2).trans (accLast_eq (F := F) c (grid1.coords t) (mr0 t) (hmr0 t) (mr1 t) (hmr1 t) (mr2 t) (hmr2 t) (mr3 t) (hmr3 t) (mr4 t) (hmr4 t) (mr5 t) (hmr5 t) (mr6 t) (hmr6 t) (mr7 t) (hmr7 t) acc (Memref.isWhole_whole _) _ _ (blk V c 0 t) (blk V c 1 t) (blk V c 2 t) (blk V c 3 t) (blk V c 4 t) (stateAt V c (t.val - 1) (Nat.lt_of_le_of_lt (Nat.sub_le _ _) t.isLt)).2.2.2).symm

end

end Cert.KernelIdeal.Att

end
-- ==== Proof.AttArray.lean ====
/-
  The attention kernel's three result arrays, at the exact values, as functions of the arrays the kernel is handed.

  With `scale`, `shift`, `den` the three columns, `row` the score row and `val` the values as the region finds them: the
  score at `(R, n)` is `scale R * row n`, the weight `exp (scale R * row n - shift R) / den R`. A point of the grid is a row
  tile `t / 64` and a column tile `t % 64`; its blocks are rows `1024 * (t / 64) + r` and positions `1024 * (t % 64) + k`. Every
  point writes its tile of scores and of weights back, and the tiles cover both arrays. By induction over the points of a
  row tile the scratch column holds, after column tile `j`, the sums of weight times value over the tiles `0 … j`; the
  last tile's column is written back: entry `R` of the output column is the sum over all 65536 positions.
-/
import proofs.«143615_j12283606468146_2_alg».proof.Proof.AttValue
import proofs.«143615_j12283606468146_2_alg».proof.Proof.Terms
import proofs.«143615_j12283606468146_2_alg».proof.Proof.Arith

set_option maxRecDepth 16384

noncomputable section

namespace Cert.KernelIdeal.Att

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Terms

variable (V : (c : Dev nD) → (b : Ref sig .tc) → Buf (Elt Ideal) ((c : Thread nD τ).loc b)) (c : Dev nD)

def scaleN (R : ℕ) : EReal := if h : R < 2048 then (V c main_arg1 : S2048x1.Idx → EReal) (ix2 (⟨R, h⟩ : Fin 2048) (0 : Fin 1)) else 0
def rowN (n : ℕ) : EReal := if h : n < 65536 then (V c main_v3 : S1x65536.Idx → EReal) (ix2 (0 : Fin 1) (⟨n, h⟩ : Fin 65536)) else 0
def shiftN (R : ℕ) : EReal := if h : R < 2048 then (V c main_v12 : S2048x1.Idx → EReal) (ix2 (⟨R, h⟩ : Fin 2048) (0 : Fin 1)) else 0
def denN (R : ℕ) : EReal := if h : R < 2048 then (V c main_v13 : S2048x1.Idx → EReal) (ix2 (⟨R, h⟩ : Fin 2048) (0 : Fin 1)) else 0
def valN (R n : ℕ) : EReal := if h : R < 2048 ∧ n < 65536 then (V c main_arg0 : S2048x65536.Idx → EReal) (ix2 (⟨R, h.1⟩ : Fin 2048) (⟨n, h.2⟩ : Fin 65536)) else 0
/-- The score, the weight and the weighted value at row `R`, position `n`. -/
def score (R n : ℕ) : EReal := scaleN V c R * rowN V c n
def weight (R n : ℕ) : EReal := Ideal.div (Ideal.exp (scaleN V c R * rowN V c n - shiftN V c R)) (denN V c R)
def wval (R n : ℕ) : EReal := weight V c R n * valN V c R n

theorem idx_facts : ∀ t : Fin cfg1.N,
    win1_0.index t (0 : Fin 2) = t.val / 64 ∧ win1_0.index t (1 : Fin 2) = 0
    ∧ win1_1.index t (0 : Fin 2) = 0 ∧ win1_1.index t (1 : Fin 2) = t.val % 64
    ∧ win1_2.index t (0 : Fin 2) = t.val / 64 ∧ win1_2.index t (1 : Fin 2) = 0
    ∧ win1_3.index t (0 : Fin 2) = t.val / 64 ∧ win1_3.index t (1 : Fin 2) = 0
    ∧ win1_4.index t (0 : Fin 2) = t.val / 64 ∧ win1_4.index t (1 : Fin 2) = t.val % 64
    ∧ win1_5.index t (0 : Fin 2) = t.val / 64 ∧ win1_5.index t (1 : Fin 2) = t.val % 64
    ∧ win1_6.index t (0 : Fin 2) = t.val / 64 ∧ win1_6.index t (1 : Fin 2) = t.val % 64
    ∧ win1_7.index t (0 : Fin 2) = t.val / 64 ∧ win1_7.index t (1 : Fin 2) = 0 :=
  (by decide +kernel : ∀ t : Fin grid1.N, _)

theorem blk0_apply (t : Fin cfg1.N) (r : Fin 1024) (u : Fin 1) :
    (blk V c 0 t : S1024x1.Idx → EReal) (ix2 r u) = scaleN V c (1024 * (t.val / 64) + r.val) := by
  have h128 : t.val < 128 := lt_of_lt_of_eq t.isLt (show cfg1.N = 128 from N_1)
  have hb : 1024 * (t.val / 64) + r.val < 2048 := by have := r.isLt; omega
  obtain ⟨e0, e1, -⟩ := idx_facts t
  unfold scaleN blk
  rw [dif_pos hb, View.read_apply]
  show V c main_arg1 (((cfg1.win 0).blk t).view.emb (ix2 r u)) = V c main_arg1 _
  refine congrArg (V c main_arg1) ?_
  funext a; apply Fin.ext
  match a with
  | ⟨0, _⟩ => show win1_0.index t (0 : Fin 2) * 1024 + 1 * r.val = 1024 * (t.val / 64) + r.val; rw [e0]; omega
  | ⟨1, _⟩ => show win1_0.index t (1 : Fin 2) * 1 + 1 * u.val = 0; rw [e1]; have := u.isLt; omega

theorem blk2_apply (t : Fin cfg1.N) (r : Fin 1024) (u : Fin 1) :
    (blk V c 2 t : S1024x1.Idx → EReal) (ix2 r u) = shiftN V c (1024 * (t.val / 64) + r.val) := by
  have h128 : t.val < 128 := lt_of_lt_of_eq t.isLt (show cfg1.N = 128 from N_1)
  have hb : 1024 * (t.val / 64) + r.val < 2048 := by have := r.isLt; omega
  obtain ⟨-, -, -, -, e0, e1, -⟩ := idx_facts t
  unfold shiftN blk
  rw [dif_pos hb, View.read_apply]
  show V c main_v12 (((cfg1.win 2).blk t).view.emb (ix2 r u)) = V c main_v12 _
  refine congrArg (V c main_v12) ?_
  funext a; apply Fin.ext
  match a with
  | ⟨0, _⟩ => show win1_2.index t (0 : Fin 2) * 1024 + 1 * r.val = 1024 * (t.val / 64) + r.val; rw [e0]; omega
  | ⟨1, _⟩ => show win1_2.index t (1 : Fin 2) * 1 + 1 * u.val = 0; rw [e1]; have := u.isLt; omega

theorem blk3_apply (t : Fin cfg1.N) (r : Fin 1024) (u : Fin 1) :
    (blk V c 3 t : S1024x1.Idx → EReal) (ix2 r u) = denN V c (1024 * (t.val / 64) + r.val) := by
  have h128 : t.val < 128 := lt_of_lt_of_eq t.isLt (show cfg1.N = 128 from N_1)
  have hb : 1024 * (t.val / 64) + r.val < 2048 := by have := r.isLt; omega
  obtain ⟨-, -, -, -, -, -, e0, e1, -⟩ := idx_facts t
  unfold denN blk
  rw [dif_pos hb, View.read_apply]
  show V c main_v13 (((cfg1.win 3).blk t).view.emb (ix2 r u)) = V c main_v13 _
  refine congrArg (V c main_v13) ?_
  funext a; apply Fin.ext
  match a with
  | ⟨0, _⟩ => show win1_3.index t (0 : Fin 2) * 1024 + 1 * r.val = 1024 * (t.val / 64) + r.val; rw [e0]; omega
  | ⟨1, _⟩ => show win1_3.index t (1 : Fin 2) * 1 + 1 * u.val = 0; rw [e1]; have := u.isLt; omega

theorem blk1_apply (t : Fin cfg1.N) (u : Fin 1) (k : Fin 1024) :
    (blk V c 1 t : S1x1024.Idx → EReal) (ix2 u k) = rowN V c (1024 * (t.val % 64) + k.val) := by
  have h128 : t.val < 128 := lt_of_lt_of_eq t.isLt (show cfg1.N = 128 from N_1)
  have hb : 1024 * (t.val % 64) + k.val < 65536 := by have := k.isLt; omega
  obtain ⟨-, -, e0, e1, -⟩ := idx_facts t
  unfold rowN blk
  rw [dif_pos hb, View.read_apply]
  show V c main_v3 (((cfg1.win 1).blk t).view.emb (ix2 u k)) = V c main_v3 _
  refine congrArg (V c main_v3) ?_
  funext a; apply Fin.ext
  match a with
  | ⟨0, _⟩ => show win1_1.index t (0 : Fin 2) * 1 + 1 * u.val = 0; rw [e0]; have := u.isLt; omega
  | ⟨1, _⟩ => show win1_1.index t (1 : Fin 2) * 1024 + 1 * k.val = 1024 * (t.val % 64) + k.val; rw [e1]; omega

theorem blk4_apply (t : Fin cfg1.N) (r k : Fin 1024) :
    (blk V c 4 t : S1024x1024.Idx → EReal) (ix2 r k) = valN V c (1024 * (t.val / 64) + r.val) (1024 * (t.val % 64) + k.val) := by
  have h128 : t.val < 128 := lt_of_lt_of_eq t.isLt (show cfg1.N = 128 from N_1)
  have hb : 1024 * (t.val / 64) + r.val < 2048 ∧ 1024 * (t.val % 64) + k.val < 65536 := by have := r.isLt; have := k.isLt; omega
  obtain ⟨-, -, -, -, -, -, -, -, e0, e1, -⟩ := idx_facts t
  unfold valN blk
  rw [dif_pos hb, View.read_apply]
  show V c main_arg0 (((cfg1.win 4).blk t).view.emb (ix2 r k)) = V c main_arg0 _
  refine congrArg (V c main_arg0) ?_
  funext a; apply Fin.ext
  match a with
  | ⟨0, _⟩ => show win1_4.index t (0 : Fin 2) * 1024 + 1 * r.val = 1024 * (t.val / 64) + r.val; rw [e0]; omega
  | ⟨1, _⟩ => show win1_4.index t (1 : Fin 2) * 1024 + 1 * k.val = 1024 * (t.val % 64) + k.val; rw [e1]; omega

/-- A point's tile of scores, at `(r, k)`. -/
theorem score_tile (t : Fin cfg1.N) (r k : Fin 1024) :
    k1_pay2 (F := Ideal) (blk V c 0 t) (blk V c 1 t) (ix2 r k) = score V c (1024 * (t.val / 64) + r.val) (1024 * (t.val % 64) + k.val) := by
  rw [att_score]; unfold score
  rw [blk0_apply V c t r 0, blk1_apply V c t 0 k]

/-- A point's tile of weights, at `(r, k)`. -/
theorem weight_tile (t : Fin cfg1.N) (r k : Fin 1024) :
    k1_pay3 (F := Ideal) (blk V c 0 t) (blk V c 1 t) (blk V c 2 t) (blk V c 3 t) (ix2 r k)
      = weight V c (1024 * (t.val / 64) + r.val) (1024 * (t.val % 64) + k.val) := by
  rw [att_weight]; unfold weight
  rw [blk0_apply V c t r 0, blk1_apply V c t 0 k, blk2_apply V c t r 0, blk3_apply V c t r 0]

/-- What a point adds to the scratch column at row `r`. -/
theorem added (t : Fin cfg1.N) (xs : Vec Ideal S1024x1 .f32) (r : Fin 1024) (u : Fin 1) :
    k1_pay4 (F := Ideal) (blk V c 0 t) (blk V c 1 t) (blk V c 2 t) (blk V c 3 t) (blk V c 4 t) xs (ix2 r u)
      = xs (ix2 r u) + ∑ k : Fin 1024, wval V c (1024 * (t.val / 64) + r.val) (1024 * (t.val % 64) + k.val) := by
  rw [att_add]
  refine congrArg (xs (ix2 r u) + ·) (Finset.sum_congr rfl fun k _ => ?_)
  unfold wval weight
  rw [blk0_apply V c t r 0, blk1_apply V c t 0 k, blk2_apply V c t r 0, blk3_apply V c t r 0, blk4_apply V c t r k]

theorem colAt_apply : ∀ (n : ℕ) (h : n < cfg1.N) (r : Fin 1024) (u : Fin 1),
    (colAt V c n h : S1024x1.Idx → EReal) (ix2 r u)
      = 0 + ∑ j ∈ Finset.range (n % 64 + 1), ∑ k : Fin 1024, wval V c (1024 * (n / 64) + r.val) (1024 * j + k.val)
  | 0, h, r, u => by
    rw [colAt_zero]
    refine (added V c ⟨0, h⟩ _ r u).trans ?_
    rw [att_zero, Finset.sum_range_one]
    rfl
  | n + 1, h, r, u => by
    have h128 : n + 1 < 128 := lt_of_lt_of_eq h (show cfg1.N = 128 from N_1)
    rw [colAt_succ]
    refine (added V c ⟨n + 1, h⟩ _ r u).trans ?_
    show _ + ∑ k : Fin 1024, wval V c (1024 * ((n + 1) / 64) + r.val) (1024 * ((n + 1) % 64) + k.val) = _
    by_cases h0 : (n + 1) % 64 = 0
    · rw [if_pos h0, att_zero, h0, Finset.sum_range_one]
    · rw [if_neg h0, colAt_apply n (Nat.lt_of_succ_lt h) r u,
        show (n + 1) % 64 + 1 = (n % 64 + 1) + 1 from by omega, Finset.sum_range_succ (n := n % 64 + 1),
        show (n + 1) / 64 = n / 64 from by omega, show (n + 1) % 64 = n % 64 + 1 from by omega, add_assoc]

/-- The three result arrays as functions of the arrays the region finds. -/
def weights (i : S2048x65536.Idx) : EReal := weight V c (i 0).val (i 1).val
def scores (i : S2048x65536.Idx) : EReal := score V c (i 0).val (i 1).val
def outs (i : S2048x1.Idx) : EReal := 0 + ∑ j ∈ Finset.range 64, ∑ k : Fin 1024, wval V c (i 0).val (1024 * j + k.val)

theorem flushed5_eq (t : Fin cfg1.N) (hf : (cfg1.win 5).flush t = true) :
    (dat V c).flushed 5 t = ((cfg1.win 5).blk t).view.read (Elt Ideal) (weights V c) := by
  obtain ⟨-, -, -, -, -, -, -, -, -, -, e0, e1, -⟩ := idx_facts t
  show (cfg1.win 5).cut (grid1.coords t) ((dat V c).after 5 t) = _
  rw [after5, stateAt_w V c t]
  funext y
  obtain ⟨r, k, rfl⟩ : ∃ (r : Fin 1024) (k : Fin 1024), y = ix2 r k := ⟨y 0, y 1, eq_ix2 y⟩
  refine (weight_tile V c t r k).trans ?_
  show _ = weights V c (((cfg1.win 5).blk t).view.emb (ix2 r k))
  unfold weights
  have h0 : ((((cfg1.win 5).blk t).view.emb (ix2 r k)) 0).val = 1024 * (t.val / 64) + r.val := by
    show win1_5.index t (0 : Fin 2) * 1024 + 1 * r.val = _; rw [e0]; omega
  have h1 : ((((cfg1.win 5).blk t).view.emb (ix2 r k)) 1).val = 1024 * (t.val % 64) + k.val := by
    show win1_5.index t (1 : Fin 2) * 1024 + 1 * k.val = _; rw [e1]; omega
  rw [h0, h1]

theorem flushed6_eq (t : Fin cfg1.N) (hf : (cfg1.win 6).flush t = true) :
    (dat V c).flushed 6 t = ((cfg1.win 6).blk t).view.read (Elt Ideal) (scores V c) := by
  obtain ⟨-, -, -, -, -, -, -, -, -, -, -, -, e0, e1, -⟩ := idx_facts t
  show (cfg1.win 6).cut (grid1.coords t) ((dat V c).after 6 t) = _
  rw [after6, stateAt_s V c t]
  funext y
  obtain ⟨r, k, rfl⟩ : ∃ (r : Fin 1024) (k : Fin 1024), y = ix2 r k := ⟨y 0, y 1, eq_ix2 y⟩
  refine (score_tile V c t r k).trans ?_
  show _ = scores V c (((cfg1.win 6).blk t).view.emb (ix2 r k))
  unfold scores
  have h0 : ((((cfg1.win 6).blk t).view.emb (ix2 r k)) 0).val = 1024 * (t.val / 64) + r.val := by
    show win1_6.index t (0 : Fin 2) * 1024 + 1 * r.val = _; rw [e0]; omega
  have h1 : ((((cfg1.win 6).blk t).view.emb (ix2 r k)) 1).val = 1024 * (t.val % 64) + k.val := by
    show win1_6.index t (1 : Fin 2) * 1024 + 1 * k.val = _; rw [e1]; omega
  rw [h0, h1]

theorem flushed7_eq (t : Fin cfg1.N) (hf : (cfg1.win 7).flush t = true) :
    (dat V c).flushed 7 t = ((cfg1.win 7).blk t).view.read (Elt Ideal) (outs V c) := by
  have h63 : t.val % 64 = 63 := (flush1_7 t).mp hf
  obtain ⟨-, -, -, -, -, -, -, -, -, -, -, -, -, -, e0, e1⟩ := idx_facts t
  show (cfg1.win 7).cut (grid1.coords t) ((dat V c).after 7 t) = _
  rw [after7, stateAt_out V c t h63]
  funext y
  obtain ⟨r, u, rfl⟩ : ∃ (r : Fin 1024) (u : Fin 1), y = ix2 r u := ⟨y 0, y 1, eq_ix2 y⟩
  refine (colAt_apply V c t.val t.isLt r u).trans ?_
  rw [h63]
  show _ = outs V c (((cfg1.win 7).blk t).view.emb (ix2 r u))
  unfold outs
  have hrow : ((((cfg1.win 7).blk t).view.emb (ix2 r u)) 0).val = 1024 * (t.val / 64) + r.val := by
    show win1_7.index t (0 : Fin 2) * 1024 + 1 * r.val = _; rw [e0]; omega
  rw [hrow]

theorem covered5 (i : S2048x65536.Idx) : ∃ t : Fin cfg1.N, (cfg1.win 5).flush t = true ∧ i ∈ ((cfg1.win 5).blk t).view.set := by
  have hi0 : (i 0).val < 2048 := idx2_lt0 i
  have hi1 : (i 1).val < 65536 := idx2_lt1 i
  have hN : cfg1.N = 128 := N_1
  let t : Fin cfg1.N := ⟨64 * ((i 0).val / 1024) + (i 1).val / 1024, by rw [hN]; omega⟩
  have ht : t.val = 64 * ((i 0).val / 1024) + (i 1).val / 1024 := rfl
  obtain ⟨-, -, -, -, -, -, -, -, -, -, e0, e1, -⟩ := idx_facts t
  refine ⟨t, flush1_5 t, ?_⟩
  show i ∈ ((View.whole main_v14_0).slice (win1_5.rect t)).set
  rw [View.set_slice_whole, Rect.mem_set_unit]
  intro a
  match a with
  | ⟨0, _⟩ =>
    show win1_5.index t (0 : Fin 2) * 1024 ≤ (i 0).val ∧ (i 0).val < win1_5.index t (0 : Fin 2) * 1024 + 1024
    rw [e0, ht]; omega
  | ⟨1, _⟩ =>
    show win1_5.index t (1 : Fin 2) * 1024 ≤ (i 1).val ∧ (i 1).val < win1_5.index t (1 : Fin 2) * 1024 + 1024
    rw [e1, ht]; omega

theorem covered6 (i : S2048x65536.Idx) : ∃ t : Fin cfg1.N, (cfg1.win 6).flush t = true ∧ i ∈ ((cfg1.win 6).blk t).view.set := by
  have hi0 : (i 0).val < 2048 := idx2_lt0 i
  have hi1 : (i 1).val < 65536 := idx2_lt1 i
  have hN : cfg1.N = 128 := N_1
  let t : Fin cfg1.N := ⟨64 * ((i 0).val / 1024) + (i 1).val / 1024, by rw [hN]; omega⟩
  have ht : t.val = 64 * ((i 0).val / 1024) + (i 1).val / 1024 := rfl
  obtain ⟨-, -, -, -, -, -, -, -, -, -, -, -, e0, e1, -⟩ := idx_facts t
  refine ⟨t, flush1_6 t, ?_⟩
  show i ∈ ((View.whole main_v14_1).slice (win1_6.rect t)).set
  rw [View.set_slice_whole, Rect.mem_set_unit]
  intro a
  match a with
  | ⟨0, _⟩ =>
    show win1_6.index t (0 : Fin 2) * 1024 ≤ (i 0).val ∧ (i 0).val < win1_6.index t (0 : Fin 2) * 1024 + 1024
    rw [e0, ht]; omega
  | ⟨1, _⟩ =>
    show win1_6.index t (1 : Fin 2) * 1024 ≤ (i 1).val ∧ (i 1).val < win1_6.index t (1 : Fin 2) * 1024 + 1024
    rw [e1, ht]; omega

theorem covered7 (i : S2048x1.Idx) : ∃ t : Fin cfg1.N, (cfg1.win 7).flush t = true ∧ i ∈ ((cfg1.win 7).blk t).view.set := by
  have hi0 : (i 0).val < 2048 := idx2_lt0 i
  have hi1 : (i 1).val < 1 := idx2_lt1 i
  have hN : cfg1.N = 128 := N_1
  let t : Fin cfg1.N := ⟨64 * ((i 0).val / 1024) + 63, by rw [hN]; omega⟩
  have ht : t.val = 64 * ((i 0).val / 1024) + 63 := rfl
  obtain ⟨-, -, -, -, -, -, -, -, -, -, -, -, -, -, e0, e1⟩ := idx_facts t
  refine ⟨t, (flush1_7 t).mpr (by rw [ht]; omega), ?_⟩
  show i ∈ ((View.whole main_v14_2).slice (win1_7.rect t)).set
  rw [View.set_slice_whole, Rect.mem_set_unit]
  intro a
  match a with
  | ⟨0, _⟩ =>
    show win1_7.index t (0 : Fin 2) * 1024 ≤ (i 0).val ∧ (i 0).val < win1_7.index t (0 : Fin 2) * 1024 + 1024
    rw [e0, ht]; omega
  | ⟨1, _⟩ =>
    show win1_7.index t (1 : Fin 2) * 1 ≤ (i 1).val ∧ (i 1).val < win1_7.index t (1 : Fin 2) * 1 + 1
    rw [e1]; omega

/-- THE RESULT ARRAYS of the attention kernel. -/
theorem final5 : (dat V c).arrAt 5 cfg1.N = weights V c :=
  (dat V c).arrAt_eq_of_cover 5 (weights V c) (flushed5_eq V c) covered5
theorem final6 : (dat V c).arrAt 6 cfg1.N = scores V c :=
  (dat V c).arrAt_eq_of_cover 6 (scores V c) (flushed6_eq V c) covered6
theorem final7 : (dat V c).arrAt 7 cfg1.N = outs V c :=
  (dat V c).arrAt_eq_of_cover 7 (outs V c) (flushed7_eq V c) covered7

/-- Entry `R` of the output column: the sum of weight times value over all positions. -/
theorem outs_eq (i : S2048x1.Idx) : outs V c i = ∑ n : Fin 65536, wval V c (i 0).val n.val := by
  unfold outs
  rw [zero_add]
  exact Arith.sum_tiles 64 1024 (fun n => wval V c (i 0).val n)

end Cert.KernelIdeal.Att

end
-- ==== Proof.RefRead.lean ====
/-
  The reference, read at an index at the exact values. With `idx`, `kw`, `pe`, `val` its four arguments:
  the score at `(R, n)` is the sum over `d` of `(∑ k : Fin 1, idx (R, k) * kw (d, k)) * pe (n, d)` (divided by one); the row's
  shift is the largest score of the row, folded from `-∞`; the weight is `exp (score - shift)` over the row's sum of those
  from zero; the output is the row's sum, from zero, of weight times value.
-/
import proofs.«143615_j12283606468146_2_alg».proof.Proof.Gen.ReferenceIdeal.Read
import proofs.«143615_j12283606468146_2_alg».proof.Proof.LibLayout
import proofs.«143615_j12283606468146_2_alg».proof.Proof.Arith
import Idealize.ShloMosaic.Lib.IdealHost

noncomputable section

namespace Cert.RefRead

open Idealize.ShloMosaic Idealize.ShloMosaic.ValueIdx
open Cert.ReferenceIdeal Cert.ReferenceIdeal.Gen Cert.ReferenceIdeal.Read

variable (x0 : FVec Ideal S2048x65536 .f32) (x1 : FVec Ideal S2048x1 .f32) (x2 : FVec Ideal S65536x64 .f32) (x3 : FVec Ideal S64x1 .f32)

/-- The reference's score. -/
def rscore (R : Fin 2048) (n : Fin 65536) : EReal :=
  ∑ d : Fin 64, (∑ k : Fin 1, x1 (ix2 R k) * x3 (ix2 d k)) * x2 (ix2 n d)

theorem one_f32 : Ideal.ofBits .f32 0x3F800000#32 = ((1 : ℝ) : EReal) := by
  rw [Ideal.ofBits_one_f32, EReal.coe_one]
theorem neg_inf_f32 : Ideal.ofBits .f32 0xFF800000#32 = (⊥ : EReal) := by simp [Ideal.ofBits, Ideal.ieee]

theorem v2_apply (R : Fin 2048) (n : Fin 65536) : val_main_v2 (F := Ideal) x1 x2 x3 (ix2 R n) = rscore x1 x2 x3 R n := by
  rw [val_main_v2_apply]
  unfold rscore
  refine Finset.sum_congr rfl fun d _ => ?_
  have e1 : lidx_main_v2 (ix2 R n) d = ix2 R d := funext fun a => Fin.ext (by match a with | ⟨0, _⟩ => rfl | ⟨1, _⟩ => rfl)
  have e2 : ridx_main_v2 (ix2 R n) d = ix2 n d := funext fun a => Fin.ext (by match a with | ⟨0, _⟩ => rfl | ⟨1, _⟩ => rfl)
  rw [e1, e2, val_main_v1_apply]
  refine congrArg (· * x2 (ix2 n d)) (Finset.sum_congr rfl fun k _ => ?_)
  have e3 : lidx_main_v1 (ix2 R d) k = ix2 R k := funext fun a => Fin.ext (by match a with | ⟨0, _⟩ => rfl | ⟨1, _⟩ => rfl)
  have e4 : ridx_main_v1 (ix2 R d) k = ix2 k d := funext fun a => Fin.ext (by match a with | ⟨0, _⟩ => rfl | ⟨1, _⟩ => rfl)
  rw [e3, e4, val_main_v0_apply]
  have e5 : idx_main_v0 (ix2 k d) = ix2 d k := funext fun a => Fin.ext (by match a with | ⟨0, _⟩ => rfl | ⟨1, _⟩ => rfl)
  rw [e5]

theorem v4_apply (R : Fin 2048) (n : Fin 65536) : val_main_v4 (F := Ideal) x1 x2 x3 (ix2 R n) = rscore x1 x2 x3 R n := by
  rw [val_main_v4_apply, val_main_v3_apply]
  show Ideal.div (val_main_v2 (F := Ideal) x1 x2 x3 (ix2 R n)) (Ideal.ofBits .f32 0x3F800000#32) = _
  rw [one_f32, Arith.div_one', v2_apply]

/-- The reference's shift of row `R`. -/
def rshift (R : Fin 2048) : EReal := (Finset.univ : Finset (Fin 65536)).fold max (⊥ : EReal) (fun n => rscore x1 x2 x3 R n)

theorem v7_apply (R : Fin 2048) : val_main_v7 (F := Ideal) x1 x2 x3 (ix1 R) = rshift x1 x2 x3 R := by
  rw [val_main_v7_apply, val_main_v6_apply]
  show max (Ideal.ofBits .f32 0xFF800000#32) (val_main_v5 (F := Ideal) x1 x2 x3 (ix1 R)) = _
  rw [neg_inf_f32, max_eq_right bot_le]
  unfold val_main_v5 rshift
  rw [Host.reduce_eq_fold_single FloatOps.maximumf _ _ reducesTo_S2048x65536_S2048_d1 (by decide) h_S_ (ix1 R)]
  show (Finset.univ : Finset (Fin 65536)).fold max (Ideal.ofBits .f32 0xFF800000#32) _ = _
  rw [neg_inf_f32]
  refine congrArg (fun f => (Finset.univ : Finset (Fin 65536)).fold max (⊥ : EReal) f) (funext fun n => ?_)
  exact (congrArg (val_main_v4 (F := Ideal) x1 x2 x3) (Cert.LibLayout.lift_row (a := 2048) (b := 65536) (by decide) R n)).trans (v4_apply x1 x2 x3 R n)

/-- The reference's exponential. -/
def rexp (R : Fin 2048) (n : Fin 65536) : EReal := Ideal.exp (rscore x1 x2 x3 R n - rshift x1 x2 x3 R)

theorem v11_apply (R : Fin 2048) (n : Fin 65536) : val_main_v11 (F := Ideal) x1 x2 x3 (ix2 R n) = rexp x1 x2 x3 R n := by
  rw [val_main_v11_apply, val_main_v10_apply, v4_apply, val_main_v9_apply, val_main_v8_apply]
  have e : idx_main_v8 (idx_main_v9 (ix2 R n)) = ix1 R := funext fun a => Fin.ext (by match a with | ⟨0, _⟩ => rfl)
  rw [e, v7_apply]
  rfl

theorem zero_f32 : Ideal.ofBits .f32 0x00000000#32 = (0 : EReal) := Ideal.ofBits_zero_f32

/-- The reference's denominator. -/
theorem v12_apply (R : Fin 2048) : val_main_v12 (F := Ideal) x1 x2 x3 (ix1 R) = ∑ n : Fin 65536, rexp x1 x2 x3 R n := by
  rw [val_main_v12_apply]
  show Ideal.ofBits .f32 0x00000000#32 + _ = _
  rw [zero_f32, zero_add]
  refine Finset.sum_congr rfl fun n _ => ?_
  have e : idx_main_v12 (ix1 R) n = ix2 R n := funext fun a => Fin.ext (by match a with | ⟨0, _⟩ => rfl | ⟨1, _⟩ => rfl)
  rw [e, v11_apply]

/-- The reference's weight. -/
theorem v15_apply (R : Fin 2048) (n : Fin 65536) :
    val_main_v15 (F := Ideal) x1 x2 x3 (ix2 R n) = Ideal.div (rexp x1 x2 x3 R n) (∑ n' : Fin 65536, rexp x1 x2 x3 R n') := by
  rw [val_main_v15_apply, v11_apply, val_main_v14_apply, val_main_v13_apply]
  have e : idx_main_v13 (idx_main_v14 (ix2 R n)) = ix1 R := funext fun a => Fin.ext (by match a with | ⟨0, _⟩ => rfl)
  rw [e, v12_apply]
  rfl

/-- The reference's output. -/
theorem v18_apply (R : Fin 2048) (u : Fin 1) :
    val_main_v18 (F := Ideal) x0 x1 x2 x3 (ix2 R u)
      = ∑ n : Fin 65536, Ideal.div (rexp x1 x2 x3 R n) (∑ n' : Fin 65536, rexp x1 x2 x3 R n') * x0 (ix2 R n) := by
  rw [val_main_v18_apply]
  have e : idx_main_v18 (ix2 R u) = ix1 R := funext fun a => Fin.ext (by match a with | ⟨0, _⟩ => rfl)
  rw [e, val_main_v17_apply]
  show Ideal.ofBits .f32 0x00000000#32 + _ = _
  rw [zero_f32, zero_add]
  refine Finset.sum_congr rfl fun n _ => ?_
  have e2 : idx_main_v17 (ix1 R) n = ix2 R n := funext fun a => Fin.ext (by match a with | ⟨0, _⟩ => rfl | ⟨1, _⟩ => rfl)
  rw [e2, val_main_v16_apply, v15_apply]
  rfl

end Cert.RefRead

end
-- ==== Proof.Finite.lean ====
/-
  What the precondition says: every entry of the scale column, of the embeddings and of the key weights is a real
  number. The printed predicate is a conjunction of four `all (|x| < +∞)`; each conjunct is read back entry by entry,
  and an extended real whose absolute value is below `+∞` is a real.
-/
import proofs.«143615_j12283606468146_2_alg».proof.Pre_finite_inputs
import proofs.«143615_j12283606468146_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

/-- An extended real whose absolute value is below `+∞` is a real. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

theorem entries_real (x0 : FVec Ideal S2048x65536 .f32) (x1 : FVec Ideal S2048x1 .f32) (x2 : FVec Ideal S65536x64 .f32) (x3 : FVec Ideal S64x1 .f32)
    (h : fn (F := Ideal) x0 x1 x2 x3 = fun _ => 1#1) :
    (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [fn, fn_part1] at h0
  obtain ⟨h012, h3⟩ := IntOp.andi_eq_one.1 (show IntOp.andi _ _ = 1#1 from h0)
  obtain ⟨h01, h2⟩ := IntOp.andi_eq_one.1 (show IntOp.andi _ _ = 1#1 from h012)
  obtain ⟨-, h1⟩ := IntOp.andi_eq_one.1 (show IntOp.andi _ _ = 1#1 from h01)
  refine ⟨fun i => ?_, fun i => ?_, fun i => ?_⟩
  · exact real_of_abs_lt (x1 i) (Host.reduce_andi_all _ _ _ _ _ h1 i)
  · exact real_of_abs_lt (x2 i) (Host.reduce_andi_all _ _ _ _ _ h2 i)
  · exact real_of_abs_lt (x3 i) (Host.reduce_andi_all _ _ _ _ _ h3 i)

end Cert.Finite

end
-- ==== Proof.Bridge.lean ====
/-
  The two programs' results are one function of the arguments, entry by entry, when the scale column, the embeddings and
  the key weights are real numbers.

  * The scores: `∑ d, (∑ k : Fin 1, idx R k * kw d k) * pe n d = idx R * ∑ d, pe n d * kw d` — a real scale moves across a
    finite sum of products of reals.
  * The shift: the largest of the row's scores `idx R * s n` is `idx R` times the largest `s n` when `0 ≤ idx R`, times the
    smallest otherwise — which is what the kernel's program selects.
  * So the exponentials agree term by term, hence their sums (the kernel's, taken tile by tile, is the sum), the weights
    and the outputs.
-/
import proofs.«143615_j12283606468146_2_alg».proof.Proof.HostSide
import proofs.«143615_j12283606468146_2_alg».proof.Proof.DenArray
import proofs.«143615_j12283606468146_2_alg».proof.Proof.AttArray
import proofs.«143615_j12283606468146_2_alg».proof.Proof.RefRead
import proofs.«143615_j12283606468146_2_alg».proof.Proof.Finite

noncomputable section

namespace Cert.Bridge

open Idealize.ShloMosaic Idealize.ShloMosaic.TcCoe Idealize.ShloMosaic.ValueIdx Idealize.SL.Sem
open Cert.KernelIdeal Cert.KernelIdeal.Gen Cert.KernelIdeal.Whole Cert.RefRead

variable (x0 : FVec Ideal S2048x65536 .f32) (x1 : FVec Ideal S2048x1 .f32) (x2 : FVec Ideal S65536x64 .f32) (x3 : FVec Ideal S64x1 .f32)

/-! ## The arithmetic, on real entries -/

section Real
variable (a : S2048x1.Idx → ℝ) (p : S65536x64.Idx → ℝ) (k : S64x1.Idx → ℝ)
  (ha : ∀ i, x1 i = (a i : EReal)) (hp : ∀ i, x2 i = (p i : EReal)) (hk : ∀ i, x3 i = (k i : EReal))

/-- The score row's entries are reals. -/
def rowReal (n : Fin 65536) : ℝ := ∑ d : Fin 64, p (ix2 n d) * k (ix2 d (0 : Fin 1))

include hp hk in
theorem row_real (u : Fin 1) (n : Fin 65536) : rowArr (F := Ideal) x2 x3 (ix2 u n) = (rowReal p k n : EReal) := by
  rw [rowArr_apply]
  unfold rowReal
  rw [Arith.coe_sum]
  exact Finset.sum_congr rfl fun d _ => by rw [hp, hk, EReal.coe_mul]

include ha hp hk in
/-- THE SCORES AGREE. -/
theorem score_eq (R : Fin 2048) (n : Fin 65536) :
    rscore x1 x2 x3 R n = x1 (ix2 R (0 : Fin 1)) * rowArr (F := Ideal) x2 x3 (ix2 (0 : Fin 1) n) := by
  rw [rowArr_apply]
  unfold rscore
  simp only [Fin.sum_univ_one]
  simp only [ha, hp, hk]
  exact (Arith.scale_sum (a (ix2 R 0)) (fun d => p (ix2 n d)) (fun d => k (ix2 d 0))).symm

include ha hp hk in
/-- THE SHIFTS AGREE. -/
theorem shift_eq (R : Fin 2048) : rshift x1 x2 x3 R = shiftArr (F := Ideal) x1 x2 x3 (ix2 R (0 : Fin 1)) := by
  haveI : Nonempty (Fin 65536) := ⟨⟨0, by omega⟩⟩
  haveI : Nonempty S1x65536.Idx := ⟨ix2 (0 : Fin 1) (⟨0, by omega⟩ : Fin 65536)⟩
  have hrow : (rowArr (F := Ideal) x2 x3 : S1x65536.Idx → EReal) = fun i => ((rowReal p k (⟨(i 1).val, idx2_lt1 i⟩ : Fin 65536) : ℝ) : EReal) := by
    funext i
    obtain ⟨u, n, rfl⟩ : ∃ (u : Fin 1) (n : Fin 65536), i = ix2 u n := ⟨i 0, i 1, eq_ix2 i⟩
    exact row_real x2 x3 p k hp hk u n
  have hsurj : Function.Surjective (fun n : Fin 65536 => (ix2 (0 : Fin 1) n : S1x65536.Idx)) := fun i =>
    ⟨i 1, by
      funext d
      match d with
      | ⟨0, _⟩ => exact Fin.ext (by have := idx2_lt0 i; show 0 = (i 0).val; omega)
      | ⟨1, _⟩ => rfl⟩
  rw [shiftArr_apply, hrow,
    Arith.fold_max_reindex (fun n : Fin 65536 => (ix2 (0 : Fin 1) n : S1x65536.Idx)) hsurj (fun i => rowReal p k (⟨(i 1).val, idx2_lt1 i⟩ : Fin 65536)),
    Arith.fold_min_reindex (fun n : Fin 65536 => (ix2 (0 : Fin 1) n : S1x65536.Idx)) hsurj (fun i => rowReal p k (⟨(i 1).val, idx2_lt1 i⟩ : Fin 65536))]
  unfold rshift
  have hs : (fun n : Fin 65536 => rscore x1 x2 x3 R n) = fun n => (a (ix2 R 0) : EReal) * (rowReal p k n : EReal) := by
    funext n
    rw [score_eq x1 x2 x3 a p k ha hp hk R n, row_real x2 x3 p k hp hk 0 n, ha]
  rw [hs, Arith.fold_max_scale, ha]

end Real

end Cert.Bridge

end
-- ==== Proof.Results.lean ====
/-
  The kernel's three result arrays, entry by entry, are the reference's.

  What the attention kernel is handed is read back to the arguments: the scale column and the values are arguments, the
  score row and the shift column are the host's terms of them, the denominator column is what the first kernel left —
  at row `R` the sum over all positions of `exp (idx R * s n - shift R)`. With the scores and the shifts agreeing
  (on real entries), the reference's exponential is the kernel's term by term, so the weights, and the outputs, agree.
-/
import proofs.«143615_j12283606468146_2_alg».proof.Proof.Bridge

noncomputable section

namespace Cert.Bridge

open Idealize.ShloMosaic Idealize.ShloMosaic.TcCoe Idealize.ShloMosaic.ValueIdx Idealize.SL.Sem
open Cert.KernelIdeal Cert.KernelIdeal.Gen Cert.KernelIdeal.Whole Cert.RefRead
open Cert.ReferenceIdeal.Read

variable (m : (ℓ : Loc nD τ sig) → Buf (Elt Ideal) ℓ) (c : Dev nD)

/-- The four argument arrays at launch. -/
abbrev A0 : S2048x65536.Idx → EReal := m ((c : Thread nD τ).loc main_arg0)
abbrev A1 : S2048x1.Idx → EReal := m ((c : Thread nD τ).loc main_arg1)
abbrev A2 : S65536x64.Idx → EReal := m ((c : Thread nD τ).loc main_arg2)
abbrev A3 : S64x1.Idx → EReal := m ((c : Thread nD τ).loc main_arg3)

/-! ## What the second kernel is handed -/

theorem in_scale : E3 m c main_arg1 = m ((c : Thread nD τ).loc main_arg1) := (W3_in m c 0 rfl).trans (E2_scale m c)
theorem in_row : E3 m c main_v3 = rowArr (F := Ideal) (m ((c : Thread nD τ).loc main_arg2)) (m ((c : Thread nD τ).loc main_arg3)) :=
  (W3_in m c 1 rfl).trans (E2_row m c)
theorem in_shift : E3 m c main_v12 = shiftArr (F := Ideal) (m ((c : Thread nD τ).loc main_arg1)) (m ((c : Thread nD τ).loc main_arg2)) (m ((c : Thread nD τ).loc main_arg3)) :=
  (W3_in m c 2 rfl).trans (E2_shift m c)
theorem in_den : E3 m c main_v13 = Den.denom (E2 m) c := (W3_arr m c 3).trans (Den.final (E2 m) c)
theorem in_val : E3 m c main_arg0 = m ((c : Thread nD τ).loc main_arg0) :=
  (W3_of_ne m c main_arg0 (by decide)).trans (W2_kept m c main_arg0 (by decide) (by decide))

/-- The kernel's exponential at row `R`, position `n`, in terms of the arguments. -/
def kexp (R : Fin 2048) (n : Fin 65536) : EReal :=
  Ideal.exp ((A1 m c) (ix2 R (0 : Fin 1)) * rowArr (F := Ideal) (A2 m c) (A3 m c) (ix2 (0 : Fin 1) n) - shiftArr (F := Ideal) (A1 m c) (A2 m c) (A3 m c) (ix2 R (0 : Fin 1)))

theorem den_term (R : Fin 2048) (n : Fin 65536) : Den.term (E2 m) c R.val n.val = kexp m c R n := by
  unfold Den.term Den.scaleN Den.rowN Den.shiftN kexp
  simp only [dif_pos R.isLt, dif_pos n.isLt]
  rw [E2_scale, E2_row, E2_shift]

theorem den_at (R : Fin 2048) (u : Fin 1) : Den.denom (E2 m) c (ix2 R u) = ∑ n : Fin 65536, kexp m c R n := by
  rw [Den.denom_eq]
  exact Finset.sum_congr rfl fun n _ => den_term m c R n

theorem att_score (R : Fin 2048) (n : Fin 65536) :
    Att.score (E3 m) c R.val n.val = (A1 m c) (ix2 R (0 : Fin 1)) * rowArr (F := Ideal) (A2 m c) (A3 m c) (ix2 (0 : Fin 1) n) := by
  unfold Att.score Att.scaleN Att.rowN
  simp only [dif_pos R.isLt, dif_pos n.isLt]
  rw [in_scale, in_row]

theorem att_weight (R : Fin 2048) (n : Fin 65536) :
    Att.weight (E3 m) c R.val n.val = Ideal.div (kexp m c R n) (∑ n' : Fin 65536, kexp m c R n') := by
  unfold Att.weight Att.scaleN Att.rowN Att.shiftN Att.denN kexp
  simp only [dif_pos R.isLt, dif_pos n.isLt]
  rw [in_scale, in_row, in_shift, in_den, den_at]
  rfl

theorem att_wval (R : Fin 2048) (n : Fin 65536) :
    Att.wval (E3 m) c R.val n.val = Ideal.div (kexp m c R n) (∑ n' : Fin 65536, kexp m c R n') * (A0 m c) (ix2 R n) := by
  unfold Att.wval Att.valN
  rw [att_weight, dif_pos (⟨R.isLt, n.isLt⟩ : R.val < 2048 ∧ n.val < 65536), in_val]

/-! ## The results -/

section Real
variable (a : S2048x1.Idx → ℝ) (p : S65536x64.Idx → ℝ) (k : S64x1.Idx → ℝ)
  (ha : ∀ i, (A1 m c) i = (a i : EReal)) (hp : ∀ i, (A2 m c) i = (p i : EReal)) (hk : ∀ i, (A3 m c) i = (k i : EReal))

include ha hp hk in
/-- The exponentials agree. -/
theorem exp_eq (R : Fin 2048) (n : Fin 65536) : rexp (A1 m c) (A2 m c) (A3 m c) R n = kexp m c R n := by
  unfold rexp kexp
  rw [score_eq (A1 m c) (A2 m c) (A3 m c) a p k ha hp hk R n, shift_eq (A1 m c) (A2 m c) (A3 m c) a p k ha hp hk R]

include ha hp hk in
/-- THE SCORES. -/
theorem scores_eq : W4 m c (Proc.devRef .tc main_v14_1) = val_main_v2 (F := Ideal) (A1 m c) (A2 m c) (A3 m c) := by
  refine (W4_arr m c 6).trans ((Att.final6 (E3 m) c).trans (funext fun i => ?_))
  obtain ⟨R, n, rfl⟩ : ∃ (R : Fin 2048) (n : Fin 65536), i = ix2 R n := ⟨i 0, i 1, eq_ix2 i⟩
  rw [v2_apply, score_eq (A1 m c) (A2 m c) (A3 m c) a p k ha hp hk R n]
  exact att_score m c R n

include ha hp hk in
/-- THE WEIGHTS. -/
theorem weights_eq : W4 m c (Proc.devRef .tc main_v14_0) = val_main_v15 (F := Ideal) (A1 m c) (A2 m c) (A3 m c) := by
  refine (W4_arr m c 5).trans ((Att.final5 (E3 m) c).trans (funext fun i => ?_))
  obtain ⟨R, n, rfl⟩ : ∃ (R : Fin 2048) (n : Fin 65536), i = ix2 R n := ⟨i 0, i 1, eq_ix2 i⟩
  rw [v15_apply]
  simp only [exp_eq m c a p k ha hp hk]
  exact att_weight m c R n

include ha hp hk in
/-- THE OUTPUTS. -/
theorem outs_eq : W4 m c (Proc.devRef .tc main_v14_2) = val_main_v18 (F := Ideal) (A0 m c) (A1 m c) (A2 m c) (A3 m c) := by
  refine (W4_arr m c 7).trans ((Att.final7 (E3 m) c).trans (funext fun i => ?_))
  obtain ⟨R, u, rfl⟩ : ∃ (R : Fin 2048) (u : Fin 1), i = ix2 R u := ⟨i 0, i 1, eq_ix2 i⟩
  rw [v18_apply, Att.outs_eq]
  simp only [exp_eq m c a p k ha hp hk]
  exact Finset.sum_congr rfl fun n _ => att_wval m c R n

end Real

end Cert.Bridge

end
-- ==== Proof.lean ====
/-
  The two programs compute one function at the exact values.

  The kernel's program forms the score row `s n = ∑ d, pe n d * kw d` once on the host, its largest and smallest entries,
  and for each query row `b` the shift `m b = idx b * max s` or `idx b * min s` by the sign of the scale `idx b`; a first
  kernel accumulates, column tile by column tile, the denominators `l b = ∑ n, exp (idx b * s n - m b)`; a second writes
  the scores `idx b * s n`, the weights `exp (idx b * s n - m b) / l b` and, accumulated again tile by tile, the outputs
  `∑ n, weight b n * value b n`. The reference forms the queries `idx b * kw d`, the scores `∑ d, (idx b * kw d) * pe n d`,
  and takes the softmax of each row about its own maximum. On finite inputs the scores agree (a real scale moves across
  a finite sum), the row maximum of `idx b * s n` is the kernel's shift (the scale times the largest or the smallest
  entry, by its sign), and a sum taken tile by tile is the sum: so weights and outputs agree entry by entry.

  The frames: each kernel region is run once per control case (first, middle, last column tile), the scratch column's
  contents named after every grid point; the reference's frame is its generated run.
-/
import proofs.«143615_j12283606468146_2_alg».proof.Defs
import proofs.«143615_j12283606468146_2_alg».proof.Proof.Gen.Kernel
import proofs.«143615_j12283606468146_2_alg».proof.Proof.Gen.KernelIdeal
import proofs.«143615_j12283606468146_2_alg».proof.Proof.Gen.ReferenceIdeal
import proofs.«143615_j12283606468146_2_alg».proof.Proof.Gen.Pre_finite_inputs
import proofs.«143615_j12283606468146_2_alg».proof.Proof.Gen.ReferenceIdeal.Run
import proofs.«143615_j12283606468146_2_alg».proof.Proof.Gen.ReferenceIdeal.Read
import proofs.«143615_j12283606468146_2_alg».proof.Proof.WEnds
import proofs.«143615_j12283606468146_2_alg».proof.Proof.Results
import Idealize.ShloMosaic.Adequacy
import Idealize.ShloMosaic.Init

noncomputable section

namespace Cert.Proof

open Idealize.ShloMosaic Idealize.SL.Sem

theorem frame_k : Cert.frame_Kernel := fun m ρ _ => Cert.Kernel.Whole.frame (F := Bits) m ρ
theorem frame_ki : Cert.frame_KernelIdeal := fun m ρ _ => Cert.KernelIdeal.Whole.frame (F := Ideal) m ρ
theorem frame_ri : Cert.frame_ReferenceIdeal := fun m ρ _ =>
  (θ_run Cert.ReferenceIdeal.defs _ _).mono (fun _ h c => (h c).2.2.2) (Cert.ReferenceIdeal.Value.run (F := Ideal) m ρ)

/-- At the exact values the kernel's program ends with its three result arrays at the last boundary's contents, the reference
    with its three at its composed term of the arguments; on arguments that agree and are finite, these are equal. -/
theorem algebraic : Cert.algebraic_KernelIdeal_ReferenceIdeal := by
  intro m ρ m' ρ' hpre hagree
  refine ⟨fun c => Cert.KernelIdeal.Whole.W4 m c (Proc.devRef .tc Cert.KernelIdeal.main_v14_2),
    fun c => Cert.KernelIdeal.Whole.W4 m c (Proc.devRef .tc Cert.KernelIdeal.main_v14_0),
    fun c => Cert.KernelIdeal.Whole.W4 m c (Proc.devRef .tc Cert.KernelIdeal.main_v14_1), ?_, ?_⟩
  · exact (θ_run Cert.KernelIdeal.defs _ _).mono (fun r h c =>
      ⟨h c _ (Cert.KernelIdeal.Whole.mem_uc Cert.KernelIdeal.main_v14_2 (by decide)),
       h c _ (Cert.KernelIdeal.Whole.mem_uc Cert.KernelIdeal.main_v14_0 (by decide)),
       h c _ (Cert.KernelIdeal.Whole.mem_uc Cert.KernelIdeal.main_v14_1 (by decide)),
       (h c _ (Cert.KernelIdeal.Whole.mem_uc Cert.KernelIdeal.main_arg0 (by decide))).trans (Cert.KernelIdeal.Whole.W4_main_arg0 m c),
       (h c _ (Cert.KernelIdeal.Whole.mem_uc Cert.KernelIdeal.main_arg1 (by decide))).trans (Cert.KernelIdeal.Whole.W4_main_arg1 m c),
       (h c _ (Cert.KernelIdeal.Whole.mem_uc Cert.KernelIdeal.main_arg2 (by decide))).trans (Cert.KernelIdeal.Whole.W4_main_arg2 m c),
       (h c _ (Cert.KernelIdeal.Whole.mem_uc Cert.KernelIdeal.main_arg3 (by decide))).trans (Cert.KernelIdeal.Whole.W4_main_arg3 m c)⟩)
      (Cert.KernelIdeal.Whole.run_all (F := Ideal) m ρ)
  · refine (θ_run Cert.ReferenceIdeal.defs _ _).mono (fun r h c => ?_) (Cert.ReferenceIdeal.Value.run (F := Ideal) m' ρ')
    obtain ⟨h18, h15, h2, a0, a1, a2, a3⟩ := h c
    obtain ⟨e0, e1, e2, e3⟩ := hagree c
    obtain ⟨hr1, hr2, hr3⟩ := Cert.Finite.entries_real _ _ _ _ (hpre c)
    choose a ha using hr1
    choose p hp using hr2
    choose k hk using hr3
    refine ⟨?_, ?_, ?_, a0, a1, a2, a3⟩
    · rw [h18, Cert.ReferenceIdeal.Read.val_main_v18_eq, e0, e1, e2, e3]
      exact (Cert.Bridge.outs_eq m c a p k ha hp hk).symm
    · rw [h15, Cert.ReferenceIdeal.Read.val_main_v15_eq, e1, e2, e3]
      exact (Cert.Bridge.weights_eq m c a p k ha hp hk).symm
    · rw [h2, Cert.ReferenceIdeal.Read.val_main_v2_eq, e1, e2, e3]
      exact (Cert.Bridge.scores_eq m c a p k ha hp hk).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
